-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x40 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x40 : Shape := ⟨2, ![50000, 40]⟩
abbrev S5000x40 : Shape := ⟨2, ![5000, 40]⟩
abbrev S650000x40 : Shape := ⟨2, ![650000, 40]⟩
abbrev S1x40 : Shape := ⟨2, ![1, 40]⟩

abbrev nBuf : Space → Nat
  | .hbm => 178
  | .vmem => 33
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S50000x128, .f32⟩
  | 53 => ⟨S_, .i32⟩
  | 54 => ⟨S650000, .i32⟩
  | 55 => ⟨S650000, .i1⟩
  | 56 => ⟨S_, .i32⟩
  | 57 => ⟨S650000, .i32⟩
  | 58 => ⟨S650000, .i32⟩
  | 59 => ⟨S650000, .i32⟩
  | 60 => ⟨S650000x1, .i32⟩
  | 61 => ⟨S650000x128, .f32⟩
  | 62 => ⟨S650000x1, .f32⟩
  | 63 => ⟨S650000x128, .f32⟩
  | 64 => ⟨S650000x128, .f32⟩
  | 65 => ⟨S_, .f32⟩
  | 66 => ⟨S50000x128, .f32⟩
  | 67 => ⟨S650000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S_, .f32⟩
  | 90 => ⟨S_, .f32⟩
  | 91 => ⟨S_, .f32⟩
  | 92 => ⟨S128, .f32⟩
  | 93 => ⟨S1x128, .f32⟩
  | 94 => ⟨S1x128, .f32⟩
  | 95 => ⟨S1x128, .f32⟩
  | 96 => ⟨S_, .f32⟩
  | 97 => ⟨S_, .i1⟩
  | 98 => ⟨S_, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S50000x128, .f32⟩
  | 105 => ⟨S50000x128, .f32⟩
  | 106 => ⟨S_, .i32⟩
  | 107 => ⟨S650000, .i32⟩
  | 108 => ⟨S650000, .i1⟩
  | 109 => ⟨S_, .i32⟩
  | 110 => ⟨S650000, .i32⟩
  | 111 => ⟨S650000, .i32⟩
  | 112 => ⟨S650000, .i32⟩
  | 113 => ⟨S650000x1, .i32⟩
  | 114 => ⟨S650000x128, .f32⟩
  | 115 => ⟨S650000x1, .f32⟩
  | 116 => ⟨S650000x128, .f32⟩
  | 117 => ⟨S650000x128, .f32⟩
  | 118 => ⟨S_, .f32⟩
  | 119 => ⟨S50000x128, .f32⟩
  | 120 => ⟨S650000x1, .i32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S128, .f32⟩
  | 127 => ⟨S1x128, .f32⟩
  | _ => ⟨S50000x128, .f32⟩

abbrev hbmTy0_1 (i : Nat) : BufTy := match i % 128 with
  | 0 => ⟨S_, .f32⟩
  | 1 => ⟨S1x128, .f32⟩
  | 2 => ⟨S1x128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S_, .f32⟩
  | 15 => ⟨S_, .f32⟩
  | 16 => ⟨S_, .f32⟩
  | 17 => ⟨S128, .f32⟩
  | 18 => ⟨S1x128, .f32⟩
  | 19 => ⟨S1x128, .f32⟩
  | 20 => ⟨S1x128, .f32⟩
  | 21 => ⟨S_, .f32⟩
  | 22 => ⟨S_, .i1⟩
  | 23 => ⟨S_, .f32⟩
  | 24 => ⟨S_, .f32⟩
  | 25 => ⟨S1x128, .f32⟩
  | 26 => ⟨S1x128, .f32⟩
  | 27 => ⟨S1x128, .f32⟩
  | 28 => ⟨S1x128, .f32⟩
  | 29 => ⟨S50000x128, .f32⟩
  | 30 => ⟨S50000x40, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000x40, .f32⟩
  | 40 => ⟨S650000x1, .f32⟩
  | 41 => ⟨S650000x40, .f32⟩
  | 42 => ⟨S650000x40, .f32⟩
  | 43 => ⟨S_, .f32⟩
  | 44 => ⟨S50000x40, .f32⟩
  | 45 => ⟨S650000x1, .i32⟩
  | 46 => ⟨S50000x40, .f32⟩
  | 47 => ⟨S1x40, .f32⟩
  | 48 => ⟨S50000x40, .f32⟩
  | 49 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x40, .f32⟩
  | .local _ .vmem, ⟨31, _⟩ => ⟨S5000x40, .f32⟩
  | .local _ .vmem, ⟨32, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_cst_1 : Ref sig .tc := ⟨.hbm, 89, rfl⟩
abbrev main_call1_v8 : Ref sig .tc := ⟨.hbm, 90, rfl⟩
abbrev main_call1_cst_2 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_cst_3 : Ref sig .tc := ⟨.hbm, 96, rfl⟩
abbrev main_call1_v13 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_12 : Ref sig .tc := ⟨.hbm, 106, rfl⟩
abbrev main_v56 : Ref sig .tc := ⟨.hbm, 107, rfl⟩
abbrev main_v57 : Ref sig .tc := ⟨.hbm, 108, rfl⟩
abbrev main_c_13 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_14 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_15 : Ref sig .tc := ⟨.hbm, 125, rfl⟩
abbrev main_v72 : Ref sig .tc := ⟨.hbm, 126, rfl⟩
abbrev main_v73 : Ref sig .tc := ⟨.hbm, 127, rfl⟩
abbrev main_cst_16 : Ref sig .tc := ⟨.hbm, 128, rfl⟩
abbrev main_v74 : Ref sig .tc := ⟨.hbm, 129, rfl⟩
abbrev main_v75 : Ref sig .tc := ⟨.hbm, 130, rfl⟩
abbrev main_c_17 : Ref sig .tc := ⟨.hbm, 131, rfl⟩
abbrev main_call2_cst : Ref sig .tc := ⟨.hbm, 132, rfl⟩
abbrev main_call2_v0 : Ref sig .tc := ⟨.hbm, 133, rfl⟩
abbrev main_call2_v1 : Ref sig .tc := ⟨.hbm, 134, rfl⟩
abbrev main_call2_cst_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_cst_1 : Ref sig .tc := ⟨.hbm, 142, rfl⟩
abbrev main_call2_v8 : Ref sig .tc := ⟨.hbm, 143, rfl⟩
abbrev main_call2_cst_2 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_v12 : Ref sig .tc := ⟨.hbm, 148, rfl⟩
abbrev main_call2_cst_3 : Ref sig .tc := ⟨.hbm, 149, rfl⟩
abbrev main_call2_v13 : Ref sig .tc := ⟨.hbm, 150, rfl⟩
abbrev main_call2_cst_4 : Ref sig .tc := ⟨.hbm, 151, rfl⟩
abbrev main_call2_call0_v0 : Ref sig .tc := ⟨.hbm, 152, rfl⟩
abbrev main_call2_call0_v1 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_c_18 : Ref sig .tc := ⟨.hbm, 159, rfl⟩
abbrev main_v81 : Ref sig .tc := ⟨.hbm, 160, rfl⟩
abbrev main_v82 : Ref sig .tc := ⟨.hbm, 161, rfl⟩
abbrev main_c_19 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_cst_20 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S650000x1_S650000x40_0_1 : S650000x1.BroadcastsInDim S650000x40 (![0, 1] : Fin 2 → Fin S650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x40_S5000x40_1_0_0_1_n_n_wf : DotDims.WF S5000x128 S128x40 S5000x40 [1] [0] [0] [1] [] []
  gather_S50000x40_S650000x1_S650000x40_1_0_n_n_0_1_140_wf : GatherDims.WF S50000x40 S650000x1 S650000x40 [1] [0] [] [0] [] 1 ![1, 40]
  scatter_S50000x40_S650000x1_S650000x40_1_0_0_1_wf : ScatterDims.WF S50000x40 S650000x1 S650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S650000x1_S650000x40_1_0_n_n_0_1_140 : GatherDims S50000x40 S650000x1 S650000x40 where
  offsetDims := [1]
  collapsedSliceDims := [0]
  operandBatchingDims := []
  startIndicesBatchingDims := []
  startIndexMap := [0]
  indexVectorDim := 1
  sliceSizes := ![1, 40]
  wf := gather_S50000x40_S650000x1_S650000x40_1_0_n_n_0_1_140_wf
def scatter_S50000x40_S650000x1_S650000x40_1_0_0_1 : ScatterDims S50000x40 S650000x1 S650000x40 where
  updateWindowDims := [1]
  insertedWindowDims := [0]
  scatterDimsToOperandDims := [0]
  indexVectorDim := 1
  wf := scatter_S50000x40_S650000x1_S650000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v79) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x40 : Shape := ⟨2, ![50000, 40]⟩
abbrev S650000x40 : Shape := ⟨2, ![650000, 40]⟩
abbrev S1x40 : Shape := ⟨2, ![1, 40]⟩

abbrev nBuf : Space → Nat
  | .hbm => 210
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S50000x128, .f32⟩
  | 53 => ⟨S_, .i32⟩
  | 54 => ⟨S650000, .i32⟩
  | 55 => ⟨S650000, .i1⟩
  | 56 => ⟨S_, .i32⟩
  | 57 => ⟨S650000, .i32⟩
  | 58 => ⟨S650000, .i32⟩
  | 59 => ⟨S650000, .i32⟩
  | 60 => ⟨S650000x1, .i32⟩
  | 61 => ⟨S650000x128, .f32⟩
  | 62 => ⟨S650000x1, .f32⟩
  | 63 => ⟨S650000x128, .f32⟩
  | 64 => ⟨S650000x128, .f32⟩
  | 65 => ⟨S_, .f32⟩
  | 66 => ⟨S50000x128, .f32⟩
  | 67 => ⟨S650000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S650000, .i32⟩
  | 122 => ⟨S650000, .i1⟩
  | 123 => ⟨S_, .i32⟩
  | 124 => ⟨S650000, .i32⟩
  | 125 => ⟨S650000, .i32⟩
  | 126 => ⟨S650000, .i32⟩
  | 127 => ⟨S650000x1, .i32⟩
  | _ => ⟨S50000x128, .f32⟩

abbrev hbmTy0_1 (i : Nat) : BufTy := match i % 128 with
  | 0 => ⟨S650000x128, .f32⟩
  | 1 => ⟨S650000x1, .f32⟩
  | 2 => ⟨S650000x128, .f32⟩
  | 3 => ⟨S650000x128, .f32⟩
  | 4 => ⟨S_, .f32⟩
  | 5 => ⟨S50000x128, .f32⟩
  | 6 => ⟨S650000x1, .i32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x40, .f32⟩
  | 63 => ⟨S_, .i32⟩
  | 64 => ⟨S650000, .i32⟩
  | 65 => ⟨S650000, .i1⟩
  | 66 => ⟨S_, .i32⟩
  | 67 => ⟨S650000, .i32⟩
  | 68 => ⟨S650000, .i32⟩
  | 69 => ⟨S650000, .i32⟩
  | 70 => ⟨S650000x1, .i32⟩
  | 71 => ⟨S650000x40, .f32⟩
  | 72 => ⟨S650000x1, .f32⟩
  | 73 => ⟨S650000x40, .f32⟩
  | 74 => ⟨S650000x40, .f32⟩
  | 75 => ⟨S_, .f32⟩
  | 76 => ⟨S50000x40, .f32⟩
  | 77 => ⟨S650000x1, .i32⟩
  | 78 => ⟨S50000x40, .f32⟩
  | 79 => ⟨S1x40, .f32⟩
  | 80 => ⟨S50000x40, .f32⟩
  | 81 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_12 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_call2_cst : Ref sig .tc := ⟨.hbm, 116, rfl⟩
abbrev main_call2_v0 : Ref sig .tc := ⟨.hbm, 117, rfl⟩
abbrev main_v66 : Ref sig .tc := ⟨.hbm, 118, rfl⟩
abbrev main_v67 : Ref sig .tc := ⟨.hbm, 119, rfl⟩
abbrev main_c_13 : Ref sig .tc := ⟨.hbm, 120, rfl⟩
abbrev main_v68 : Ref sig .tc := ⟨.hbm, 121, rfl⟩
abbrev main_v69 : Ref sig .tc := ⟨.hbm, 122, rfl⟩
abbrev main_c_14 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_15 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_16 : Ref sig .tc := ⟨.hbm, 139, rfl⟩
abbrev main_v84 : Ref sig .tc := ⟨.hbm, 140, rfl⟩
abbrev main_cst_17 : Ref sig .tc := ⟨.hbm, 141, rfl⟩
abbrev main_v85 : Ref sig .tc := ⟨.hbm, 142, rfl⟩
abbrev main_v86 : Ref sig .tc := ⟨.hbm, 143, rfl⟩
abbrev main_c_18 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_cst_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_v6 : Ref sig .tc := ⟨.hbm, 153, rfl⟩
abbrev main_call3_v7 : Ref sig .tc := ⟨.hbm, 154, rfl⟩
abbrev main_call3_cst_1 : Ref sig .tc := ⟨.hbm, 155, rfl⟩
abbrev main_call3_v8 : Ref sig .tc := ⟨.hbm, 156, rfl⟩
abbrev main_call3_cst_2 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_cst_3 : Ref sig .tc := ⟨.hbm, 161, rfl⟩
abbrev main_call3_v12 : Ref sig .tc := ⟨.hbm, 162, rfl⟩
abbrev main_call3_cst_4 : Ref sig .tc := ⟨.hbm, 163, rfl⟩
abbrev main_call3_call0_v0 : Ref sig .tc := ⟨.hbm, 164, rfl⟩
abbrev main_call3_call0_v1 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_19 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_cst_20 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_call4_cst : Ref sig .tc := ⟨.hbm, 187, rfl⟩
abbrev main_call4_v0 : Ref sig .tc := ⟨.hbm, 188, rfl⟩
abbrev main_v106 : Ref sig .tc := ⟨.hbm, 189, rfl⟩
abbrev main_v107 : Ref sig .tc := ⟨.hbm, 190, rfl⟩
abbrev main_c_21 : Ref sig .tc := ⟨.hbm, 191, rfl⟩
abbrev main_v108 : Ref sig .tc := ⟨.hbm, 192, rfl⟩
abbrev main_v109 : Ref sig .tc := ⟨.hbm, 193, rfl⟩
abbrev main_c_22 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_cst_23 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S650000x1_S650000x40_0_1 : S650000x1.BroadcastsInDim S650000x40 (![0, 1] : Fin 2 → Fin S650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x40_S50000x40_1_0_0_1_n_n_wf : DotDims.WF S50000x128 S128x40 S50000x40 [1] [0] [0] [1] [] []
  gather_S50000x40_S650000x1_S650000x40_1_0_n_n_0_1_140_wf : GatherDims.WF S50000x40 S650000x1 S650000x40 [1] [0] [] [0] [] 1 ![1, 40]
  scatter_S50000x40_S650000x1_S650000x40_1_0_0_1_wf : ScatterDims.WF S50000x40 S650000x1 S650000x40 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S650000x1_S650000x40_1_0_n_n_0_1_140 : GatherDims S50000x40 S650000x1 S650000x40 where
  offsetDims := [1]
  collapsedSliceDims := [0]
  operandBatchingDims := []
  startIndicesBatchingDims := []
  startIndexMap := [0]
  indexVectorDim := 1
  sliceSizes := ![1, 40]
  wf := gather_S50000x40_S650000x1_S650000x40_1_0_n_n_0_1_140_wf
def scatter_S50000x40_S650000x1_S650000x40_1_0_0_1 : ScatterDims S50000x40 S650000x1 S650000x40 where
  updateWindowDims := [1]
  insertedWindowDims := [0]
  scatterDimsToOperandDims := [0]
  indexVectorDim := 1
  wf := scatter_S50000x40_S650000x1_S650000x40_1_0_0_1_wf

class Facts : Prop extends Facts₀ where

variable [Facts]
-- ==== Proof.KRun.lean ====
/-
  The idealized kernel program's run with its RESULT named. The program is fifteen segments: stretches of host
  operations and five pipelined kernel regions. Every weakly fair execution terminates, nothing faulting, and the
  final memory holds, at every unscoped buffer, the fold of the segments over the launch memory: a stretch
  rewrites the buffers its operations write, a region rewrites its output array with what its grid points
  wrote back, block by block. The frame claim keeps of this only the twelve argument arrays; the value claim
  needs the result buffer as well, so the same launch over the same segments is read here once more, this
  time keeping the result buffer's contents — the fold's value at that buffer.
-/
import proofs.«121903_j7567732376250_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the
    value of the fold of all fifteen segments at that buffer, and the twelve argument arrays as launched. -/
theorem run_value : θ_run defs (onTc (τ := τ) (main (F := F))) ⟨m, fun _ => 0, ρ⟩ (fun r => ∀ c : Dev nD,
      r.2.mem ((c.tc : Thread nD τ).loc main_v96) = W15 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v96 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Hand

end
-- ==== Proof.RefRun.lean ====
/- The reference program's @main as ONE list of its host operations, every call of a module-local function
   inlined at its call site over that call's buffers, and its run: every weakly fair execution terminates with each
   TensorCore buffer at the fold of the operations' results over its launch contents; no operation writes an
   argument. The list is cut into the stages of the computation (preparation of the edge weights; per layer the dense
   product, the aggregation over the edges, the normalisation and the rectification), so that the fold reads stage by stage. -/
import proofs.«121903_j7567732376250_1_alg».proof.Proof.Gen.ReferenceIdeal
import Idealize.ShloMosaic.Lib.StableHlo.Run
import Idealize.ShloMosaic.Lib.Pipeline.Regions

-- decided enumerations over the signature's 210 references recurse past the default depth
set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Lists of operations: appends -/

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lines holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- A buffer neither of two lines writes is written by no operation of their concatenation. -/
theorem nw_append {b : DevRef τ sig} {l₁ l₂ : List (HloOp τ sig (Elt F))} (h₁ : ∀ op ∈ l₁, b ∉ op.writes) (h₂ : ∀ op ∈ l₂, b ∉ op.writes) :
    ∀ op ∈ l₁ ++ l₂, b ∉ op.writes :=
  fun op h => (List.mem_append.mp h).elim (h₁ op) (h₂ op)

/-- A result buffer that is in a list of references is in that list's set of device buffers. -/
theorem wsub_single {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- A reference outside a list holding every reference a line writes is written by no operation of the line. -/
theorem nw_of_wsub {W : List (Ref sig .tc)} {r : Ref sig .tc} (l : List (HloOp τ sig (Elt F)))
    (hW : l.Forall fun op => op.writes ⊆ (W.map (Proc.devRef (τ := τ) .tc)).toFinset) (hr : r ∉ W) :
    ∀ op ∈ l, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- The program's twelve arguments. -/
abbrev argRefs : List (Ref sig .tc) :=
  [main_arg0, main_arg1, main_arg2, main_arg3, main_arg4, main_arg5, main_arg6, main_arg7, main_arg8, main_arg9, main_arg10, main_arg11]

/-! ## The stages, each a literal list (a stage a call's body makes is that body over the call's buffers) -/

/-- The graph preparation up to the degree's reciprocal square root: the node iota, the two edge rows with the self loops appended, the in-degree by scatter-add of ones, its positivity mask and its reciprocal square root, and the zero that replaces it where the degree is zero. 18 operations, in order. -/
abbrev stPrepA : List (HloOp τ sig (Elt F)) :=
  [ StableHlo.nullary main_v0 (iotaInDim S50000 32 0),
    StableHlo.unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v1 main_v2 rfl shapeCasts_S1x600000_S600000,
    StableHlo.binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst (constant S_ .f32 0x3F800000#32),
    StableHlo.unary main_cst main_v7 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S650000x1 ![0] bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]
/-- Each touches TensorCore references only. -/
theorem stPrepA_sub : (stPrepA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩
/-- None allocates a buffer. -/
theorem stPrepA_fresh : (stPrepA : List (HloOp τ sig (Elt F))).Forall fun op => op.fresh = ∅ :=
  ⟨rfl, rfl, rfl, rfl, rfl, rfl, rfl, rfl, rfl, rfl, rfl, rfl, rfl, rfl, rfl, rfl, rfl, rfl⟩
/-- The buffers it writes, in order. -/
abbrev stPrepA_W : List (Ref sig .tc) :=
  [main_v0, main_v1, main_v2, main_v3, main_v4, main_v5, main_v6, main_cst, main_v7, main_cst_0, main_v8, main_v9, main_v10, main_cst_1, main_v11, main_v12, main_v13, main_cst_2]
/-- Each writes its own result buffer only. -/
theorem stPrepA_wsub : (stPrepA : List (HloOp τ sig (Elt F))).Forall fun op => op.writes ⊆ (stPrepA_W.map (Proc.devRef (τ := τ) .tc)).toFinset :=
  ⟨wsub_single (y := main_v0) (by decide), wsub_single (y := main_v1) (by decide), wsub_single (y := main_v2) (by decide), wsub_single (y := main_v3) (by decide), wsub_single (y := main_v4) (by decide), wsub_single (y := main_v5) (by decide), wsub_single (y := main_v6) (by decide), wsub_single (y := main_cst) (by decide), wsub_single (y := main_v7) (by decide), wsub_single (y := main_cst_0) (by decide), wsub_single (y := main_v8) (by decide), wsub_single (y := main_v9) (by decide), wsub_single (y := main_v10) (by decide), wsub_single (y := main_cst_1) (by decide), wsub_single (y := main_v11) (by decide), wsub_single (y := main_v12) (by decide), wsub_single (y := main_v13) (by decide), wsub_single (y := main_cst_2) (by decide)⟩
/-- No argument of the program is among them. -/
theorem stPrepA_args : ∀ r ∈ argRefs, r ∉ stPrepA_W := by decide

/-- The masked selection of the reciprocal square root of the degree (zero where the degree is zero). 3 operations, in order. -/
abbrev stPrepCall : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select ]
/-- Each touches TensorCore references only. -/
theorem stPrepCall_sub : (stPrepCall : List (HloOp τ sig (Elt F))).Forall fun op => op.bufs ⊆ tcRefs τ sig :=
  ⟨unary_bufs_sub .., unary_bufs_sub .., ternary_bufs_sub ..⟩
/-- None allocates a buffer. -/
theorem stPrepCall_fresh : (stPrepCall : List (HloOp τ sig (Elt F))).Forall fun op => op.fresh = ∅ :=
  ⟨rfl, rfl, rfl⟩
/-- The buffers it writes, in order. -/
abbrev stPrepCall_W : List (Ref sig .tc) :=
  [main_call0_v0, main_call0_v1, main_v14]
/-- Each writes its own result buffer only. -/
theorem stPrepCall_wsub : (stPrepCall : List (HloOp τ sig (Elt F))).Forall fun op => op.writes ⊆ (stPrepCall_W.map (Proc.devRef (τ := τ) .tc)).toFinset :=
  ⟨wsub_single (y := main_call0_v0) (by decide), wsub_single (y := main_call0_v1) (by decide), wsub_single (y := main_v14) (by decide)⟩
/-- No argument of the program is among them. -/
theorem stPrepCall_args : ∀ r ∈ argRefs, r ∉ stPrepCall_W := by decide

/-- The edge weights: both endpoints' indices wrapped into range, the normalisation gathered at each endpoint, and their product. 19 operations, in order. -/
abbrev stPrepB : List (HloOp τ sig (Elt F)) :=
  [ StableHlo.nullary main_c (constantI S_ 32 0#32),
    StableHlo.unary main_c main_v15 (broadcastInDim S650000 ![] bcast_S_S650000 : (⟨S_, .i32⟩ : BufTy).Contents (Elt F) → (⟨S650000, .i32⟩ : BufTy).Contents (Elt F)),
    StableHlo.binary main_v3 main_v15 main_v16 (cmpi .slt : (⟨S650000, .i32⟩ : BufTy).Contents (Elt F) → (⟨S650000, .i32⟩ : BufTy).Contents (Elt F) → (⟨S650000, .i1⟩ : BufTy).Contents (Elt F)),
    StableHlo.nullary main_c_3 (constantI S_ 32 50000#32),
    StableHlo.unary main_c_3 main_v17 (broadcastInDim S650000 ![] bcast_S_S650000 : (⟨S_, .i32⟩ : BufTy).Contents (Elt F) → (⟨S650000, .i32⟩ : BufTy).Contents (Elt F)),
    StableHlo.binary main_v3 main_v17 main_v18 (addi : (⟨S650000, .i32⟩ : BufTy).Contents (Elt F) → (⟨S650000, .i32⟩ : BufTy).Contents (Elt F) → (⟨S650000, .i32⟩ : BufTy).Contents (Elt F)),
    StableHlo.ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v19 main_v20 (broadcastInDim S650000x1 ![0] bcast_S650000_S650000x1_0 : (⟨S650000, .i32⟩ : BufTy).Contents (Elt F) → (⟨S650000x1, .i32⟩ : BufTy).Contents (Elt F)),
    StableHlo.binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_4 (constantI S_ 32 0#32),
    StableHlo.unary main_c_4 main_v22 (broadcastInDim S650000 ![] bcast_S_S650000 : (⟨S_, .i32⟩ : BufTy).Contents (Elt F) → (⟨S650000, .i32⟩ : BufTy).Contents (Elt F)),
    StableHlo.binary main_v6 main_v22 main_v23 (cmpi .slt : (⟨S650000, .i32⟩ : BufTy).Contents (Elt F) → (⟨S650000, .i32⟩ : BufTy).Contents (Elt F) → (⟨S650000, .i1⟩ : BufTy).Contents (Elt F)),
    StableHlo.nullary main_c_5 (constantI S_ 32 50000#32),
    StableHlo.unary main_c_5 main_v24 (broadcastInDim S650000 ![] bcast_S_S650000 : (⟨S_, .i32⟩ : BufTy).Contents (Elt F) → (⟨S650000, .i32⟩ : BufTy).Contents (Elt F)),
    StableHlo.binary main_v6 main_v24 main_v25 (addi : (⟨S650000, .i32⟩ : BufTy).Contents (Elt F) → (⟨S650000, .i32⟩ : BufTy).Contents (Elt F) → (⟨S650000, .i32⟩ : BufTy).Contents (Elt F)),
    StableHlo.ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v26 main_v27 (broadcastInDim S650000x1 ![0] bcast_S650000_S650000x1_0 : (⟨S650000, .i32⟩ : BufTy).Contents (Elt F) → (⟨S650000x1, .i32⟩ : BufTy).Contents (Elt F)),
    StableHlo.binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v21 main_v28 main_v29 (mulf : (⟨S650000, .f32⟩ : BufTy).Contents (Elt F) → (⟨S650000, .f32⟩ : BufTy).Contents (Elt F) → (⟨S650000, .f32⟩ : BufTy).Contents (Elt F)) ]
/-- Each touches TensorCore references only. -/
theorem stPrepB_sub : (stPrepB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- None allocates a buffer. -/
theorem stPrepB_fresh : (stPrepB : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers it writes, in order. -/
abbrev stPrepB_W : List (Ref sig .tc) :=
  [main_c, main_v15, main_v16, main_c_3, main_v17, main_v18, main_v19, main_v20, main_v21, main_c_4, main_v22, main_v23, main_c_5, main_v24, main_v25, main_v26, main_v27, main_v28, main_v29]
/-- Each writes its own result buffer only. -/
theorem stPrepB_wsub : (stPrepB : List (HloOp τ sig (Elt F))).Forall fun op => op.writes ⊆ (stPrepB_W.map (Proc.devRef (τ := τ) .tc)).toFinset :=
  ⟨wsub_single (y := main_c) (by decide), wsub_single (y := main_v15) (by decide), wsub_single (y := main_v16) (by decide), wsub_single (y := main_c_3) (by decide), wsub_single (y := main_v17) (by decide), wsub_single (y := main_v18) (by decide), wsub_single (y := main_v19) (by decide), wsub_single (y := main_v20) (by decide), wsub_single (y := main_v21) (by decide), wsub_single (y := main_c_4) (by decide), wsub_single (y := main_v22) (by decide), wsub_single (y := main_v23) (by decide), wsub_single (y := main_c_5) (by decide), wsub_single (y := main_v24) (by decide), wsub_single (y := main_v25) (by decide), wsub_single (y := main_v26) (by decide), wsub_single (y := main_v27) (by decide), wsub_single (y := main_v28) (by decide), wsub_single (y := main_v29) (by decide)⟩
/-- No argument of the program is among them. -/
theorem stPrepB_args : ∀ r ∈ argRefs, r ∉ stPrepB_W := by decide

/-- The first layer's dense product of the features with its weight matrix. 1 operation, in order. -/
abbrev stMm0 : List (HloOp τ sig (Elt F)) :=
  [ StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
/-- Each touches TensorCore references only. -/
theorem stMm0_sub : (stMm0 : List (HloOp τ sig (Elt F))).Forall fun op => op.bufs ⊆ tcRefs τ sig :=
  binary_bufs_sub ..
/-- None allocates a buffer. -/
theorem stMm0_fresh : (stMm0 : List (HloOp τ sig (Elt F))).Forall fun op => op.fresh = ∅ :=
  rfl
/-- The buffers it writes, in order. -/
abbrev stMm0_W : List (Ref sig .tc) :=
  [main_v30]
/-- Each writes its own result buffer only. -/
theorem stMm0_wsub : (stMm0 : List (HloOp τ sig (Elt F))).Forall fun op => op.writes ⊆ (stMm0_W.map (Proc.devRef (τ := τ) .tc)).toFinset :=
  wsub_single (y := main_v30) (by decide)
/-- No argument of the program is among them. -/
theorem stMm0_args : ∀ r ∈ argRefs, r ∉ stMm0_W := by decide

/-- The first layer's aggregation: rows gathered at the source endpoints, scaled by the edge weights, scatter-added at the target endpoints, and the bias added. 19 operations, in order. -/
abbrev stConv0 : List (HloOp τ sig (Elt F)) :=
  [ StableHlo.nullary main_c_6 (constantI S_ 32 0#32),
    StableHlo.unary main_c_6 main_v31 (broadcastInDim S650000 ![] bcast_S_S650000 : (⟨S_, .i32⟩ : BufTy).Contents (Elt F) → (⟨S650000, .i32⟩ : BufTy).Contents (Elt F)),
    StableHlo.binary main_v3 main_v31 main_v32 (cmpi .slt : (⟨S650000, .i32⟩ : BufTy).Contents (Elt F) → (⟨S650000, .i32⟩ : BufTy).Contents (Elt F) → (⟨S650000, .i1⟩ : BufTy).Contents (Elt F)),
    StableHlo.nullary main_c_7 (constantI S_ 32 50000#32),
    StableHlo.unary main_c_7 main_v33 (broadcastInDim S650000 ![] bcast_S_S650000 : (⟨S_, .i32⟩ : BufTy).Contents (Elt F) → (⟨S650000, .i32⟩ : BufTy).Contents (Elt F)),
    StableHlo.binary main_v3 main_v33 main_v34 (addi : (⟨S650000, .i32⟩ : BufTy).Contents (Elt F) → (⟨S650000, .i32⟩ : BufTy).Contents (Elt F) → (⟨S650000, .i32⟩ : BufTy).Contents (Elt F)),
    StableHlo.ternary main_v32 main_v34 main_v3 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v35 main_v36 (broadcastInDim S650000x1 ![0] bcast_S650000_S650000x1_0 : (⟨S650000, .i32⟩ : BufTy).Contents (Elt F) → (⟨S650000x1, .i32⟩ : BufTy).Contents (Elt F)),
    StableHlo.binary main_v30 main_v36 main_v37 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v38 (broadcastInDim S650000x1 ![0] bcast_S650000_S650000x1_0 : (⟨S650000, .f32⟩ : BufTy).Contents (Elt F) → (⟨S650000x1, .f32⟩ : BufTy).Contents (Elt F)),
    StableHlo.unary main_v38 main_v39 (broadcastInDim S650000x128 ![0, 1] bcast_S650000x1_S650000x128_0_1 : (⟨S650000x1, .f32⟩ : BufTy).Contents (Elt F) → (⟨S650000x128, .f32⟩ : BufTy).Contents (Elt F)),
    StableHlo.binary main_v37 main_v39 main_v40 (mulf : (⟨S650000x128, .f32⟩ : BufTy).Contents (Elt F) → (⟨S650000x128, .f32⟩ : BufTy).Contents (Elt F) → (⟨S650000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S650000x1 ![0] bcast_S650000_S650000x1_0 : (⟨S650000, .i32⟩ : BufTy).Contents (Elt F) → (⟨S650000x1, .i32⟩ : BufTy).Contents (Elt F)),
    StableHlo.ternary main_v41 main_v42 main_v40 main_v43 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)) ]
/-- Each touches TensorCore references only. -/
theorem stConv0_sub : (stConv0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
/-- None allocates a buffer. -/
theorem stConv0_fresh : (stConv0 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers it writes, in order. -/
abbrev stConv0_W : List (Ref sig .tc) :=
  [main_c_6, main_v31, main_v32, main_c_7, main_v33, main_v34, main_v35, main_v36, main_v37, main_v38, main_v39, main_v40, main_cst_8, main_v41, main_v42, main_v43, main_v44, main_v45, main_v46]
/-- Each writes its own result buffer only. -/
theorem stConv0_wsub : (stConv0 : List (HloOp τ sig (Elt F))).Forall fun op => op.writes ⊆ (stConv0_W.map (Proc.devRef (τ := τ) .tc)).toFinset :=
  ⟨wsub_single (y := main_c_6) (by decide), wsub_single (y := main_v31) (by decide), wsub_single (y := main_v32) (by decide), wsub_single (y := main_c_7) (by decide), wsub_single (y := main_v33) (by decide), wsub_single (y := main_v34) (by decide), wsub_single (y := main_v35) (by decide), wsub_single (y := main_v36) (by decide), wsub_single (y := main_v37) (by decide), wsub_single (y := main_v38) (by decide), wsub_single (y := main_v39) (by decide), wsub_single (y := main_v40) (by decide), wsub_single (y := main_cst_8) (by decide), wsub_single (y := main_v41) (by decide), wsub_single (y := main_v42) (by decide), wsub_single (y := main_v43) (by decide), wsub_single (y := main_v44) (by decide), wsub_single (y := main_v45) (by decide), wsub_single (y := main_v46) (by decide)⟩
/-- No argument of the program is among them. -/
theorem stConv0_args : ∀ r ∈ argRefs, r ∉ stConv0_W := by decide

/-- The first normalisation's column sums (the zero they start from, and the reduction). 2 operations, in order. -/
abbrev stBn0A1 : List (HloOp τ sig (Elt F)) :=
  [ StableHlo.nullary main_cst_9 (constant S_ .f32 0x00000000#32),
    StableHlo.binary main_v46 main_cst_9 main_v47 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]
/-- Each touches TensorCore references only. -/
theorem stBn0A1_sub : (stBn0A1 : List (HloOp τ sig (Elt F))).Forall fun op => op.bufs ⊆ tcRefs τ sig :=
  ⟨nullary_bufs_sub .., binary_bufs_sub ..⟩
/-- None allocates a buffer. -/
theorem stBn0A1_fresh : (stBn0A1 : List (HloOp τ sig (Elt F))).Forall fun op => op.fresh = ∅ :=
  ⟨rfl, rfl⟩
/-- The buffers it writes, in order. -/
abbrev stBn0A1_W : List (Ref sig .tc) :=
  [main_cst_9, main_v47]
/-- Each writes its own result buffer only. -/
theorem stBn0A1_wsub : (stBn0A1 : List (HloOp τ sig (Elt F))).Forall fun op => op.writes ⊆ (stBn0A1_W.map (Proc.devRef (τ := τ) .tc)).toFinset :=
  ⟨wsub_single (y := main_cst_9) (by decide), wsub_single (y := main_v47) (by decide)⟩
/-- No argument of the program is among them. -/
theorem stBn0A1_args : ∀ r ∈ argRefs, r ∉ stBn0A1_W := by decide

/-- The first normalisation's column means: the row count, the division, and the zero correction of the variance. 4 operations, in order. -/
abbrev stBn0A2 : List (HloOp τ sig (Elt F)) :=
  [ StableHlo.nullary main_cst_10 (constant S_ .f32 0x47435000#32),
    StableHlo.unary main_cst_10 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32) ]
/-- Each touches TensorCore references only. -/
theorem stBn0A2_sub : (stBn0A2 : List (HloOp τ sig (Elt F))).Forall fun op => op.bufs ⊆ tcRefs τ sig :=
  ⟨nullary_bufs_sub .., unary_bufs_sub .., binary_bufs_sub .., nullary_bufs_sub ..⟩
/-- None allocates a buffer. -/
theorem stBn0A2_fresh : (stBn0A2 : List (HloOp τ sig (Elt F))).Forall fun op => op.fresh = ∅ :=
  ⟨rfl, rfl, rfl, rfl⟩
/-- The buffers it writes, in order. -/
abbrev stBn0A2_W : List (Ref sig .tc) :=
  [main_cst_10, main_v48, main_v49, main_c_11]
/-- Each writes its own result buffer only. -/
theorem stBn0A2_wsub : (stBn0A2 : List (HloOp τ sig (Elt F))).Forall fun op => op.writes ⊆ (stBn0A2_W.map (Proc.devRef (τ := τ) .tc)).toFinset :=
  ⟨wsub_single (y := main_cst_10) (by decide), wsub_single (y := main_v48) (by decide), wsub_single (y := main_v49) (by decide), wsub_single (y := main_c_11) (by decide)⟩
/-- No argument of the program is among them. -/
theorem stBn0A2_args : ∀ r ∈ argRefs, r ∉ stBn0A2_W := by decide

/-- The first normalisation's column variances, up to the value that replaces them when the corrected count is not positive. 19 operations, in order. -/
abbrev stBn0Var : List (HloOp τ sig (Elt F)) :=
  [ StableHlo.TRef.nullary (.of main_call1_cst : StableHlo.TRef sig ⟨S_, .f32⟩) (constant S_ .f32 0x00000000#32),
    StableHlo.TRef.binary (.of main_v46 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1),
    StableHlo.TRef.binary (.of main_v46 : StableHlo.TRef sig ⟨S50000x128, .f32⟩) (.of main_call1_v4 : StableHlo.TRef sig ⟨S50000x128, .f32⟩) (.of main_call1_v5 : StableHlo.TRef sig ⟨S50000x128, .f32⟩) subf,
    StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf,
    StableHlo.TRef.unary (.of main_c_11 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32) ]
/-- Each touches TensorCore references only. -/
theorem stBn0Var_sub : (stBn0Var : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub ..⟩
/-- None allocates a buffer. -/
theorem stBn0Var_fresh : (stBn0Var : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers it writes, in order. -/
abbrev stBn0Var_W : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4]
/-- Each writes its own result buffer only. -/
theorem stBn0Var_wsub : (stBn0Var : List (HloOp τ sig (Elt F))).Forall fun op => op.writes ⊆ (stBn0Var_W.map (Proc.devRef (τ := τ) .tc)).toFinset :=
  ⟨wsub_single (y := main_call1_cst) (by decide), wsub_single (y := main_call1_v0) (by decide), wsub_single (y := main_call1_v1) (by decide), wsub_single (y := main_call1_cst_0) (by decide), wsub_single (y := main_call1_v2) (by decide), wsub_single (y := main_call1_v3) (by decide), wsub_single (y := main_call1_v4) (by decide), wsub_single (y := main_call1_v5) (by decide), wsub_single (y := main_call1_v6) (by decide), wsub_single (y := main_call1_v7) (by decide), wsub_single (y := main_call1_cst_1) (by decide), wsub_single (y := main_call1_v8) (by decide), wsub_single (y := main_call1_cst_2) (by decide), wsub_single (y := main_call1_v9) (by decide), wsub_single (y := main_call1_v10) (by decide), wsub_single (y := main_call1_v11) (by decide), wsub_single (y := main_call1_cst_3) (by decide), wsub_single (y := main_call1_v12) (by decide), wsub_single (y := main_call1_cst_4) (by decide)⟩
/-- No argument of the program is among them. -/
theorem stBn0Var_args : ∀ r ∈ argRefs, r ∉ stBn0Var_W := by decide

/-- The selection of the first normalisation's variances (the replacement where the corrected count is not positive). 3 operations, in order. -/
abbrev stBn0Where : List (HloOp τ sig (Elt F)) :=
  [ StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v50 : StableHlo.TRef sig ⟨S128, .f32⟩) (fun p a b => select (broadcastInDim S128 ![] bcast_S_S128 p) a b) ]
/-- Each touches TensorCore references only. -/
theorem stBn0Where_sub : (stBn0Where : List (HloOp τ sig (Elt F))).Forall fun op => op.bufs ⊆ tcRefs τ sig :=
  ⟨unary_bufs_sub .., unary_bufs_sub .., ternary_bufs_sub ..⟩
/-- None allocates a buffer. -/
theorem stBn0Where_fresh : (stBn0Where : List (HloOp τ sig (Elt F))).Forall fun op => op.fresh = ∅ :=
  ⟨rfl, rfl, rfl⟩
/-- The buffers it writes, in order. -/
abbrev stBn0Where_W : List (Ref sig .tc) :=
  [main_call1_call0_v0, main_call1_call0_v1, main_v50]
/-- Each writes its own result buffer only. -/
theorem stBn0Where_wsub : (stBn0Where : List (HloOp τ sig (Elt F))).Forall fun op => op.writes ⊆ (stBn0Where_W.map (Proc.devRef (τ := τ) .tc)).toFinset :=
  ⟨wsub_single (y := main_call1_call0_v0) (by decide), wsub_single (y := main_call1_call0_v1) (by decide), wsub_single (y := main_v50) (by decide)⟩
/-- No argument of the program is among them. -/
theorem stBn0Where_args : ∀ r ∈ argRefs, r ∉ stBn0Where_W := by decide

/-- The first normalisation applied: centring, scaling by the reciprocal square root of the variance plus epsilon, the learned scale and shift. 16 operations, in order. -/
abbrev stBn0B : List (HloOp τ sig (Elt F)) :=
  [ StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v52 main_v53 (subf : (⟨S50000x128, .f32⟩ : BufTy).Contents (Elt F) → (⟨S50000x128, .f32⟩ : BufTy).Contents (Elt F) → (⟨S50000x128, .f32⟩ : BufTy).Contents (Elt F)),
    StableHlo.unary main_arg4 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v53 main_v56 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v57 (broadcastInDim S128 ![] bcast_S_S128 : (⟨S_, .f32⟩ : BufTy).Contents (Elt F) → (⟨S128, .f32⟩ : BufTy).Contents (Elt F)),
    StableHlo.binary main_v50 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v61 main_v62 (mulf : (⟨S50000x128, .f32⟩ : BufTy).Contents (Elt F) → (⟨S50000x128, .f32⟩ : BufTy).Contents (Elt F) → (⟨S50000x128, .f32⟩ : BufTy).Contents (Elt F)),
    StableHlo.unary main_arg5 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v64 main_v65 (addf : (⟨S50000x128, .f32⟩ : BufTy).Contents (Elt F) → (⟨S50000x128, .f32⟩ : BufTy).Contents (Elt F) → (⟨S50000x128, .f32⟩ : BufTy).Contents (Elt F)) ]
/-- Each touches TensorCore references only. -/
theorem stBn0B_sub : (stBn0B : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
/-- None allocates a buffer. -/
theorem stBn0B_fresh : (stBn0B : List (HloOp τ sig (Elt F))).Forall fun op => op.fresh = ∅ :=
  ⟨rfl, rfl, rfl, rfl, rfl, rfl, rfl, rfl, rfl, rfl, rfl, rfl, rfl, rfl, rfl, rfl⟩
/-- The buffers it writes, in order. -/
abbrev stBn0B_W : List (Ref sig .tc) :=
  [main_v51, main_v52, main_v53, main_v54, main_v55, main_v56, main_cst_12, main_v57, main_v58, main_v59, main_v60, main_v61, main_v62, main_v63, main_v64, main_v65]
/-- Each writes its own result buffer only. -/
theorem stBn0B_wsub : (stBn0B : List (HloOp τ sig (Elt F))).Forall fun op => op.writes ⊆ (stBn0B_W.map (Proc.devRef (τ := τ) .tc)).toFinset :=
  ⟨wsub_single (y := main_v51) (by decide), wsub_single (y := main_v52) (by decide), wsub_single (y := main_v53) (by decide), wsub_single (y := main_v54) (by decide), wsub_single (y := main_v55) (by decide), wsub_single (y := main_v56) (by decide), wsub_single (y := main_cst_12) (by decide), wsub_single (y := main_v57) (by decide), wsub_single (y := main_v58) (by decide), wsub_single (y := main_v59) (by decide), wsub_single (y := main_v60) (by decide), wsub_single (y := main_v61) (by decide), wsub_single (y := main_v62) (by decide), wsub_single (y := main_v63) (by decide), wsub_single (y := main_v64) (by decide), wsub_single (y := main_v65) (by decide)⟩
/-- No argument of the program is among them. -/
theorem stBn0B_args : ∀ r ∈ argRefs, r ∉ stBn0B_W := by decide

/-- The first layer's rectification: the maximum with zero. 3 operations, in order. -/
abbrev stBn0Relu : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v65 : StableHlo.TRef sig ⟨S50000x128, .f32⟩) (.of main_call2_v0 : StableHlo.TRef sig ⟨S50000x128, .f32⟩) (.of main_v66 : StableHlo.TRef sig ⟨S50000x128, .f32⟩) maximumf ]
/-- Each touches TensorCore references only. -/
theorem stBn0Relu_sub : (stBn0Relu : List (HloOp τ sig (Elt F))).Forall fun op => op.bufs ⊆ tcRefs τ sig :=
  ⟨nullary_bufs_sub .., unary_bufs_sub .., binary_bufs_sub ..⟩
/-- None allocates a buffer. -/
theorem stBn0Relu_fresh : (stBn0Relu : List (HloOp τ sig (Elt F))).Forall fun op => op.fresh = ∅ :=
  ⟨rfl, rfl, rfl⟩
/-- The buffers it writes, in order. -/
abbrev stBn0Relu_W : List (Ref sig .tc) :=
  [main_call2_cst, main_call2_v0, main_v66]
/-- Each writes its own result buffer only. -/
theorem stBn0Relu_wsub : (stBn0Relu : List (HloOp τ sig (Elt F))).Forall fun op => op.writes ⊆ (stBn0Relu_W.map (Proc.devRef (τ := τ) .tc)).toFinset :=
  ⟨wsub_single (y := main_call2_cst) (by decide), wsub_single (y := main_call2_v0) (by decide), wsub_single (y := main_v66) (by decide)⟩
/-- No argument of the program is among them. -/
theorem stBn0Relu_args : ∀ r ∈ argRefs, r ∉ stBn0Relu_W := by decide

/-- The second layer's dense product. 1 operation, in order. -/
abbrev stMm1 : List (HloOp τ sig (Elt F)) :=
  [ StableHlo.binary main_v66 main_arg6 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
/-- Each touches TensorCore references only. -/
theorem stMm1_sub : (stMm1 : List (HloOp τ sig (Elt F))).Forall fun op => op.bufs ⊆ tcRefs τ sig :=
  binary_bufs_sub ..
/-- None allocates a buffer. -/
theorem stMm1_fresh : (stMm1 : List (HloOp τ sig (Elt F))).Forall fun op => op.fresh = ∅ :=
  rfl
/-- The buffers it writes, in order. -/
abbrev stMm1_W : List (Ref sig .tc) :=
  [main_v67]
/-- Each writes its own result buffer only. -/
theorem stMm1_wsub : (stMm1 : List (HloOp τ sig (Elt F))).Forall fun op => op.writes ⊆ (stMm1_W.map (Proc.devRef (τ := τ) .tc)).toFinset :=
  wsub_single (y := main_v67) (by decide)
/-- No argument of the program is among them. -/
theorem stMm1_args : ∀ r ∈ argRefs, r ∉ stMm1_W := by decide

/-- The second layer's aggregation: gather, scale by the edge weights, scatter-add, bias. 19 operations, in order. -/
abbrev stConv1 : List (HloOp τ sig (Elt F)) :=
  [ StableHlo.nullary main_c_13 (constantI S_ 32 0#32),
    StableHlo.unary main_c_13 main_v68 (broadcastInDim S650000 ![] bcast_S_S650000 : (⟨S_, .i32⟩ : BufTy).Contents (Elt F) → (⟨S650000, .i32⟩ : BufTy).Contents (Elt F)),
    StableHlo.binary main_v3 main_v68 main_v69 (cmpi .slt : (⟨S650000, .i32⟩ : BufTy).Contents (Elt F) → (⟨S650000, .i32⟩ : BufTy).Contents (Elt F) → (⟨S650000, .i1⟩ : BufTy).Contents (Elt F)),
    StableHlo.nullary main_c_14 (constantI S_ 32 50000#32),
    StableHlo.unary main_c_14 main_v70 (broadcastInDim S650000 ![] bcast_S_S650000 : (⟨S_, .i32⟩ : BufTy).Contents (Elt F) → (⟨S650000, .i32⟩ : BufTy).Contents (Elt F)),
    StableHlo.binary main_v3 main_v70 main_v71 (addi : (⟨S650000, .i32⟩ : BufTy).Contents (Elt F) → (⟨S650000, .i32⟩ : BufTy).Contents (Elt F) → (⟨S650000, .i32⟩ : BufTy).Contents (Elt F)),
    StableHlo.ternary main_v69 main_v71 main_v3 main_v72 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v72 main_v73 (broadcastInDim S650000x1 ![0] bcast_S650000_S650000x1_0 : (⟨S650000, .i32⟩ : BufTy).Contents (Elt F) → (⟨S650000x1, .i32⟩ : BufTy).Contents (Elt F)),
    StableHlo.binary main_v67 main_v73 main_v74 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v75 (broadcastInDim S650000x1 ![0] bcast_S650000_S650000x1_0 : (⟨S650000, .f32⟩ : BufTy).Contents (Elt F) → (⟨S650000x1, .f32⟩ : BufTy).Contents (Elt F)),
    StableHlo.unary main_v75 main_v76 (broadcastInDim S650000x128 ![0, 1] bcast_S650000x1_S650000x128_0_1 : (⟨S650000x1, .f32⟩ : BufTy).Contents (Elt F) → (⟨S650000x128, .f32⟩ : BufTy).Contents (Elt F)),
    StableHlo.binary main_v74 main_v76 main_v77 (mulf : (⟨S650000x128, .f32⟩ : BufTy).Contents (Elt F) → (⟨S650000x128, .f32⟩ : BufTy).Contents (Elt F) → (⟨S650000x128, .f32⟩ : BufTy).Contents (Elt F)),
    StableHlo.nullary main_cst_15 (constant S_ .f32 0x00000000#32),
    StableHlo.unary main_cst_15 main_v78 (broadcastInDim S50000x128 ![] bcast_S_S50000x128 : (⟨S_, .f32⟩ : BufTy).Contents (Elt F) → (⟨S50000x128, .f32⟩ : BufTy).Contents (Elt F)),
    StableHlo.unary main_v6 main_v79 (broadcastInDim S650000x1 ![0] bcast_S650000_S650000x1_0 : (⟨S650000, .i32⟩ : BufTy).Contents (Elt F) → (⟨S650000x1, .i32⟩ : BufTy).Contents (Elt F)),
    StableHlo.ternary main_v78 main_v79 main_v77 main_v80 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg7 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)) ]
/-- Each touches TensorCore references only. -/
theorem stConv1_sub : (stConv1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
/-- None allocates a buffer. -/
theorem stConv1_fresh : (stConv1 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers it writes, in order. -/
abbrev stConv1_W : List (Ref sig .tc) :=
  [main_c_13, main_v68, main_v69, main_c_14, main_v70, main_v71, main_v72, main_v73, main_v74, main_v75, main_v76, main_v77, main_cst_15, main_v78, main_v79, main_v80, main_v81, main_v82, main_v83]
/-- Each writes its own result buffer only. -/
theorem stConv1_wsub : (stConv1 : List (HloOp τ sig (Elt F))).Forall fun op => op.writes ⊆ (stConv1_W.map (Proc.devRef (τ := τ) .tc)).toFinset :=
  ⟨wsub_single (y := main_c_13) (by decide), wsub_single (y := main_v68) (by decide), wsub_single (y := main_v69) (by decide), wsub_single (y := main_c_14) (by decide), wsub_single (y := main_v70) (by decide), wsub_single (y := main_v71) (by decide), wsub_single (y := main_v72) (by decide), wsub_single (y := main_v73) (by decide), wsub_single (y := main_v74) (by decide), wsub_single (y := main_v75) (by decide), wsub_single (y := main_v76) (by decide), wsub_single (y := main_v77) (by decide), wsub_single (y := main_cst_15) (by decide), wsub_single (y := main_v78) (by decide), wsub_single (y := main_v79) (by decide), wsub_single (y := main_v80) (by decide), wsub_single (y := main_v81) (by decide), wsub_single (y := main_v82) (by decide), wsub_single (y := main_v83) (by decide)⟩
/-- No argument of the program is among them. -/
theorem stConv1_args : ∀ r ∈ argRefs, r ∉ stConv1_W := by decide

/-- The second normalisation's column means. 6 operations, in order. -/
abbrev stBn1A : List (HloOp τ sig (Elt F)) :=
  [ StableHlo.nullary main_cst_16 (constant S_ .f32 0x00000000#32),
    StableHlo.binary main_v83 main_cst_16 main_v84 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32) ]
/-- Each touches TensorCore references only. -/
theorem stBn1A_sub : (stBn1A : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
/-- None allocates a buffer. -/
theorem stBn1A_fresh : (stBn1A : List (HloOp τ sig (Elt F))).Forall fun op => op.fresh = ∅ :=
  ⟨rfl, rfl, rfl, rfl, rfl, rfl⟩
/-- The buffers it writes, in order. -/
abbrev stBn1A_W : List (Ref sig .tc) :=
  [main_cst_16, main_v84, main_cst_17, main_v85, main_v86, main_c_18]
/-- Each writes its own result buffer only. -/
theorem stBn1A_wsub : (stBn1A : List (HloOp τ sig (Elt F))).Forall fun op => op.writes ⊆ (stBn1A_W.map (Proc.devRef (τ := τ) .tc)).toFinset :=
  ⟨wsub_single (y := main_cst_16) (by decide), wsub_single (y := main_v84) (by decide), wsub_single (y := main_cst_17) (by decide), wsub_single (y := main_v85) (by decide), wsub_single (y := main_v86) (by decide), wsub_single (y := main_c_18) (by decide)⟩
/-- No argument of the program is among them. -/
theorem stBn1A_args : ∀ r ∈ argRefs, r ∉ stBn1A_W := by decide

/-- The second normalisation's column variances, up to the replacement value. 19 operations, in order. -/
abbrev stBn1Var : List (HloOp τ sig (Elt F)) :=
  [ StableHlo.TRef.nullary (.of main_call3_cst : StableHlo.TRef sig ⟨S_, .f32⟩) (constant S_ .f32 0x00000000#32),
    StableHlo.TRef.binary (.of main_v83 : StableHlo.TRef sig ⟨S50000x128, .f32⟩) (.of main_call3_cst : StableHlo.TRef sig ⟨S_, .f32⟩) (.of main_call3_v0 : StableHlo.TRef sig ⟨S128, .f32⟩) (fun x v => Host.reduceAdd x v reducesTo_S50000x128_S128_d0 h_S_),
    StableHlo.TRef.unary (.of main_call3_v0 : StableHlo.TRef sig ⟨S128, .f32⟩) (.of main_call3_v1 : StableHlo.TRef sig ⟨S1x128, .f32⟩) (broadcastInDim S1x128 ![1] bcast_S128_S1x128_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x128, .f32⟩) (broadcastInDim S1x128 ![] bcast_S_S1x128),
    StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf,
    StableHlo.TRef.unary (.of main_call3_v3 : StableHlo.TRef sig ⟨S1x128, .f32⟩) (.of main_call3_v4 : StableHlo.TRef sig ⟨S50000x128, .f32⟩) (broadcastInDim S50000x128 ![0, 1] bcast_S1x128_S50000x128_0_1),
    StableHlo.TRef.binary (.of main_v83 : StableHlo.TRef sig ⟨S50000x128, .f32⟩) (.of main_call3_v4 : StableHlo.TRef sig ⟨S50000x128, .f32⟩) (.of main_call3_v5 : StableHlo.TRef sig ⟨S50000x128, .f32⟩) subf,
    StableHlo.TRef.binary (.of main_call3_v5 : StableHlo.TRef sig ⟨S50000x128, .f32⟩) (.of main_call3_v5 : StableHlo.TRef sig ⟨S50000x128, .f32⟩) (.of main_call3_v6 : StableHlo.TRef sig ⟨S50000x128, .f32⟩) mulf,
    StableHlo.TRef.unary (.of main_c_18 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x128, .f32⟩) (.of main_call3_cst_2 : StableHlo.TRef sig ⟨S_, .f32⟩) (.of main_call3_v9 : StableHlo.TRef sig ⟨S128, .f32⟩) (fun x v => Host.reduceAdd x v reducesTo_S50000x128_S128_d0 h_S_),
    StableHlo.TRef.unary (.of main_call3_v8 : StableHlo.TRef sig ⟨S_, .f32⟩) (.of main_call3_v10 : StableHlo.TRef sig ⟨S128, .f32⟩) (broadcastInDim S128 ![] bcast_S_S128),
    StableHlo.TRef.binary (.of main_call3_v9 : StableHlo.TRef sig ⟨S128, .f32⟩) (.of main_call3_v10 : StableHlo.TRef sig ⟨S128, .f32⟩) (.of main_call3_v11 : StableHlo.TRef sig ⟨S128, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32) ]
/-- Each touches TensorCore references only. -/
theorem stBn1Var_sub : (stBn1Var : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub ..⟩
/-- None allocates a buffer. -/
theorem stBn1Var_fresh : (stBn1Var : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers it writes, in order. -/
abbrev stBn1Var_W : List (Ref sig .tc) :=
  [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4]
/-- Each writes its own result buffer only. -/
theorem stBn1Var_wsub : (stBn1Var : List (HloOp τ sig (Elt F))).Forall fun op => op.writes ⊆ (stBn1Var_W.map (Proc.devRef (τ := τ) .tc)).toFinset :=
  ⟨wsub_single (y := main_call3_cst) (by decide), wsub_single (y := main_call3_v0) (by decide), wsub_single (y := main_call3_v1) (by decide), wsub_single (y := main_call3_cst_0) (by decide), wsub_single (y := main_call3_v2) (by decide), wsub_single (y := main_call3_v3) (by decide), wsub_single (y := main_call3_v4) (by decide), wsub_single (y := main_call3_v5) (by decide), wsub_single (y := main_call3_v6) (by decide), wsub_single (y := main_call3_v7) (by decide), wsub_single (y := main_call3_cst_1) (by decide), wsub_single (y := main_call3_v8) (by decide), wsub_single (y := main_call3_cst_2) (by decide), wsub_single (y := main_call3_v9) (by decide), wsub_single (y := main_call3_v10) (by decide), wsub_single (y := main_call3_v11) (by decide), wsub_single (y := main_call3_cst_3) (by decide), wsub_single (y := main_call3_v12) (by decide), wsub_single (y := main_call3_cst_4) (by decide)⟩
/-- No argument of the program is among them. -/
theorem stBn1Var_args : ∀ r ∈ argRefs, r ∉ stBn1Var_W := by decide

/-- The selection of the second normalisation's variances. 3 operations, in order. -/
abbrev stBn1Where : List (HloOp τ sig (Elt F)) :=
  [ StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S128, .f32⟩) (broadcastInDim S128 ![] bcast_S_S128),
    StableHlo.TRef.ternary (.of main_call3_v12 : StableHlo.TRef sig ⟨S_, .i1⟩) (.of main_call3_v11 : StableHlo.TRef sig ⟨S128, .f32⟩) (.of main_call3_call0_v1 : StableHlo.TRef sig ⟨S128, .f32⟩) (.of main_v87 : StableHlo.TRef sig ⟨S128, .f32⟩) (fun p a b => select (broadcastInDim S128 ![] bcast_S_S128 p) a b) ]
/-- Each touches TensorCore references only. -/
theorem stBn1Where_sub : (stBn1Where : List (HloOp τ sig (Elt F))).Forall fun op => op.bufs ⊆ tcRefs τ sig :=
  ⟨unary_bufs_sub .., unary_bufs_sub .., ternary_bufs_sub ..⟩
/-- None allocates a buffer. -/
theorem stBn1Where_fresh : (stBn1Where : List (HloOp τ sig (Elt F))).Forall fun op => op.fresh = ∅ :=
  ⟨rfl, rfl, rfl⟩
/-- The buffers it writes, in order. -/
abbrev stBn1Where_W : List (Ref sig .tc) :=
  [main_call3_call0_v0, main_call3_call0_v1, main_v87]
/-- Each writes its own result buffer only. -/
theorem stBn1Where_wsub : (stBn1Where : List (HloOp τ sig (Elt F))).Forall fun op => op.writes ⊆ (stBn1Where_W.map (Proc.devRef (τ := τ) .tc)).toFinset :=
  ⟨wsub_single (y := main_call3_call0_v0) (by decide), wsub_single (y := main_call3_call0_v1) (by decide), wsub_single (y := main_v87) (by decide)⟩
/-- No argument of the program is among them. -/
theorem stBn1Where_args : ∀ r ∈ argRefs, r ∉ stBn1Where_W := by decide

/-- The second normalisation applied, up to the broadcast row of reciprocal standard deviations. 11 operations, in order. -/
abbrev stBn1B1 : List (HloOp τ sig (Elt F)) :=
  [ StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v89 main_v90 (subf : (⟨S50000x128, .f32⟩ : BufTy).Contents (Elt F) → (⟨S50000x128, .f32⟩ : BufTy).Contents (Elt F) → (⟨S50000x128, .f32⟩ : BufTy).Contents (Elt F)),
    StableHlo.unary main_arg8 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v90 main_v93 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v94 (broadcastInDim S128 ![] bcast_S_S128 : (⟨S_, .f32⟩ : BufTy).Contents (Elt F) → (⟨S128, .f32⟩ : BufTy).Contents (Elt F)),
    StableHlo.binary main_v87 main_v94 main_v95 (addf : (⟨S128, .f32⟩ : BufTy).Contents (Elt F) → (⟨S128, .f32⟩ : BufTy).Contents (Elt F) → (⟨S128, .f32⟩ : BufTy).Contents (Elt F)),
    StableHlo.unary main_v95 main_v96 (Host.rsqrt : (⟨S128, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)) ]
/-- Each touches TensorCore references only. -/
theorem stBn1B1_sub : (stBn1B1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩
/-- None allocates a buffer. -/
theorem stBn1B1_fresh : (stBn1B1 : List (HloOp τ sig (Elt F))).Forall fun op => op.fresh = ∅ :=
  ⟨rfl, rfl, rfl, rfl, rfl, rfl, rfl, rfl, rfl, rfl, rfl⟩
/-- The buffers it writes, in order. -/
abbrev stBn1B1_W : List (Ref sig .tc) :=
  [main_v88, main_v89, main_v90, main_v91, main_v92, main_v93, main_cst_19, main_v94, main_v95, main_v96, main_v97]
/-- Each writes its own result buffer only. -/
theorem stBn1B1_wsub : (stBn1B1 : List (HloOp τ sig (Elt F))).Forall fun op => op.writes ⊆ (stBn1B1_W.map (Proc.devRef (τ := τ) .tc)).toFinset :=
  ⟨wsub_single (y := main_v88) (by decide), wsub_single (y := main_v89) (by decide), wsub_single (y := main_v90) (by decide), wsub_single (y := main_v91) (by decide), wsub_single (y := main_v92) (by decide), wsub_single (y := main_v93) (by decide), wsub_single (y := main_cst_19) (by decide), wsub_single (y := main_v94) (by decide), wsub_single (y := main_v95) (by decide), wsub_single (y := main_v96) (by decide), wsub_single (y := main_v97) (by decide)⟩
/-- No argument of the program is among them. -/
theorem stBn1B1_args : ∀ r ∈ argRefs, r ∉ stBn1B1_W := by decide

/-- The second normalisation applied, from that row on: scale, shift, and the residual sum with the first layer's output. 9 operations, in order. -/
abbrev stBn1B2 : List (HloOp τ sig (Elt F)) :=
  [ StableHlo.unary main_v97 main_v98 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v98 main_v99 (mulf : (⟨S50000x128, .f32⟩ : BufTy).Contents (Elt F) → (⟨S50000x128, .f32⟩ : BufTy).Contents (Elt F) → (⟨S50000x128, .f32⟩ : BufTy).Contents (Elt F)),
    StableHlo.unary main_arg9 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v101 main_v102 (addf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x3F800000#32),
    StableHlo.unary main_cst_20 main_v103 (broadcastInDim S50000x128 ![] bcast_S_S50000x128 : (⟨S_, .f32⟩ : BufTy).Contents (Elt F) → (⟨S50000x128, .f32⟩ : BufTy).Contents (Elt F)),
    StableHlo.binary main_v103 main_v66 main_v104 (mulf : (⟨S50000x128, .f32⟩ : BufTy).Contents (Elt F) → (⟨S50000x128, .f32⟩ : BufTy).Contents (Elt F) → (⟨S50000x128, .f32⟩ : BufTy).Contents (Elt F)),
    StableHlo.binary main_v102 main_v104 main_v105 (addf : (⟨S50000x128, .f32⟩ : BufTy).Contents (Elt F) → (⟨S50000x128, .f32⟩ : BufTy).Contents (Elt F) → (⟨S50000x128, .f32⟩ : BufTy).Contents (Elt F)) ]
/-- Each touches TensorCore references only. -/
theorem stBn1B2_sub : (stBn1B2 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., binary_bufs_sub ..⟩
/-- None allocates a buffer. -/
theorem stBn1B2_fresh : (stBn1B2 : List (HloOp τ sig (Elt F))).Forall fun op => op.fresh = ∅ :=
  ⟨rfl, rfl, rfl, rfl, rfl, rfl, rfl, rfl, rfl⟩
/-- The buffers it writes, in order. -/
abbrev stBn1B2_W : List (Ref sig .tc) :=
  [main_v98, main_v99, main_v100, main_v101, main_v102, main_cst_20, main_v103, main_v104, main_v105]
/-- Each writes its own result buffer only. -/
theorem stBn1B2_wsub : (stBn1B2 : List (HloOp τ sig (Elt F))).Forall fun op => op.writes ⊆ (stBn1B2_W.map (Proc.devRef (τ := τ) .tc)).toFinset :=
  ⟨wsub_single (y := main_v98) (by decide), wsub_single (y := main_v99) (by decide), wsub_single (y := main_v100) (by decide), wsub_single (y := main_v101) (by decide), wsub_single (y := main_v102) (by decide), wsub_single (y := main_cst_20) (by decide), wsub_single (y := main_v103) (by decide), wsub_single (y := main_v104) (by decide), wsub_single (y := main_v105) (by decide)⟩
/-- No argument of the program is among them. -/
theorem stBn1B2_args : ∀ r ∈ argRefs, r ∉ stBn1B2_W := by decide

/-- The second layer's rectification. 3 operations, in order. -/
abbrev stBn1Relu : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x128, .f32⟩) (broadcastInDim S50000x128 ![] bcast_S_S50000x128),
    StableHlo.TRef.binary (.of main_v105 : StableHlo.TRef sig ⟨S50000x128, .f32⟩) (.of main_call4_v0 : StableHlo.TRef sig ⟨S50000x128, .f32⟩) (.of main_v106 : StableHlo.TRef sig ⟨S50000x128, .f32⟩) maximumf ]
/-- Each touches TensorCore references only. -/
theorem stBn1Relu_sub : (stBn1Relu : List (HloOp τ sig (Elt F))).Forall fun op => op.bufs ⊆ tcRefs τ sig :=
  ⟨nullary_bufs_sub .., unary_bufs_sub .., binary_bufs_sub ..⟩
/-- None allocates a buffer. -/
theorem stBn1Relu_fresh : (stBn1Relu : List (HloOp τ sig (Elt F))).Forall fun op => op.fresh = ∅ :=
  ⟨rfl, rfl, rfl⟩
/-- The buffers it writes, in order. -/
abbrev stBn1Relu_W : List (Ref sig .tc) :=
  [main_call4_cst, main_call4_v0, main_v106]
/-- Each writes its own result buffer only. -/
theorem stBn1Relu_wsub : (stBn1Relu : List (HloOp τ sig (Elt F))).Forall fun op => op.writes ⊆ (stBn1Relu_W.map (Proc.devRef (τ := τ) .tc)).toFinset :=
  ⟨wsub_single (y := main_call4_cst) (by decide), wsub_single (y := main_call4_v0) (by decide), wsub_single (y := main_v106) (by decide)⟩
/-- No argument of the program is among them. -/
theorem stBn1Relu_args : ∀ r ∈ argRefs, r ∉ stBn1Relu_W := by decide

/-- The output layer's dense product. 1 operation, in order. -/
abbrev stMm2 : List (HloOp τ sig (Elt F)) :=
  [ StableHlo.binary main_v106 main_arg10 main_v107 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]
/-- Each touches TensorCore references only. -/
theorem stMm2_sub : (stMm2 : List (HloOp τ sig (Elt F))).Forall fun op => op.bufs ⊆ tcRefs τ sig :=
  binary_bufs_sub ..
/-- None allocates a buffer. -/
theorem stMm2_fresh : (stMm2 : List (HloOp τ sig (Elt F))).Forall fun op => op.fresh = ∅ :=
  rfl
/-- The buffers it writes, in order. -/
abbrev stMm2_W : List (Ref sig .tc) :=
  [main_v107]
/-- Each writes its own result buffer only. -/
theorem stMm2_wsub : (stMm2 : List (HloOp τ sig (Elt F))).Forall fun op => op.writes ⊆ (stMm2_W.map (Proc.devRef (τ := τ) .tc)).toFinset :=
  wsub_single (y := main_v107) (by decide)
/-- No argument of the program is among them. -/
theorem stMm2_args : ∀ r ∈ argRefs, r ∉ stMm2_W := by decide

/-- The output layer's aggregation: gather, scale by the edge weights, scatter-add, bias. 19 operations, in order. -/
abbrev stConv2 : List (HloOp τ sig (Elt F)) :=
  [ StableHlo.nullary main_c_21 (constantI S_ 32 0#32),
    StableHlo.unary main_c_21 main_v108 (broadcastInDim S650000 ![] bcast_S_S650000 : (⟨S_, .i32⟩ : BufTy).Contents (Elt F) → (⟨S650000, .i32⟩ : BufTy).Contents (Elt F)),
    StableHlo.binary main_v3 main_v108 main_v109 (cmpi .slt : (⟨S650000, .i32⟩ : BufTy).Contents (Elt F) → (⟨S650000, .i32⟩ : BufTy).Contents (Elt F) → (⟨S650000, .i1⟩ : BufTy).Contents (Elt F)),
    StableHlo.nullary main_c_22 (constantI S_ 32 50000#32),
    StableHlo.unary main_c_22 main_v110 (broadcastInDim S650000 ![] bcast_S_S650000 : (⟨S_, .i32⟩ : BufTy).Contents (Elt F) → (⟨S650000, .i32⟩ : BufTy).Contents (Elt F)),
    StableHlo.binary main_v3 main_v110 main_v111 (addi : (⟨S650000, .i32⟩ : BufTy).Contents (Elt F) → (⟨S650000, .i32⟩ : BufTy).Contents (Elt F) → (⟨S650000, .i32⟩ : BufTy).Contents (Elt F)),
    StableHlo.ternary main_v109 main_v111 main_v3 main_v112 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v112 main_v113 (broadcastInDim S650000x1 ![0] bcast_S650000_S650000x1_0 : (⟨S650000, .i32⟩ : BufTy).Contents (Elt F) → (⟨S650000x1, .i32⟩ : BufTy).Contents (Elt F)),
    StableHlo.binary main_v107 main_v113 main_v114 ((fun x i => Host.gather gather_S50000x40_S650000x1_S650000x40_1_0_n_n_0_1_140 x i) : (⟨S50000x40, .f32⟩ : BufTy).Contents (Elt F) → (⟨S650000x1, .i32⟩ : BufTy).Contents (Elt F) → (⟨S650000x40, .f32⟩ : BufTy).Contents (Elt F)),
    StableHlo.unary main_v29 main_v115 (broadcastInDim S650000x1 ![0] bcast_S650000_S650000x1_0 : (⟨S650000, .f32⟩ : BufTy).Contents (Elt F) → (⟨S650000x1, .f32⟩ : BufTy).Contents (Elt F)),
    StableHlo.unary main_v115 main_v116 (broadcastInDim S650000x40 ![0, 1] bcast_S650000x1_S650000x40_0_1 : (⟨S650000x1, .f32⟩ : BufTy).Contents (Elt F) → (⟨S650000x40, .f32⟩ : BufTy).Contents (Elt F)),
    StableHlo.binary main_v114 main_v116 main_v117 (mulf : (⟨S650000x40, .f32⟩ : BufTy).Contents (Elt F) → (⟨S650000x40, .f32⟩ : BufTy).Contents (Elt F) → (⟨S650000x40, .f32⟩ : BufTy).Contents (Elt F)),
    StableHlo.nullary main_cst_23 (constant S_ .f32 0x00000000#32),
    StableHlo.unary main_cst_23 main_v118 (broadcastInDim S50000x40 ![] bcast_S_S50000x40 : (⟨S_, .f32⟩ : BufTy).Contents (Elt F) → (⟨S50000x40, .f32⟩ : BufTy).Contents (Elt F)),
    StableHlo.unary main_v6 main_v119 (broadcastInDim S650000x1 ![0] bcast_S650000_S650000x1_0 : (⟨S650000, .i32⟩ : BufTy).Contents (Elt F) → (⟨S650000x1, .i32⟩ : BufTy).Contents (Elt F)),
    StableHlo.ternary main_v118 main_v119 main_v117 main_v120 ((fun x i u => Host.scatterAdd scatter_S50000x40_S650000x1_S650000x40_1_0_0_1 x i u) : (⟨S50000x40, .f32⟩ : BufTy).Contents (Elt F) → (⟨S650000x1, .i32⟩ : BufTy).Contents (Elt F) → (⟨S650000x40, .f32⟩ : BufTy).Contents (Elt F) → (⟨S50000x40, .f32⟩ : BufTy).Contents (Elt F)),
    StableHlo.unary main_arg11 main_v121 (broadcastInDim S1x40 ![1] bcast_S40_S1x40_1 : (⟨S40, .f32⟩ : BufTy).Contents (Elt F) → (⟨S1x40, .f32⟩ : BufTy).Contents (Elt F)),
    StableHlo.unary main_v121 main_v122 (broadcastInDim S50000x40 ![0, 1] bcast_S1x40_S50000x40_0_1 : (⟨S1x40, .f32⟩ : BufTy).Contents (Elt F) → (⟨S50000x40, .f32⟩ : BufTy).Contents (Elt F)),
    StableHlo.binary main_v120 main_v122 main_v123 (addf : (⟨S50000x40, .f32⟩ : BufTy).Contents (Elt F) → (⟨S50000x40, .f32⟩ : BufTy).Contents (Elt F) → (⟨S50000x40, .f32⟩ : BufTy).Contents (Elt F)) ]
/-- Each touches TensorCore references only. -/
theorem stConv2_sub : (stConv2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
/-- None allocates a buffer. -/
theorem stConv2_fresh : (stConv2 : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- The buffers it writes, in order. -/
abbrev stConv2_W : List (Ref sig .tc) :=
  [main_c_21, main_v108, main_v109, main_c_22, main_v110, main_v111, main_v112, main_v113, main_v114, main_v115, main_v116, main_v117, main_cst_23, main_v118, main_v119, main_v120, main_v121, main_v122, main_v123]
/-- Each writes its own result buffer only. -/
theorem stConv2_wsub : (stConv2 : List (HloOp τ sig (Elt F))).Forall fun op => op.writes ⊆ (stConv2_W.map (Proc.devRef (τ := τ) .tc)).toFinset :=
  ⟨wsub_single (y := main_c_21) (by decide), wsub_single (y := main_v108) (by decide), wsub_single (y := main_v109) (by decide), wsub_single (y := main_c_22) (by decide), wsub_single (y := main_v110) (by decide), wsub_single (y := main_v111) (by decide), wsub_single (y := main_v112) (by decide), wsub_single (y := main_v113) (by decide), wsub_single (y := main_v114) (by decide), wsub_single (y := main_v115) (by decide), wsub_single (y := main_v116) (by decide), wsub_single (y := main_v117) (by decide), wsub_single (y := main_cst_23) (by decide), wsub_single (y := main_v118) (by decide), wsub_single (y := main_v119) (by decide), wsub_single (y := main_v120) (by decide), wsub_single (y := main_v121) (by decide), wsub_single (y := main_v122) (by decide), wsub_single (y := main_v123) (by decide)⟩
/-- No argument of the program is among them. -/
theorem stConv2_args : ∀ r ∈ argRefs, r ∉ stConv2_W := by decide

/-! ## The stages two windows of the printed program share, whole -/

/-- The first normalisation's column means, whole. -/
abbrev stBn0A : List (HloOp τ sig (Elt F)) := stBn0A1 ++ stBn0A2
/-- The second normalisation applied and the residual sum, whole. -/
abbrev stBn1B : List (HloOp τ sig (Elt F)) := stBn1B1 ++ stBn1B2

/-! ## The program's operations, in order -/

/-- @main's 198 operations: the nineteen stages in program order. -/
abbrev ops : List (HloOp τ sig (Elt F)) :=
  stPrepA ++ (stPrepCall ++ (stPrepB ++ (stMm0 ++ (stConv0 ++ (stBn0A ++ (stBn0Var ++ (stBn0Where ++ (stBn0B ++ (stBn0Relu ++ (stMm1 ++ (stConv1 ++ (stBn1A ++ (stBn1Var ++ (stBn1Where ++ (stBn1B ++ (stBn1Relu ++ (stMm2 ++ stConv2)))))))))))))))))

/-- The fold over the program, stage by stage. -/
theorem after_ops (V : Valuation τ sig (Elt F)) :
    after ops V = after stConv2 (after stMm2 (after stBn1Relu (after stBn1B (after stBn1Where (after stBn1Var (after stBn1A (after stConv1 (after stMm1 (after stBn0Relu (after stBn0B (after stBn0Where (after stBn0Var (after stBn0A (after stConv0 (after stMm0 (after stPrepB (after stPrepCall (after stPrepA V)))))))))))))))))) := by
  simp only [ops, after_append]

/-! ## @main is the line of those operations -/

/-- Window 0 of @main is the chain of its stages, the last in tail position (both sides unfold to the same sequence of steps). -/
theorem main_part0_chain (c : Dev nD) : main_part0 (F := F) c = (Pipeline.chainK
  [ seq stPrepA,
    seq stPrepCall,
    seq stPrepB,
    seq stMm0,
    seq stConv0 ]
  (seq stBn0A1) : Prog (TpuEff nD τ sig (Elt F) (Pipeline.Sig Λ₀ (Fin 0) fun p => (pcfgs (F := F) p).Adm) .tc) PUnit) := by
  chain_rfl

/-- Window 1 of @main is the chain of its stages, the last in tail position (both sides unfold to the same sequence of steps). -/
theorem main_part1_chain (c : Dev nD) : main_part1 (F := F) c = (Pipeline.chainK
  [ seq stBn0A2,
    seq (stBn0Var ++ stBn0Where),
    seq stBn0B,
    seq stBn0Relu,
    seq stMm1,
    seq stConv1,
    seq stBn1A,
    seq (stBn1Var ++ stBn1Where) ]
  (seq stBn1B1) : Prog (TpuEff nD τ sig (Elt F) (Pipeline.Sig Λ₀ (Fin 0) fun p => (pcfgs (F := F) p).Adm) .tc) PUnit) := by
  chain_rfl

/-- The last window of @main is the chain of its stages. -/
theorem main_part2_chain (c : Dev nD) : main_part2 (F := F) c = (Pipeline.chain
  [ seq stBn1B2,
    seq stBn1Relu,
    seq stMm2,
    seq stConv2 ] : Prog (TpuEff nD τ sig (Elt F) (Pipeline.Sig Λ₀ (Fin 0) fun p => (pcfgs (F := F) p).Adm) .tc) PUnit) := by
  chain_rfl

/-- @main is the one line of its operations: its three windows' chains joined, and a chain of lines is the line of their concatenation. -/
theorem main_eq (c : Dev nD) : main (F := F) c = seq ops := by
  show (main_part0 (F := F) c >>= fun _ => main_part1 (F := F) c >>= fun _ => main_part2 (F := F) c) = _
  rewrite [main_part2_chain, main_part1_chain, Pipeline.chainK_bind_chain, main_part0_chain, Pipeline.chainK_bind_chain]
  show (Pipeline.chain
    [ seq stPrepA,
      seq stPrepCall,
      seq stPrepB,
      seq stMm0,
      seq stConv0,
      seq stBn0A1,
      seq stBn0A2,
      seq (stBn0Var ++ stBn0Where),
      seq stBn0B,
      seq stBn0Relu,
      seq stMm1,
      seq stConv1,
      seq stBn1A,
      seq (stBn1Var ++ stBn1Where),
      seq stBn1B1,
      seq stBn1B2,
      seq stBn1Relu,
      seq stMm2,
      seq stConv2 ] : Prog (TpuEff nD τ sig (Elt F) (Pipeline.Sig Λ₀ (Fin 0) fun p => (pcfgs (F := F) p).Adm) .tc) PUnit) = _
  simp only [ops, stBn0A, stBn1B, Pipeline.chain_cons, Pipeline.chain_nil, seq_append, bind_assoc, bind_pure_unit]

/-! ## The run -/

/-- Every operation touches TensorCore references only. -/
theorem ops_sub : (ops : List (HloOp τ sig (Elt F))).Forall fun op => op.bufs ⊆ tcRefs τ sig :=
  forall_append (stPrepA_sub)
    (forall_append (stPrepCall_sub)
    (forall_append (stPrepB_sub)
    (forall_append (stMm0_sub)
    (forall_append (stConv0_sub)
    (forall_append (forall_append (stBn0A1_sub) (stBn0A2_sub))
    (forall_append (stBn0Var_sub)
    (forall_append (stBn0Where_sub)
    (forall_append (stBn0B_sub)
    (forall_append (stBn0Relu_sub)
    (forall_append (stMm1_sub)
    (forall_append (stConv1_sub)
    (forall_append (stBn1A_sub)
    (forall_append (stBn1Var_sub)
    (forall_append (stBn1Where_sub)
    (forall_append (forall_append (stBn1B1_sub) (stBn1B2_sub))
    (forall_append (stBn1Relu_sub)
    (forall_append (stMm2_sub)
    (stConv2_sub))))))))))))))))))

/-- No operation allocates a buffer. -/
theorem ops_fresh : (ops : List (HloOp τ sig (Elt F))).Forall fun op => op.fresh = ∅ :=
  forall_append (stPrepA_fresh)
    (forall_append (stPrepCall_fresh)
    (forall_append (stPrepB_fresh)
    (forall_append (stMm0_fresh)
    (forall_append (stConv0_fresh)
    (forall_append (forall_append (stBn0A1_fresh) (stBn0A2_fresh))
    (forall_append (stBn0Var_fresh)
    (forall_append (stBn0Where_fresh)
    (forall_append (stBn0B_fresh)
    (forall_append (stBn0Relu_fresh)
    (forall_append (stMm1_fresh)
    (forall_append (stConv1_fresh)
    (forall_append (stBn1A_fresh)
    (forall_append (stBn1Var_fresh)
    (forall_append (stBn1Where_fresh)
    (forall_append (forall_append (stBn1B1_fresh) (stBn1B2_fresh))
    (forall_append (stBn1Relu_fresh)
    (forall_append (stMm2_fresh)
    (stConv2_fresh))))))))))))))))))

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- At the compiled mesh, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The arguments end as launched: no operation writes one -/

/-- No operation writes an argument's buffer. -/
theorem ops_nw (r : Ref sig .tc) (hr : r ∈ argRefs) :
    ∀ op ∈ (ops : List (HloOp τ sig (Elt F))), Proc.devRef (τ := τ) .tc r ∉ op.writes :=
  nw_append (nw_of_wsub stPrepA stPrepA_wsub (stPrepA_args r hr))
    (nw_append (nw_of_wsub stPrepCall stPrepCall_wsub (stPrepCall_args r hr))
    (nw_append (nw_of_wsub stPrepB stPrepB_wsub (stPrepB_args r hr))
    (nw_append (nw_of_wsub stMm0 stMm0_wsub (stMm0_args r hr))
    (nw_append (nw_of_wsub stConv0 stConv0_wsub (stConv0_args r hr))
    (nw_append (nw_append (nw_of_wsub stBn0A1 stBn0A1_wsub (stBn0A1_args r hr)) (nw_of_wsub stBn0A2 stBn0A2_wsub (stBn0A2_args r hr)))
    (nw_append (nw_of_wsub stBn0Var stBn0Var_wsub (stBn0Var_args r hr))
    (nw_append (nw_of_wsub stBn0Where stBn0Where_wsub (stBn0Where_args r hr))
    (nw_append (nw_of_wsub stBn0B stBn0B_wsub (stBn0B_args r hr))
    (nw_append (nw_of_wsub stBn0Relu stBn0Relu_wsub (stBn0Relu_args r hr))
    (nw_append (nw_of_wsub stMm1 stMm1_wsub (stMm1_args r hr))
    (nw_append (nw_of_wsub stConv1 stConv1_wsub (stConv1_args r hr))
    (nw_append (nw_of_wsub stBn1A stBn1A_wsub (stBn1A_args r hr))
    (nw_append (nw_of_wsub stBn1Var stBn1Var_wsub (stBn1Var_args r hr))
    (nw_append (nw_of_wsub stBn1Where stBn1Where_wsub (stBn1Where_args r hr))
    (nw_append (nw_append (nw_of_wsub stBn1B1 stBn1B1_wsub (stBn1B1_args r hr)) (nw_of_wsub stBn1B2 stBn1B2_wsub (stBn1B2_args r hr)))
    (nw_append (nw_of_wsub stBn1Relu stBn1Relu_wsub (stBn1Relu_args r hr))
    (nw_append (nw_of_wsub stMm2 stMm2_wsub (stMm2_args r hr))
    (nw_of_wsub stConv2 stConv2_wsub (stConv2_args r hr)))))))))))))))))))

/-- The fold leaves an argument's buffer as it was. -/
theorem kept (r : Ref sig .tc) (hr : r ∈ argRefs) (V : Valuation τ sig (Elt F)) :
    after ops V (Proc.devRef .tc r) = V (Proc.devRef .tc r) :=
  after_of_forall_not_mem ops V (ops_nw r hr)

theorem kept_arg0 (V : Valuation τ sig (Elt F)) : after ops V (Proc.devRef .tc main_arg0) = V (Proc.devRef .tc main_arg0) :=
  kept main_arg0 (by decide) V
theorem kept_arg1 (V : Valuation τ sig (Elt F)) : after ops V (Proc.devRef .tc main_arg1) = V (Proc.devRef .tc main_arg1) :=
  kept main_arg1 (by decide) V
theorem kept_arg2 (V : Valuation τ sig (Elt F)) : after ops V (Proc.devRef .tc main_arg2) = V (Proc.devRef .tc main_arg2) :=
  kept main_arg2 (by decide) V
theorem kept_arg3 (V : Valuation τ sig (Elt F)) : after ops V (Proc.devRef .tc main_arg3) = V (Proc.devRef .tc main_arg3) :=
  kept main_arg3 (by decide) V
theorem kept_arg4 (V : Valuation τ sig (Elt F)) : after ops V (Proc.devRef .tc main_arg4) = V (Proc.devRef .tc main_arg4) :=
  kept main_arg4 (by decide) V
theorem kept_arg5 (V : Valuation τ sig (Elt F)) : after ops V (Proc.devRef .tc main_arg5) = V (Proc.devRef .tc main_arg5) :=
  kept main_arg5 (by decide) V
theorem kept_arg6 (V : Valuation τ sig (Elt F)) : after ops V (Proc.devRef .tc main_arg6) = V (Proc.devRef .tc main_arg6) :=
  kept main_arg6 (by decide) V
theorem kept_arg7 (V : Valuation τ sig (Elt F)) : after ops V (Proc.devRef .tc main_arg7) = V (Proc.devRef .tc main_arg7) :=
  kept main_arg7 (by decide) V
theorem kept_arg8 (V : Valuation τ sig (Elt F)) : after ops V (Proc.devRef .tc main_arg8) = V (Proc.devRef .tc main_arg8) :=
  kept main_arg8 (by decide) V
theorem kept_arg9 (V : Valuation τ sig (Elt F)) : after ops V (Proc.devRef .tc main_arg9) = V (Proc.devRef .tc main_arg9) :=
  kept main_arg9 (by decide) V
theorem kept_arg10 (V : Valuation τ sig (Elt F)) : after ops V (Proc.devRef .tc main_arg10) = V (Proc.devRef .tc main_arg10) :=
  kept main_arg10 (by decide) V
theorem kept_arg11 (V : Valuation τ sig (Elt F)) : after ops V (Proc.devRef .tc main_arg11) = V (Proc.devRef .tc main_arg11) :=
  kept main_arg11 (by decide) V

end Cert.ReferenceIdeal.Hand

end
-- ==== Proof.SimBase.lean ====
/- Shared definitions for comparing the two programs' host stages at the ideal instance: the valuations of the two
   signatures, the tensor types of the values the stages exchange, and the fact that an operation writing a buffer's
   own contents back leaves every fold after it unchanged. -/
import proofs.«121903_j7567732376250_1_alg».proof.Proof.Gen.KernelIdeal.Launch
import proofs.«121903_j7567732376250_1_alg».proof.Proof.RefRun
import Idealize.ShloMosaic.PureOps.Ideal
import Idealize.ShloMosaic.Lib.IdealHost

noncomputable section

namespace Cert.Sim

open Idealize.ShloMosaic Idealize.ShloMosaic.TcCoe Idealize.SL.Sem Idealize.ShloMosaic.StableHlo Idealize.ShloMosaic.ValueIdx

/-- Contents of the kernel program's buffers, at the ideal instance. -/
abbrev KV := Valuation Cert.KernelIdeal.τ Cert.KernelIdeal.sig (Elt Ideal)
/-- Contents of the reference program's buffers, at the ideal instance. -/
abbrev RV := Valuation Cert.ReferenceIdeal.τ Cert.ReferenceIdeal.sig (Elt Ideal)
/-- A 50000 × 128 matrix of extended reals. -/
abbrev T50kx128 := (⟨2, ![50000, 128]⟩ : Shape).Idx → EReal
/-- A 50000 × 40 matrix of extended reals. -/
abbrev T50kx40 := (⟨2, ![50000, 40]⟩ : Shape).Idx → EReal
/-- A vector of 128 extended reals. -/
abbrev T128 := (⟨1, ![128]⟩ : Shape).Idx → EReal
/-- A vector of 40 extended reals. -/
abbrev T40 := (⟨1, ![40]⟩ : Shape).Idx → EReal
/-- A vector of 650000 extended reals (one per edge, self loops included). -/
abbrev T650k := (⟨1, ![650000]⟩ : Shape).Idx → EReal
/-- A vector of 650000 32-bit integers (one per edge, self loops included). -/
abbrev I650k := (⟨1, ![650000]⟩ : Shape).Idx → BitVec 32
/-- The 2 × 600000 table of edge endpoints. -/
abbrev I2x600k := (⟨2, ![2, 600000]⟩ : Shape).Idx → BitVec 32
/-- A 32-bit integer scalar. -/
abbrev I0 := (⟨0, ![]⟩ : Shape).Idx → BitVec 32

/-- Writing a buffer's own contents back changes nothing. -/
theorem preload {τ : Topo} {sig : RefSig} (y : Ref sig .tc) (hy : y.space ≠ .host ∧ (y : DevRef τ sig).isScoped = false)
    (L : List (HloOp τ sig (Elt Ideal))) (W : Valuation τ sig (Elt Ideal))
    (x : y.ty.Contents (Elt Ideal)) (hx : W (Proc.devRef .tc y) = x) :
    after (StableHlo.nullary y x hy :: L) W = after L W := by
  subst hx
  show after L ((nullary y _ hy).result W) = after L W
  refine congrArg (after L) ?_
  funext b
  by_cases hb : b = Proc.devRef .tc y
  · subst hb
    exact nullary_result y _ hy W
  · exact HloOp.result_of_not_mem _ W (by rw [nullary_writes, Finset.mem_singleton]; exact hb)

end Cert.Sim

end
-- ==== Proof.SimConv.lean ====
/- The stages where the two programs run the same host operations, compared: from the same inputs — fed to both
   sides by an operation that writes them in front of the stage — the preparation of the edges (both endpoint vectors
   with the self loops appended, and the symmetric normalisation weight of each edge) and each of the three
   aggregations (gather at the sources, scale by the edge weights, scatter-add at the targets, add the bias) end at
   the same value. Each side folds to one expression over the inputs, and the two expressions are the same. -/
import proofs.«121903_j7567732376250_1_alg».proof.Proof.SimBase

noncomputable section

namespace Cert.Sim

open Idealize.ShloMosaic Idealize.ShloMosaic.TcCoe Idealize.SL.Sem Idealize.ShloMosaic.StableHlo Idealize.ShloMosaic.ValueIdx

set_option maxHeartbeats 1000000 in
/-- Both programs prepare the edges by the same operations: buffer `main_v3` ends at the same value of the edge table. -/
theorem prep_v3 (W : KV) (U : RV) (a1 : I2x600k) :
    after (Cert.KernelIdeal.Gen.hostOps0_2 (F := Ideal)) (after (Cert.KernelIdeal.Gen.hostOps0_1 (F := Ideal)) (after (StableHlo.nullary Cert.KernelIdeal.main_arg1 a1 :: Cert.KernelIdeal.Gen.hostOps0 (F := Ideal)) W)) (Proc.devRef .tc Cert.KernelIdeal.main_v3)
      = after (Cert.ReferenceIdeal.Hand.stPrepB (F := Ideal)) (after (Cert.ReferenceIdeal.Hand.stPrepCall (F := Ideal)) (after (StableHlo.nullary Cert.ReferenceIdeal.main_arg1 a1 :: Cert.ReferenceIdeal.Hand.stPrepA (F := Ideal)) U)) (Proc.devRef .tc Cert.ReferenceIdeal.main_v3) := by
  after_results_simp
  chain_rfl

set_option maxHeartbeats 1000000 in
/-- Both programs prepare the edges by the same operations: buffer `main_v6` ends at the same value of the edge table. -/
theorem prep_v6 (W : KV) (U : RV) (a1 : I2x600k) :
    after (Cert.KernelIdeal.Gen.hostOps0_2 (F := Ideal)) (after (Cert.KernelIdeal.Gen.hostOps0_1 (F := Ideal)) (after (StableHlo.nullary Cert.KernelIdeal.main_arg1 a1 :: Cert.KernelIdeal.Gen.hostOps0 (F := Ideal)) W)) (Proc.devRef .tc Cert.KernelIdeal.main_v6)
      = after (Cert.ReferenceIdeal.Hand.stPrepB (F := Ideal)) (after (Cert.ReferenceIdeal.Hand.stPrepCall (F := Ideal)) (after (StableHlo.nullary Cert.ReferenceIdeal.main_arg1 a1 :: Cert.ReferenceIdeal.Hand.stPrepA (F := Ideal)) U)) (Proc.devRef .tc Cert.ReferenceIdeal.main_v6) := by
  after_results_simp
  chain_rfl

set_option maxHeartbeats 1000000 in
/-- Both programs prepare the edges by the same operations: buffer `main_v29` ends at the same value of the edge table. -/
theorem prep_v29 (W : KV) (U : RV) (a1 : I2x600k) :
    after (Cert.KernelIdeal.Gen.hostOps0_2 (F := Ideal)) (after (Cert.KernelIdeal.Gen.hostOps0_1 (F := Ideal)) (after (StableHlo.nullary Cert.KernelIdeal.main_arg1 a1 :: Cert.KernelIdeal.Gen.hostOps0 (F := Ideal)) W)) (Proc.devRef .tc Cert.KernelIdeal.main_v29)
      = after (Cert.ReferenceIdeal.Hand.stPrepB (F := Ideal)) (after (Cert.ReferenceIdeal.Hand.stPrepCall (F := Ideal)) (after (StableHlo.nullary Cert.ReferenceIdeal.main_arg1 a1 :: Cert.ReferenceIdeal.Hand.stPrepA (F := Ideal)) U)) (Proc.devRef .tc Cert.ReferenceIdeal.main_v29) := by
  after_results_simp
  chain_rfl

set_option maxHeartbeats 1000000 in
/-- The first aggregation: from the same product, bias, endpoints and edge weights, both programs end at the same matrix. -/
theorem conv0 (W : KV) (U : RV) (x30 : T50kx128) (xa3 : T128) (x3 x6 : I650k) (x29 : T650k) :
    after (StableHlo.nullary Cert.KernelIdeal.main_v30 x30 :: StableHlo.nullary Cert.KernelIdeal.main_arg3 xa3 :: StableHlo.nullary Cert.KernelIdeal.main_v3 x3 :: StableHlo.nullary Cert.KernelIdeal.main_v6 x6 :: StableHlo.nullary Cert.KernelIdeal.main_v29 x29 :: (Cert.KernelIdeal.Gen.hostOps1 (F := Ideal)).take 19) W (Proc.devRef .tc Cert.KernelIdeal.main_v46)
      = after (StableHlo.nullary Cert.ReferenceIdeal.main_v30 x30 :: StableHlo.nullary Cert.ReferenceIdeal.main_arg3 xa3 :: StableHlo.nullary Cert.ReferenceIdeal.main_v3 x3 :: StableHlo.nullary Cert.ReferenceIdeal.main_v6 x6 :: StableHlo.nullary Cert.ReferenceIdeal.main_v29 x29 :: Cert.ReferenceIdeal.Hand.stConv0 (F := Ideal)) U (Proc.devRef .tc Cert.ReferenceIdeal.main_v46) := by
  simp only [List.take_succ_cons, List.take_zero, Cert.KernelIdeal.Gen.hostOps1]
  after_results_simp
  chain_rfl

set_option maxHeartbeats 1000000 in
/-- The second aggregation: from the same product, bias, endpoints and edge weights, both programs end at the same matrix. -/
theorem conv1 (W : KV) (U : RV) (x55 : T50kx128) (xa7 : T128) (x3 x6 : I650k) (x29 : T650k) :
    after (StableHlo.nullary Cert.KernelIdeal.main_v55 x55 :: StableHlo.nullary Cert.KernelIdeal.main_arg7 xa7 :: StableHlo.nullary Cert.KernelIdeal.main_v3 x3 :: StableHlo.nullary Cert.KernelIdeal.main_v6 x6 :: StableHlo.nullary Cert.KernelIdeal.main_v29 x29 :: (Cert.KernelIdeal.Gen.hostOps3 (F := Ideal)).take 19) W (Proc.devRef .tc Cert.KernelIdeal.main_v71)
      = after (StableHlo.nullary Cert.ReferenceIdeal.main_v67 x55 :: StableHlo.nullary Cert.ReferenceIdeal.main_arg7 xa7 :: StableHlo.nullary Cert.ReferenceIdeal.main_v3 x3 :: StableHlo.nullary Cert.ReferenceIdeal.main_v6 x6 :: StableHlo.nullary Cert.ReferenceIdeal.main_v29 x29 :: Cert.ReferenceIdeal.Hand.stConv1 (F := Ideal)) U (Proc.devRef .tc Cert.ReferenceIdeal.main_v83) := by
  simp only [List.take_succ_cons, List.take_zero, Cert.KernelIdeal.Gen.hostOps3]
  after_results_simp
  chain_rfl

set_option maxHeartbeats 1000000 in
/-- The output aggregation: from the same product, bias, endpoints and edge weights, both programs end at the same matrix. -/
theorem conv2 (W : KV) (U : RV) (x80 : T50kx40) (xa11 : T40) (x3 x6 : I650k) (x29 : T650k) :
    after (StableHlo.nullary Cert.KernelIdeal.main_v80 x80 :: StableHlo.nullary Cert.KernelIdeal.main_arg11 xa11 :: StableHlo.nullary Cert.KernelIdeal.main_v3 x3 :: StableHlo.nullary Cert.KernelIdeal.main_v6 x6 :: StableHlo.nullary Cert.KernelIdeal.main_v29 x29 :: Cert.KernelIdeal.Gen.hostOps5 (F := Ideal)) W (Proc.devRef .tc Cert.KernelIdeal.main_v96)
      = after (StableHlo.nullary Cert.ReferenceIdeal.main_v107 x80 :: StableHlo.nullary Cert.ReferenceIdeal.main_arg11 xa11 :: StableHlo.nullary Cert.ReferenceIdeal.main_v3 x3 :: StableHlo.nullary Cert.ReferenceIdeal.main_v6 x6 :: StableHlo.nullary Cert.ReferenceIdeal.main_v29 x29 :: Cert.ReferenceIdeal.Hand.stConv2 (F := Ideal)) U (Proc.devRef .tc Cert.ReferenceIdeal.main_v123) := by
  after_results_simp
  chain_rfl

end Cert.Sim

end
-- ==== Proof.SimStats.lean ====
import proofs.«121903_j7567732376250_1_alg».proof.Proof.SimBase
import Idealize.ShloMosaic.Lib.Pipeline.Value
import Idealize.ShloMosaic.Lib.Pipeline.Regions
import Idealize.ShloMosaic.Lib.ValueIdx

noncomputable section

namespace Cert.Sim

open Idealize.ShloMosaic Idealize.ShloMosaic.TcCoe Idealize.SL.Sem Idealize.ShloMosaic.StableHlo Idealize.ShloMosaic.ValueIdx
open Idealize.ShloMosaic.Pipeline

/-- A quotient of two vectors at an entry depends only on the two entries. -/
theorem divf_congr {s t : Shape} (x y : FVec Ideal s .f32) (x' y' : FVec Ideal t .f32) (i : s.Idx) (j : t.Idx)
    (hx : x i = x' j) (hy : y i = y' j) : Host.divf x y i = Host.divf x' y' j := by
  show FloatOps.hostDivf (x i) (y i) = FloatOps.hostDivf (x' j) (y' j)
  rw [hx, hy]

/-- A selection between two vectors at an entry depends only on the three entries. -/
theorem select_congr {s t : Shape} {α : Type} (c : IVec s 1) (a b : s.Idx → α) (c' : IVec t 1) (a' b' : t.Idx → α) (i : s.Idx) (j : t.Idx)
    (hc : c i = c' j) (ha : a i = a' j) (hb : b i = b' j) : select c a b i = select c' a' b' j := by
  show Scalar.select (c i) (a i) (b i) = Scalar.select (c' j) (a' j) (b' j)
  rw [hc, ha, hb]

/-- Contents moved to a buffer's own type and back are the contents. -/
theorem ofBuf_toBuf {sig : RefSig} {T : BufTy} {Val : EltTy → Type} (x : TRef sig T) (v : T.Contents Val) :
    x.ofBuf (x.toBuf v) = v := by
  obtain ⟨r, rfl, _, _⟩ := x
  rfl

/-- The column means: the kernel program's, kept as a one-row matrix, at (0, q) is the reference program's vector at q
    — the same column sum divided by the same row count. -/
theorem mean0 (W : KV) (U : RV) (pre : T50kx128) (q : Fin 128) :
    (after (StableHlo.nullary Cert.KernelIdeal.main_v46 pre :: (Cert.KernelIdeal.Gen.hostOps1 (F := Ideal)).drop 19) W (Proc.devRef .tc Cert.KernelIdeal.main_v50) : Cert.KernelIdeal.S1x128.Idx → EReal) (ix2 0 q)
      = (after (StableHlo.nullary Cert.ReferenceIdeal.main_v46 pre :: Cert.ReferenceIdeal.Hand.stBn0A (F := Ideal)) U (Proc.devRef .tc Cert.ReferenceIdeal.main_v49) : Cert.ReferenceIdeal.S128.Idx → EReal) (ix1 q) := by
  simp only [List.drop_succ_cons, List.drop_zero, Cert.KernelIdeal.Gen.hostOps1, List.cons_append, List.nil_append, Cert.ReferenceIdeal.Hand.stBn0A, Cert.ReferenceIdeal.Hand.stBn0A1, Cert.ReferenceIdeal.Hand.stBn0A2]
  after_results_simp
  refine divf_congr _ _ _ _ _ _ ?_ ?_
  · refine (broadcastInDim_apply _ _ _ (ix2 0 q) (ix1 q) (fun a => ?_)).trans ?_
    · match a with
      | ⟨0, _⟩ => rfl
    · chain_rfl
  · refine (broadcastInDim_apply _ _ _ (ix2 0 q) ix0 (fun a => a.elim0)).trans
      (Eq.trans ?_ (broadcastInDim_apply _ _ _ (ix1 q) ix0 (fun a => a.elim0)).symm)
    chain_rfl

/-- The column variances: the kernel program's, kept as a one-row matrix, at (0, q) is the reference program's vector
    at q — the same column sum of squared deviations divided by the same corrected count, under the same selection. -/
theorem var0 (W : KV) (U : RV) (pre : T50kx128) (cnt : I0) (q : Fin 128) :
    (after (StableHlo.nullary Cert.KernelIdeal.main_v46 pre :: StableHlo.nullary Cert.KernelIdeal.main_c_11 cnt :: Cert.KernelIdeal.Gen.hostOps1_1 (F := Ideal)) W (Proc.devRef .tc Cert.KernelIdeal.main_v51) : Cert.KernelIdeal.S1x128.Idx → EReal) (ix2 0 q)
      = (after (StableHlo.nullary Cert.ReferenceIdeal.main_v46 pre :: StableHlo.nullary Cert.ReferenceIdeal.main_c_11 cnt :: (Cert.ReferenceIdeal.Hand.stBn0Var (F := Ideal) ++ Cert.ReferenceIdeal.Hand.stBn0Where (F := Ideal))) U (Proc.devRef .tc Cert.ReferenceIdeal.main_v50) : Cert.ReferenceIdeal.S128.Idx → EReal) (ix1 q) := by
  simp only [Cert.KernelIdeal.Gen.hostOps1_1, List.cons_append, List.nil_append, Cert.ReferenceIdeal.Hand.stBn0Var, Cert.ReferenceIdeal.Hand.stBn0Where]
  after_results_simp
  simp only [ofBuf_toBuf]
  refine select_congr _ _ _ _ _ _ _ _ ?_ ?_ ?_
  · refine (broadcastInDim_apply _ _ _ (ix2 0 q) ix0 (fun a => a.elim0)).trans
      (Eq.trans ?_ (broadcastInDim_apply _ _ _ (ix1 q) ix0 (fun a => a.elim0)).symm)
    chain_rfl
  · refine divf_congr _ _ _ _ _ _ ?_ ?_
    · refine (broadcastInDim_apply _ _ _ (ix2 0 q) (ix1 q) (fun a => ?_)).trans ?_
      · match a with
        | ⟨0, _⟩ => rfl
      · chain_rfl
    · refine (broadcastInDim_apply _ _ _ (ix2 0 q) ix0 (fun a => a.elim0)).trans
        (Eq.trans ?_ (broadcastInDim_apply _ _ _ (ix1 q) ix0 (fun a => a.elim0)).symm)
      chain_rfl
  · refine (broadcastInDim_apply _ _ _ (ix2 0 q) ix0 (fun a => a.elim0)).trans
      (Eq.trans ?_ (broadcastInDim_apply _ _ _ (ix1 q) ix0 (fun a => a.elim0)).symm)
    chain_rfl

/-- The column means: the kernel program's, kept as a one-row matrix, at (0, q) is the reference program's vector at q
    — the same column sum divided by the same row count. -/
theorem mean1 (W : KV) (U : RV) (pre : T50kx128) (q : Fin 128) :
    (after (StableHlo.nullary Cert.KernelIdeal.main_v71 pre :: (Cert.KernelIdeal.Gen.hostOps3 (F := Ideal)).drop 19) W (Proc.devRef .tc Cert.KernelIdeal.main_v75) : Cert.KernelIdeal.S1x128.Idx → EReal) (ix2 0 q)
      = (after (StableHlo.nullary Cert.ReferenceIdeal.main_v83 pre :: Cert.ReferenceIdeal.Hand.stBn1A (F := Ideal)) U (Proc.devRef .tc Cert.ReferenceIdeal.main_v86) : Cert.ReferenceIdeal.S128.Idx → EReal) (ix1 q) := by
  simp only [List.drop_succ_cons, List.drop_zero, Cert.KernelIdeal.Gen.hostOps3, List.cons_append, List.nil_append, Cert.ReferenceIdeal.Hand.stBn1A]
  after_results_simp
  refine divf_congr _ _ _ _ _ _ ?_ ?_
  · refine (broadcastInDim_apply _ _ _ (ix2 0 q) (ix1 q) (fun a => ?_)).trans ?_
    · match a with
      | ⟨0, _⟩ => rfl
    · chain_rfl
  · refine (broadcastInDim_apply _ _ _ (ix2 0 q) ix0 (fun a => a.elim0)).trans
      (Eq.trans ?_ (broadcastInDim_apply _ _ _ (ix1 q) ix0 (fun a => a.elim0)).symm)
    chain_rfl

/-- The column variances: the kernel program's, kept as a one-row matrix, at (0, q) is the reference program's vector
    at q — the same column sum of squared deviations divided by the same corrected count, under the same selection. -/
theorem var1 (W : KV) (U : RV) (pre : T50kx128) (cnt : I0) (q : Fin 128) :
    (after (StableHlo.nullary Cert.KernelIdeal.main_v71 pre :: StableHlo.nullary Cert.KernelIdeal.main_c_17 cnt :: Cert.KernelIdeal.Gen.hostOps3_1 (F := Ideal)) W (Proc.devRef .tc Cert.KernelIdeal.main_v76) : Cert.KernelIdeal.S1x128.Idx → EReal) (ix2 0 q)
      = (after (StableHlo.nullary Cert.ReferenceIdeal.main_v83 pre :: StableHlo.nullary Cert.ReferenceIdeal.main_c_18 cnt :: (Cert.ReferenceIdeal.Hand.stBn1Var (F := Ideal) ++ Cert.ReferenceIdeal.Hand.stBn1Where (F := Ideal))) U (Proc.devRef .tc Cert.ReferenceIdeal.main_v87) : Cert.ReferenceIdeal.S128.Idx → EReal) (ix1 q) := by
  simp only [Cert.KernelIdeal.Gen.hostOps3_1, List.cons_append, List.nil_append, Cert.ReferenceIdeal.Hand.stBn1Var, Cert.ReferenceIdeal.Hand.stBn1Where]
  after_results_simp
  simp only [ofBuf_toBuf]
  refine select_congr _ _ _ _ _ _ _ _ ?_ ?_ ?_
  · refine (broadcastInDim_apply _ _ _ (ix2 0 q) ix0 (fun a => a.elim0)).trans
      (Eq.trans ?_ (broadcastInDim_apply _ _ _ (ix1 q) ix0 (fun a => a.elim0)).symm)
    chain_rfl
  · refine divf_congr _ _ _ _ _ _ ?_ ?_
    · refine (broadcastInDim_apply _ _ _ (ix2 0 q) (ix1 q) (fun a => ?_)).trans ?_
      · match a with
        | ⟨0, _⟩ => rfl
      · chain_rfl
    · refine (broadcastInDim_apply _ _ _ (ix2 0 q) ix0 (fun a => a.elim0)).trans
        (Eq.trans ?_ (broadcastInDim_apply _ _ _ (ix1 q) ix0 (fun a => a.elim0)).symm)
      chain_rfl
  · refine (broadcastInDim_apply _ _ _ (ix2 0 q) ix0 (fun a => a.elim0)).trans
      (Eq.trans ?_ (broadcastInDim_apply _ _ _ (ix1 q) ix0 (fun a => a.elim0)).symm)
    chain_rfl

end Cert.Sim

end
-- ==== Proof.KWrites.lean ====
/-
  Which buffers each stretch of the kernel program's host operations writes. Every host operation writes exactly
  its own result buffer, so a stretch leaves every buffer outside the list of its results as it found it: the
  fact by which a value computed early (the edge lists, the edge normalisation, an argument array, a layer's
  activation kept for the skip connection) is still there when a later stretch or region reads it.
-/
import proofs.«121903_j7567732376250_1_alg».proof.Proof.Gen.KernelIdeal.Launch
import Idealize.ShloMosaic.Lib.StableHlo.Run

set_option maxRecDepth 4096

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- A result buffer that is in a list of references is in that list's set of device buffers. -/
theorem wsub_single {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffers hostOps0 writes, in order. -/
abbrev hostOps0_W : List (Ref sig .tc) :=
  [main_v0, main_v1, main_v2, main_v3, main_v4, main_v5, main_v6, main_cst, main_v7, main_cst_0, main_v8, main_v9, main_v10, main_cst_1, main_v11, main_v12, main_v13, main_cst_2]
theorem hostOps0_wsub : (hostOps0 : List (HloOp τ sig (Elt F))).Forall fun op => op.writes ⊆ (hostOps0_W.map (Proc.devRef (τ := τ) .tc)).toFinset :=
  ⟨wsub_single (y := main_v0) (by decide), wsub_single (y := main_v1) (by decide), wsub_single (y := main_v2) (by decide), wsub_single (y := main_v3) (by decide), wsub_single (y := main_v4) (by decide), wsub_single (y := main_v5) (by decide), wsub_single (y := main_v6) (by decide), wsub_single (y := main_cst) (by decide), wsub_single (y := main_v7) (by decide), wsub_single (y := main_cst_0) (by decide), wsub_single (y := main_v8) (by decide), wsub_single (y := main_v9) (by decide), wsub_single (y := main_v10) (by decide), wsub_single (y := main_cst_1) (by decide), wsub_single (y := main_v11) (by decide), wsub_single (y := main_v12) (by decide), wsub_single (y := main_v13) (by decide), wsub_single (y := main_cst_2) (by decide)⟩

/-- The buffers hostOps0_1 writes, in order. -/
abbrev hostOps0_1_W : List (Ref sig .tc) :=
  [main_call0_v0, main_call0_v1, main_v14]
theorem hostOps0_1_wsub : (hostOps0_1 : List (HloOp τ sig (Elt F))).Forall fun op => op.writes ⊆ (hostOps0_1_W.map (Proc.devRef (τ := τ) .tc)).toFinset :=
  ⟨wsub_single (y := main_call0_v0) (by decide), wsub_single (y := main_call0_v1) (by decide), wsub_single (y := main_v14) (by decide)⟩

/-- The buffers hostOps0_2 writes, in order. -/
abbrev hostOps0_2_W : List (Ref sig .tc) :=
  [main_c, main_v15, main_v16, main_c_3, main_v17, main_v18, main_v19, main_v20, main_v21, main_c_4, main_v22, main_v23, main_c_5, main_v24, main_v25, main_v26, main_v27, main_v28, main_v29]
theorem hostOps0_2_wsub : (hostOps0_2 : List (HloOp τ sig (Elt F))).Forall fun op => op.writes ⊆ (hostOps0_2_W.map (Proc.devRef (τ := τ) .tc)).toFinset :=
  ⟨wsub_single (y := main_c) (by decide), wsub_single (y := main_v15) (by decide), wsub_single (y := main_v16) (by decide), wsub_single (y := main_c_3) (by decide), wsub_single (y := main_v17) (by decide), wsub_single (y := main_v18) (by decide), wsub_single (y := main_v19) (by decide), wsub_single (y := main_v20) (by decide), wsub_single (y := main_v21) (by decide), wsub_single (y := main_c_4) (by decide), wsub_single (y := main_v22) (by decide), wsub_single (y := main_v23) (by decide), wsub_single (y := main_c_5) (by decide), wsub_single (y := main_v24) (by decide), wsub_single (y := main_v25) (by decide), wsub_single (y := main_v26) (by decide), wsub_single (y := main_v27) (by decide), wsub_single (y := main_v28) (by decide), wsub_single (y := main_v29) (by decide)⟩

/-- The buffers hostOps1 writes, in order. -/
abbrev hostOps1_W : List (Ref sig .tc) :=
  [main_c_6, main_v31, main_v32, main_c_7, main_v33, main_v34, main_v35, main_v36, main_v37, main_v38, main_v39, main_v40, main_cst_8, main_v41, main_v42, main_v43, main_v44, main_v45, main_v46, main_cst_9, main_v47, main_v48, main_cst_10, main_v49, main_v50, main_c_11]
theorem hostOps1_wsub : (hostOps1 : List (HloOp τ sig (Elt F))).Forall fun op => op.writes ⊆ (hostOps1_W.map (Proc.devRef (τ := τ) .tc)).toFinset :=
  ⟨wsub_single (y := main_c_6) (by decide), wsub_single (y := main_v31) (by decide), wsub_single (y := main_v32) (by decide), wsub_single (y := main_c_7) (by decide), wsub_single (y := main_v33) (by decide), wsub_single (y := main_v34) (by decide), wsub_single (y := main_v35) (by decide), wsub_single (y := main_v36) (by decide), wsub_single (y := main_v37) (by decide), wsub_single (y := main_v38) (by decide), wsub_single (y := main_v39) (by decide), wsub_single (y := main_v40) (by decide), wsub_single (y := main_cst_8) (by decide), wsub_single (y := main_v41) (by decide), wsub_single (y := main_v42) (by decide), wsub_single (y := main_v43) (by decide), wsub_single (y := main_v44) (by decide), wsub_single (y := main_v45) (by decide), wsub_single (y := main_v46) (by decide), wsub_single (y := main_cst_9) (by decide), wsub_single (y := main_v47) (by decide), wsub_single (y := main_v48) (by decide), wsub_single (y := main_cst_10) (by decide), wsub_single (y := main_v49) (by decide), wsub_single (y := main_v50) (by decide), wsub_single (y := main_c_11) (by decide)⟩

/-- The buffers hostOps1_1 writes, in order. -/
abbrev hostOps1_1_W : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v51]
theorem hostOps1_1_wsub : (hostOps1_1 : List (HloOp τ sig (Elt F))).Forall fun op => op.writes ⊆ (hostOps1_1_W.map (Proc.devRef (τ := τ) .tc)).toFinset :=
  ⟨wsub_single (y := main_call1_cst) (by decide), wsub_single (y := main_call1_v0) (by decide), wsub_single (y := main_call1_v1) (by decide), wsub_single (y := main_call1_cst_0) (by decide), wsub_single (y := main_call1_v2) (by decide), wsub_single (y := main_call1_v3) (by decide), wsub_single (y := main_call1_v4) (by decide), wsub_single (y := main_call1_v5) (by decide), wsub_single (y := main_call1_v6) (by decide), wsub_single (y := main_call1_v7) (by decide), wsub_single (y := main_call1_cst_1) (by decide), wsub_single (y := main_call1_v8) (by decide), wsub_single (y := main_call1_cst_2) (by decide), wsub_single (y := main_call1_v9) (by decide), wsub_single (y := main_call1_v10) (by decide), wsub_single (y := main_call1_v11) (by decide), wsub_single (y := main_call1_v12) (by decide), wsub_single (y := main_call1_cst_3) (by decide), wsub_single (y := main_call1_v13) (by decide), wsub_single (y := main_call1_cst_4) (by decide), wsub_single (y := main_call1_call0_v0) (by decide), wsub_single (y := main_call1_call0_v1) (by decide), wsub_single (y := main_v51) (by decide)⟩

/-- The buffers hostOps1_2 writes, in order. -/
abbrev hostOps1_2_W : List (Ref sig .tc) :=
  [main_v52, main_v53]
theorem hostOps1_2_wsub : (hostOps1_2 : List (HloOp τ sig (Elt F))).Forall fun op => op.writes ⊆ (hostOps1_2_W.map (Proc.devRef (τ := τ) .tc)).toFinset :=
  ⟨wsub_single (y := main_v52) (by decide), wsub_single (y := main_v53) (by decide)⟩

/-- The buffers hostOps3 writes, in order. -/
abbrev hostOps3_W : List (Ref sig .tc) :=
  [main_c_12, main_v56, main_v57, main_c_13, main_v58, main_v59, main_v60, main_v61, main_v62, main_v63, main_v64, main_v65, main_cst_14, main_v66, main_v67, main_v68, main_v69, main_v70, main_v71, main_cst_15, main_v72, main_v73, main_cst_16, main_v74, main_v75, main_c_17]
theorem hostOps3_wsub : (hostOps3 : List (HloOp τ sig (Elt F))).Forall fun op => op.writes ⊆ (hostOps3_W.map (Proc.devRef (τ := τ) .tc)).toFinset :=
  ⟨wsub_single (y := main_c_12) (by decide), wsub_single (y := main_v56) (by decide), wsub_single (y := main_v57) (by decide), wsub_single (y := main_c_13) (by decide), wsub_single (y := main_v58) (by decide), wsub_single (y := main_v59) (by decide), wsub_single (y := main_v60) (by decide), wsub_single (y := main_v61) (by decide), wsub_single (y := main_v62) (by decide), wsub_single (y := main_v63) (by decide), wsub_single (y := main_v64) (by decide), wsub_single (y := main_v65) (by decide), wsub_single (y := main_cst_14) (by decide), wsub_single (y := main_v66) (by decide), wsub_single (y := main_v67) (by decide), wsub_single (y := main_v68) (by decide), wsub_single (y := main_v69) (by decide), wsub_single (y := main_v70) (by decide), wsub_single (y := main_v71) (by decide), wsub_single (y := main_cst_15) (by decide), wsub_single (y := main_v72) (by decide), wsub_single (y := main_v73) (by decide), wsub_single (y := main_cst_16) (by decide), wsub_single (y := main_v74) (by decide), wsub_single (y := main_v75) (by decide), wsub_single (y := main_c_17) (by decide)⟩

/-- The buffers hostOps3_1 writes, in order. -/
abbrev hostOps3_1_W : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v76]
theorem hostOps3_1_wsub : (hostOps3_1 : List (HloOp τ sig (Elt F))).Forall fun op => op.writes ⊆ (hostOps3_1_W.map (Proc.devRef (τ := τ) .tc)).toFinset :=
  ⟨wsub_single (y := main_call2_cst) (by decide), wsub_single (y := main_call2_v0) (by decide), wsub_single (y := main_call2_v1) (by decide), wsub_single (y := main_call2_cst_0) (by decide), wsub_single (y := main_call2_v2) (by decide), wsub_single (y := main_call2_v3) (by decide), wsub_single (y := main_call2_v4) (by decide), wsub_single (y := main_call2_v5) (by decide), wsub_single (y := main_call2_v6) (by decide), wsub_single (y := main_call2_v7) (by decide), wsub_single (y := main_call2_cst_1) (by decide), wsub_single (y := main_call2_v8) (by decide), wsub_single (y := main_call2_cst_2) (by decide), wsub_single (y := main_call2_v9) (by decide), wsub_single (y := main_call2_v10) (by decide), wsub_single (y := main_call2_v11) (by decide), wsub_single (y := main_call2_v12) (by decide), wsub_single (y := main_call2_cst_3) (by decide), wsub_single (y := main_call2_v13) (by decide), wsub_single (y := main_call2_cst_4) (by decide), wsub_single (y := main_call2_call0_v0) (by decide), wsub_single (y := main_call2_call0_v1) (by decide), wsub_single (y := main_v76) (by decide)⟩

/-- The buffers hostOps3_2 writes, in order. -/
abbrev hostOps3_2_W : List (Ref sig .tc) :=
  [main_v77, main_v78]
theorem hostOps3_2_wsub : (hostOps3_2 : List (HloOp τ sig (Elt F))).Forall fun op => op.writes ⊆ (hostOps3_2_W.map (Proc.devRef (τ := τ) .tc)).toFinset :=
  ⟨wsub_single (y := main_v77) (by decide), wsub_single (y := main_v78) (by decide)⟩

/-- The buffers hostOps5 writes, in order. -/
abbrev hostOps5_W : List (Ref sig .tc) :=
  [main_c_18, main_v81, main_v82, main_c_19, main_v83, main_v84, main_v85, main_v86, main_v87, main_v88, main_v89, main_v90, main_cst_20, main_v91, main_v92, main_v93, main_v94, main_v95, main_v96]
theorem hostOps5_wsub : (hostOps5 : List (HloOp τ sig (Elt F))).Forall fun op => op.writes ⊆ (hostOps5_W.map (Proc.devRef (τ := τ) .tc)).toFinset :=
  ⟨wsub_single (y := main_c_18) (by decide), wsub_single (y := main_v81) (by decide), wsub_single (y := main_v82) (by decide), wsub_single (y := main_c_19) (by decide), wsub_single (y := main_v83) (by decide), wsub_single (y := main_v84) (by decide), wsub_single (y := main_v85) (by decide), wsub_single (y := main_v86) (by decide), wsub_single (y := main_v87) (by decide), wsub_single (y := main_v88) (by decide), wsub_single (y := main_v89) (by decide), wsub_single (y := main_v90) (by decide), wsub_single (y := main_cst_20) (by decide), wsub_single (y := main_v91) (by decide), wsub_single (y := main_v92) (by decide), wsub_single (y := main_v93) (by decide), wsub_single (y := main_v94) (by decide), wsub_single (y := main_v95) (by decide), wsub_single (y := main_v96) (by decide)⟩

/-- The buffers hostOps1.take 19 writes, in order. -/
abbrev hostOps1_take_W : List (Ref sig .tc) :=
  [main_c_6, main_v31, main_v32, main_c_7, main_v33, main_v34, main_v35, main_v36, main_v37, main_v38, main_v39, main_v40, main_cst_8, main_v41, main_v42, main_v43, main_v44, main_v45, main_v46]
theorem hostOps1_take_wsub : (hostOps1.take 19 : List (HloOp τ sig (Elt F))).Forall fun op => op.writes ⊆ (hostOps1_take_W.map (Proc.devRef (τ := τ) .tc)).toFinset := by
  simp only [hostOps1, List.take_succ_cons, List.take_zero]
  exact ⟨wsub_single (y := main_c_6) (by decide), wsub_single (y := main_v31) (by decide), wsub_single (y := main_v32) (by decide), wsub_single (y := main_c_7) (by decide), wsub_single (y := main_v33) (by decide), wsub_single (y := main_v34) (by decide), wsub_single (y := main_v35) (by decide), wsub_single (y := main_v36) (by decide), wsub_single (y := main_v37) (by decide), wsub_single (y := main_v38) (by decide), wsub_single (y := main_v39) (by decide), wsub_single (y := main_v40) (by decide), wsub_single (y := main_cst_8) (by decide), wsub_single (y := main_v41) (by decide), wsub_single (y := main_v42) (by decide), wsub_single (y := main_v43) (by decide), wsub_single (y := main_v44) (by decide), wsub_single (y := main_v45) (by decide), wsub_single (y := main_v46) (by decide)⟩

/-- The buffers hostOps1.drop 19 writes, in order. -/
abbrev hostOps1_drop_W : List (Ref sig .tc) :=
  [main_cst_9, main_v47, main_v48, main_cst_10, main_v49, main_v50, main_c_11]
theorem hostOps1_drop_wsub : (hostOps1.drop 19 : List (HloOp τ sig (Elt F))).Forall fun op => op.writes ⊆ (hostOps1_drop_W.map (Proc.devRef (τ := τ) .tc)).toFinset := by
  simp only [hostOps1, List.drop_succ_cons, List.drop_zero]
  exact ⟨wsub_single (y := main_cst_9) (by decide), wsub_single (y := main_v47) (by decide), wsub_single (y := main_v48) (by decide), wsub_single (y := main_cst_10) (by decide), wsub_single (y := main_v49) (by decide), wsub_single (y := main_v50) (by decide), wsub_single (y := main_c_11) (by decide)⟩

/-- The buffers hostOps3.take 19 writes, in order. -/
abbrev hostOps3_take_W : List (Ref sig .tc) :=
  [main_c_12, main_v56, main_v57, main_c_13, main_v58, main_v59, main_v60, main_v61, main_v62, main_v63, main_v64, main_v65, main_cst_14, main_v66, main_v67, main_v68, main_v69, main_v70, main_v71]
theorem hostOps3_take_wsub : (hostOps3.take 19 : List (HloOp τ sig (Elt F))).Forall fun op => op.writes ⊆ (hostOps3_take_W.map (Proc.devRef (τ := τ) .tc)).toFinset := by
  simp only [hostOps3, List.take_succ_cons, List.take_zero]
  exact ⟨wsub_single (y := main_c_12) (by decide), wsub_single (y := main_v56) (by decide), wsub_single (y := main_v57) (by decide), wsub_single (y := main_c_13) (by decide), wsub_single (y := main_v58) (by decide), wsub_single (y := main_v59) (by decide), wsub_single (y := main_v60) (by decide), wsub_single (y := main_v61) (by decide), wsub_single (y := main_v62) (by decide), wsub_single (y := main_v63) (by decide), wsub_single (y := main_v64) (by decide), wsub_single (y := main_v65) (by decide), wsub_single (y := main_cst_14) (by decide), wsub_single (y := main_v66) (by decide), wsub_single (y := main_v67) (by decide), wsub_single (y := main_v68) (by decide), wsub_single (y := main_v69) (by decide), wsub_single (y := main_v70) (by decide), wsub_single (y := main_v71) (by decide)⟩

/-- The buffers hostOps3.drop 19 writes, in order. -/
abbrev hostOps3_drop_W : List (Ref sig .tc) :=
  [main_cst_15, main_v72, main_v73, main_cst_16, main_v74, main_v75, main_c_17]
theorem hostOps3_drop_wsub : (hostOps3.drop 19 : List (HloOp τ sig (Elt F))).Forall fun op => op.writes ⊆ (hostOps3_drop_W.map (Proc.devRef (τ := τ) .tc)).toFinset := by
  simp only [hostOps3, List.drop_succ_cons, List.drop_zero]
  exact ⟨wsub_single (y := main_cst_15) (by decide), wsub_single (y := main_v72) (by decide), wsub_single (y := main_v73) (by decide), wsub_single (y := main_cst_16) (by decide), wsub_single (y := main_v74) (by decide), wsub_single (y := main_v75) (by decide), wsub_single (y := main_c_17) (by decide)⟩

end Cert.KernelIdeal.Hand

end
-- ==== Proof.MmValue0.lean ====
import proofs.«121903_j7567732376250_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- On its row axis the left operand is read at the output's row. -/
theorem lhs0_ax0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On its column axis the left operand is read at the summation position. -/
theorem lhs0_ax1 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u

/-- On its row axis the right operand is read at the summation position. -/
theorem rhs0_ax0 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u

/-- On its column axis the right operand is read at the output's column. -/
theorem rhs0_ax1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A row block's product at an entry (p, q): the sum over k of the left block at (p, k) times the right operand at
    (k, q); the accumulator is zero and the narrowing of the operands is the identity on extended reals. -/
theorem pay0_apply (x0 : Vec Ideal S5000x128 .f32) (x1 : Vec Ideal S128x128 .f32) (p : Fin 5000) (q : Fin 128) :
    k0_pay1 (F := Ideal) x0 x1 (ix2 p q) = ∑ k : Fin 128, (x0 : S5000x128.Idx → EReal) (ix2 p k) * (x1 : S128x128.Idx → EReal) (ix2 k q) := by
  unfold k0_pay1
  show FloatOps.matmul dot_S5000x128_S128x128_S5000x128_1_0_0_1_n_n none _ _ (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs0_ax0 _ _
      | ⟨1, _⟩ => exact (lhs0_ax1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs0_ax0 _ _).trans hk
      | ⟨1, _⟩ => exact rhs0_ax1 _ _)
  rw [el, er]
  rfl

variable (V : (c : Dev nD) → (b : Ref sig .tc) → Buf (Elt Ideal) ((c : Thread nD τ).loc b))

theorem hz_mm0 : (![0, 0] : Fin 2 → Nat) = fun _ => 0 := funext fun a => by fin_cases a <;> rfl

/-- The product of a 50000-row left array by the whole right array, entry by entry: at (r, q) the sum over k of
    A (r, k) · B (k, q). -/
abbrev mmG0 (A : S50000x128.Idx → EReal) (B : S128x128.Idx → EReal) : S50000x128.Idx → EReal :=
  fun i => ∑ k : Fin 128, A (ix2 (i 0) k) * B (ix2 k (i 1))

/-- Over the ten points: the left operand's row block is the output's, its column block is 0; the right operand's
    block is (0, 0) at every point; the output's row block is the point's number and its column block is 0. -/
theorem idx_facts_mm0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is row block t of the product: entry (p, q) of the block is row 5000·t + p of the left
    array against column q of the right array. -/
theorem flushed_mm0 (c : Dev nD) (t : Fin cfg0.N) :
    (dat0 (F := Ideal) V c).flushed 2 t = ((cfg0.win 2).blk t).view.read (Elt Ideal) (mmG0 (V c main_arg0) (V c main_arg2)) := by
  show (cfg0.win 2).cut (grid0.coords t) ((dat0 V c).after 2 t) = _
  rw [after0_2]
  unfold out0_2
  rw [View.canon_unit_zero hz_mm0]
  simp only [View.ld_unit_zero (S := S5000x128) hz_mm0, View.ld_unit_zero (S := S128x128) hz_mm0]
  obtain ⟨e0, e1, e2, e3, e4, e5⟩ := idx_facts_mm0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = mmG0 (V c main_arg0) (V c main_arg2) (((cfg0.win 2).blk t).view.emb (ix2 p q))
  refine (pay0_apply _ _ p q).trans ?_
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have key : ∀ (a a' b b' : EReal), a = a' → b = b' → a * b = a' * b' := fun _ _ _ _ h h' => by rw [h, h']
  exact key _ _ _ _ (congrArg (V c main_arg0) h0) (congrArg (V c main_arg2) h1)

/-- An index of the output array is in point t's block iff each coordinate is in the block's range on its axis. -/
theorem mem_blk_mm0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry is covered: row r lies in the block of point r / 5000. -/
theorem cover_mm0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := idx_facts_mm0 t
  have e4' : win0_2.index t (0 : Fin 2) = (i 0).val / 5000 := e4
  refine ⟨t, flush0_2 t, ?_⟩
  rw [mem_blk_mm0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the ten points is the product, entry by entry. -/
theorem mm0_eq (c : Dev nD) : (dat0 (F := Ideal) V c).arrAt 2 cfg0.N = mmG0 (V c main_arg0) (V c main_arg2) :=
  (dat0 V c).arrAt_eq_of_cover 2 (mmG0 (V c main_arg0) (V c main_arg2)) (fun t _ => flushed_mm0 V c t) cover_mm0

/-- At (r, q): the sum over k of the left array at (r, k) times the right array at (k, q), in the extended reals. -/
theorem mm0_apply (c : Dev nD) (r : Fin 50000) (q : Fin 128) :
    (dat0 (F := Ideal) V c).arrAt 2 cfg0.N (ix2 r q)
      = ∑ k : Fin 128, HMul.hMul (α := EReal) (β := EReal) (γ := EReal) (V c main_arg0 (ix2 r k)) (V c main_arg2 (ix2 k q)) := by
  rw [mm0_eq]

end Cert.KernelIdeal.Hand

end
-- ==== Proof.MmValue2.lean ====
import proofs.«121903_j7567732376250_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- On its row axis the left operand is read at the output's row. -/
theorem lhs2_ax0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On its column axis the left operand is read at the summation position. -/
theorem lhs2_ax1 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u

/-- On its row axis the right operand is read at the summation position. -/
theorem rhs2_ax0 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u

/-- On its column axis the right operand is read at the output's column. -/
theorem rhs2_ax1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A row block's product at an entry (p, q): the sum over k of the left block at (p, k) times the right operand at
    (k, q); the accumulator is zero, the reshaping of the left block to its own shape and the narrowing of the
    operands are the identity on extended reals. -/
theorem pay2_apply (x0 : Vec Ideal S5000x128 .f32) (x1 : Vec Ideal S128x128 .f32) (p : Fin 5000) (q : Fin 128) :
    k2_pay1 (F := Ideal) x0 x1 (ix2 p q) = ∑ k : Fin 128, (x0 : S5000x128.Idx → EReal) (ix2 p k) * (x1 : S128x128.Idx → EReal) (ix2 k q) := by
  unfold k2_pay1
  show FloatOps.matmul dot_S5000x128_S128x128_S5000x128_1_0_0_1_n_n none _ _ (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs2_ax0 _ _
      | ⟨1, _⟩ => exact (lhs2_ax1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs2_ax0 _ _).trans hk
      | ⟨1, _⟩ => exact rhs2_ax1 _ _)
  rw [el, er, shapeCast_self]
  rfl

variable (V : (c : Dev nD) → (b : Ref sig .tc) → Buf (Elt Ideal) ((c : Thread nD τ).loc b))

theorem hz_mm2 : (![0, 0] : Fin 2 → Nat) = fun _ => 0 := funext fun a => by fin_cases a <;> rfl

/-- The product of a 50000-row left array by the whole right array, entry by entry: at (r, q) the sum over k of
    A (r, k) · B (k, q). -/
abbrev mmG2 (A : S50000x128.Idx → EReal) (B : S128x128.Idx → EReal) : S50000x128.Idx → EReal :=
  fun i => ∑ k : Fin 128, A (ix2 (i 0) k) * B (ix2 k (i 1))

/-- Over the ten points: the left operand's row block is the output's, its column block is 0; the right operand's
    block is (0, 0) at every point; the output's row block is the point's number and its column block is 0. -/
theorem idx_facts_mm2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is row block t of the product: entry (p, q) of the block is row 5000·t + p of the left
    array against column q of the right array. -/
theorem flushed_mm2 (c : Dev nD) (t : Fin cfg2.N) :
    (dat2 (F := Ideal) V c).flushed 2 t = ((cfg2.win 2).blk t).view.read (Elt Ideal) (mmG2 (V c main_v54) (V c main_arg6)) := by
  show (cfg2.win 2).cut (grid2.coords t) ((dat2 V c).after 2 t) = _
  rw [after2_2]
  unfold out2_2
  rw [View.canon_unit_zero hz_mm2]
  simp only [View.ld_unit_zero (S := S5000x128) hz_mm2, View.ld_unit_zero (S := S128x128) hz_mm2]
  obtain ⟨e0, e1, e2, e3, e4, e5⟩ := idx_facts_mm2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q) = mmG2 (V c main_v54) (V c main_arg6) (((cfg2.win 2).blk t).view.emb (ix2 p q))
  refine (pay2_apply _ _ p q).trans ?_
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  have key : ∀ (a a' b b' : EReal), a = a' → b = b' → a * b = a' * b' := fun _ _ _ _ h h' => by rw [h, h']
  exact key _ _ _ _ (congrArg (V c main_v54) h0) (congrArg (V c main_arg6) h1)

/-- An index of the output array is in point t's block iff each coordinate is in the block's range on its axis. -/
theorem mem_blk_mm2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v55).slice (win2_2.rect t)).set ↔ _
  rw [View.set_slice_whole, Rect.mem_set_unit]
  exact Iff.rfl

/-- Every entry is covered: row r lies in the block of point r / 5000. -/
theorem cover_mm2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5⟩ := idx_facts_mm2 t
  have e4' : win2_2.index t (0 : Fin 2) = (i 0).val / 5000 := e4
  refine ⟨t, flush2_2 t, ?_⟩
  rw [mem_blk_mm2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the ten points is the product, entry by entry. -/
theorem mm2_eq (c : Dev nD) : (dat2 (F := Ideal) V c).arrAt 2 cfg2.N = mmG2 (V c main_v54) (V c main_arg6) :=
  (dat2 V c).arrAt_eq_of_cover 2 (mmG2 (V c main_v54) (V c main_arg6)) (fun t _ => flushed_mm2 V c t) cover_mm2

/-- At (r, q): the sum over k of the left array at (r, k) times the right array at (k, q), in the extended reals. -/
theorem mm2_apply (c : Dev nD) (r : Fin 50000) (q : Fin 128) :
    (dat2 (F := Ideal) V c).arrAt 2 cfg2.N (ix2 r q)
      = ∑ k : Fin 128, HMul.hMul (α := EReal) (β := EReal) (γ := EReal) (V c main_v54 (ix2 r k)) (V c main_arg6 (ix2 k q)) := by
  rw [mm2_eq]

end Cert.KernelIdeal.Hand

end
-- ==== Proof.MmValue4.lean ====
import proofs.«121903_j7567732376250_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- On its row axis the left operand is read at the output's row. -/
theorem lhs4_ax0 (i : S5000x40.Idx) (u : dot_S5000x128_S128x40_S5000x40_1_0_0_1_n_n.contr.Idx) :
    (dot_S5000x128_S128x40_S5000x40_1_0_0_1_n_n.lhsIdx i u 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

/-- On its column axis the left operand is read at the summation position. -/
theorem lhs4_ax1 (i : S5000x40.Idx) (u : dot_S5000x128_S128x40_S5000x40_1_0_0_1_n_n.contr.Idx) :
    (dot_S5000x128_S128x40_S5000x40_1_0_0_1_n_n.lhsIdx i u 1).val = (u ⟨0, by decide⟩).val :=
  dot_S5000x128_S128x40_S5000x40_1_0_0_1_n_n.lhsIdx_val_of_single rfl i u

/-- On its row axis the right operand is read at the summation position. -/
theorem rhs4_ax0 (i : S5000x40.Idx) (u : dot_S5000x128_S128x40_S5000x40_1_0_0_1_n_n.contr.Idx) :
    (dot_S5000x128_S128x40_S5000x40_1_0_0_1_n_n.rhsIdx i u 0).val = (u ⟨0, by decide⟩).val :=
  dot_S5000x128_S128x40_S5000x40_1_0_0_1_n_n.rhsIdx_val_of_single rfl i u

/-- On its column axis the right operand is read at the output's column. -/
theorem rhs4_ax1 (i : S5000x40.Idx) (u : dot_S5000x128_S128x40_S5000x40_1_0_0_1_n_n.contr.Idx) :
    (dot_S5000x128_S128x40_S5000x40_1_0_0_1_n_n.rhsIdx i u 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- A row block's product at an entry (p, q): the sum over k of the left block at (p, k) times the right operand at
    (k, q); the accumulator is zero, the reshaping of the left block to its own shape and the narrowing of the
    operands are the identity on extended reals. -/
theorem pay4_apply (x0 : Vec Ideal S5000x128 .f32) (x1 : Vec Ideal S128x40 .f32) (p : Fin 5000) (q : Fin 40) :
    k4_pay1 (F := Ideal) x0 x1 (ix2 p q) = ∑ k : Fin 128, (x0 : S5000x128.Idx → EReal) (ix2 p k) * (x1 : S128x40.Idx → EReal) (ix2 k q) := by
  unfold k4_pay1
  show FloatOps.matmul dot_S5000x128_S128x40_S5000x40_1_0_0_1_n_n none _ _ (constant S5000x40 .f32 0x00000000#32) (ix2 p q) = _
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k :=
    funext fun a => Fin.ext (by
      match a with
      | ⟨0, _⟩ => exact lhs4_ax0 _ _
      | ⟨1, _⟩ => exact (lhs4_ax1 _ _).trans hk)
  have er : dot_S5000x128_S128x40_S5000x40_1_0_0_1_n_n.rhsIdx (ix2 p q) ((contrEquiv1 dot_S5000x128_S128x40_S5000x40_1_0_0_1_n_n 128 rfl rfl).symm k) = ix2 k q :=
    funext fun a => Fin.ext (by
      match a with
      | ⟨0, _⟩ => exact (rhs4_ax0 _ _).trans hk
      | ⟨1, _⟩ => exact rhs4_ax1 _ _)
  rw [el, er, shapeCast_self]
  rfl

variable (V : (c : Dev nD) → (b : Ref sig .tc) → Buf (Elt Ideal) ((c : Thread nD τ).loc b))

theorem hz_mm4 : (![0, 0] : Fin 2 → Nat) = fun _ => 0 := funext fun a => by fin_cases a <;> rfl

/-- The product of a 50000-row left array by the whole right array, entry by entry: at (r, q) the sum over k of
    A (r, k) · B (k, q). -/
abbrev mmG4 (A : S50000x128.Idx → EReal) (B : S128x40.Idx → EReal) : S50000x40.Idx → EReal :=
  fun i => ∑ k : Fin 128, A (ix2 (i 0) k) * B (ix2 k (i 1))

/-- Over the ten points: the left operand's row block is the output's, its column block is 0; the right operand's
    block is (0, 0) at every point; the output's row block is the point's number and its column block is 0. -/
theorem idx_facts_mm4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is row block t of the product: entry (p, q) of the block is row 5000·t + p of the left
    array against column q of the right array. -/
theorem flushed_mm4 (c : Dev nD) (t : Fin cfg4.N) :
    (dat4 (F := Ideal) V c).flushed 2 t = ((cfg4.win 2).blk t).view.read (Elt Ideal) (mmG4 (V c main_v79) (V c main_arg10)) := by
  show (cfg4.win 2).cut (grid4.coords t) ((dat4 V c).after 2 t) = _
  rw [after4_2]
  unfold out4_2
  rw [View.canon_unit_zero hz_mm4]
  simp only [View.ld_unit_zero (S := S5000x128) hz_mm4, View.ld_unit_zero (S := S128x40) hz_mm4, View.ld_unit_zero (S := S5000x40) hz_mm4]
  obtain ⟨e0, e1, e2, e3, e4, e5⟩ := idx_facts_mm4 t
  funext j
  obtain ⟨p, q, rfl⟩ : ∃ (p : Fin 5000) (q : Fin 40), j = ix2 p q := ⟨j 0, j 1, eq_ix2 j⟩
  show k4_pay1 (F := Ideal) (iblk4 V c 0 t) (iblk4 V c 1 t) (ix2 p q) = mmG4 (V c main_v79) (V c main_arg10) (((cfg4.win 2).blk t).view.emb (ix2 p q))
  refine (pay4_apply _ _ p q).trans ?_
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 40 + 1 * q.val = win4_2.index t (1 : Fin 2) * 40 + 1 * q.val; omega
  have key : ∀ (a a' b b' : EReal), a = a' → b = b' → a * b = a' * b' := fun _ _ _ _ h h' => by rw [h, h']
  exact key _ _ _ _ (congrArg (V c main_v79) h0) (congrArg (V c main_arg10) h1)

/-- An index of the output array is in point t's block iff each coordinate is in the block's range on its axis. -/
theorem mem_blk_mm4 (t : Fin cfg4.N) (i : S50000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v80).slice (win4_2.rect t)).set ↔ _
  rw [View.set_slice_whole, Rect.mem_set_unit]
  exact Iff.rfl

/-- Every entry is covered: row r lies in the block of point r / 5000. -/
theorem cover_mm4 (i : S50000x40.Idx) : ∃ t : Fin cfg4.N, (cfg4.win 2).flush t = true ∧ i ∈ ((cfg4.win 2).blk t).view.set := by
  have hi0 : (i 0).val < 50000 := (i 0).isLt
  have hi1 : (i 1).val < 40 := (i 1).isLt
  have hN : cfg4.N = 10 := N_4
  let t : Fin cfg4.N := ⟨(i 0).val / 5000, by rw [hN]; omega⟩
  obtain ⟨e0, e1, e2, e3, e4, e5⟩ := idx_facts_mm4 t
  have e4' : win4_2.index t (0 : Fin 2) = (i 0).val / 5000 := e4
  refine ⟨t, flush4_2 t, ?_⟩
  rw [mem_blk_mm4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 40 ≤ (i 1).val ∧ (i 1).val < win4_2.index t (1 : Fin 2) * 40 + 40; omega

/-- The output array after the ten points is the product, entry by entry. -/
theorem mm4_eq (c : Dev nD) : (dat4 (F := Ideal) V c).arrAt 2 cfg4.N = mmG4 (V c main_v79) (V c main_arg10) :=
  (dat4 V c).arrAt_eq_of_cover 2 (mmG4 (V c main_v79) (V c main_arg10)) (fun t _ => flushed_mm4 V c t) cover_mm4

/-- At (r, q): the sum over k of the left array at (r, k) times the right array at (k, q), in the extended reals. -/
theorem mm4_apply (c : Dev nD) (r : Fin 50000) (q : Fin 40) :
    (dat4 (F := Ideal) V c).arrAt 2 cfg4.N (ix2 r q)
      = ∑ k : Fin 128, HMul.hMul (α := EReal) (β := EReal) (γ := EReal) (V c main_v79 (ix2 r k)) (V c main_arg10 (ix2 k q)) := by
  rw [mm4_eq]

end Cert.KernelIdeal.Hand

end
-- ==== Proof.RefDot.lean ====
import proofs.«121903_j7567732376250_1_alg».proof.Proof.Gen.ReferenceIdeal
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.SL.Sem Idealize.ShloMosaic.ValueIdx

/-- On its row axis the left operand is read at the output's row. -/
theorem lhs128_ax0 (i : S50000x128.Idx) (u : dot_S50000x128_S128x128_S50000x128_1_0_0_1_n_n.contr.Idx) :
    (dot_S50000x128_S128x128_S50000x128_1_0_0_1_n_n.lhsIdx i u 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

/-- On its column axis the left operand is read at the summation position. -/
theorem lhs128_ax1 (i : S50000x128.Idx) (u : dot_S50000x128_S128x128_S50000x128_1_0_0_1_n_n.contr.Idx) :
    (dot_S50000x128_S128x128_S50000x128_1_0_0_1_n_n.lhsIdx i u 1).val = (u ⟨0, by decide⟩).val :=
  dot_S50000x128_S128x128_S50000x128_1_0_0_1_n_n.lhsIdx_val_of_single rfl i u

/-- On its row axis the right operand is read at the summation position. -/
theorem rhs128_ax0 (i : S50000x128.Idx) (u : dot_S50000x128_S128x128_S50000x128_1_0_0_1_n_n.contr.Idx) :
    (dot_S50000x128_S128x128_S50000x128_1_0_0_1_n_n.rhsIdx i u 0).val = (u ⟨0, by decide⟩).val :=
  dot_S50000x128_S128x128_S50000x128_1_0_0_1_n_n.rhsIdx_val_of_single rfl i u

/-- On its column axis the right operand is read at the output's column. -/
theorem rhs128_ax1 (i : S50000x128.Idx) (u : dot_S50000x128_S128x128_S50000x128_1_0_0_1_n_n.contr.Idx) :
    (dot_S50000x128_S128x128_S50000x128_1_0_0_1_n_n.rhsIdx i u 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product of a 50000×128 array by a 128×128 array at (r, q): the sum over k of x (r, k) · w (k, q). -/
theorem refdot128_apply (x : FVec Ideal S50000x128 .f32) (w : FVec Ideal S128x128 .f32) (r : Fin 50000) (q : Fin 128) :
    Host.dotGeneral (F := Ideal) dot_S50000x128_S128x128_S50000x128_1_0_0_1_n_n none x w (ix2 r q) = ∑ k : Fin 128, x (ix2 r k) * w (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k :=
    funext fun a => Fin.ext (by
      match a with
      | ⟨0, _⟩ => exact lhs128_ax0 _ _
      | ⟨1, _⟩ => exact (lhs128_ax1 _ _).trans hk)
  have er : dot_S50000x128_S128x128_S50000x128_1_0_0_1_n_n.rhsIdx (ix2 r q) ((contrEquiv1 dot_S50000x128_S128x128_S50000x128_1_0_0_1_n_n 128 rfl rfl).symm k) = ix2 k q :=
    funext fun a => Fin.ext (by
      match a with
      | ⟨0, _⟩ => exact (rhs128_ax0 _ _).trans hk
      | ⟨1, _⟩ => exact rhs128_ax1 _ _)
  rw [el, er]

/-- On its row axis the left operand is read at the output's row. -/
theorem lhs40_ax0 (i : S50000x40.Idx) (u : dot_S50000x128_S128x40_S50000x40_1_0_0_1_n_n.contr.Idx) :
    (dot_S50000x128_S128x40_S50000x40_1_0_0_1_n_n.lhsIdx i u 0).val = (i 0).val := by
  unfold DotDims.lhsIdx
  rw [dif_neg (show ¬(0 : Fin S50000x128.rank) ∈ dot_S50000x128_S128x40_S50000x40_1_0_0_1_n_n.lhsBatch by decide),
    dif_pos (show (0 : Fin S50000x128.rank) ∈ dot_S50000x128_S128x40_S50000x40_1_0_0_1_n_n.lhsNonContracting by decide)]
  rfl

/-- On its column axis the left operand is read at the summation position. -/
theorem lhs40_ax1 (i : S50000x40.Idx) (u : dot_S50000x128_S128x40_S50000x40_1_0_0_1_n_n.contr.Idx) :
    (dot_S50000x128_S128x40_S50000x40_1_0_0_1_n_n.lhsIdx i u 1).val = (u ⟨0, by decide⟩).val :=
  dot_S50000x128_S128x40_S50000x40_1_0_0_1_n_n.lhsIdx_val_of_single rfl i u

/-- On its row axis the right operand is read at the summation position. -/
theorem rhs40_ax0 (i : S50000x40.Idx) (u : dot_S50000x128_S128x40_S50000x40_1_0_0_1_n_n.contr.Idx) :
    (dot_S50000x128_S128x40_S50000x40_1_0_0_1_n_n.rhsIdx i u 0).val = (u ⟨0, by decide⟩).val :=
  dot_S50000x128_S128x40_S50000x40_1_0_0_1_n_n.rhsIdx_val_of_single rfl i u

/-- On its column axis the right operand is read at the output's column. -/
theorem rhs40_ax1 (i : S50000x40.Idx) (u : dot_S50000x128_S128x40_S50000x40_1_0_0_1_n_n.contr.Idx) :
    (dot_S50000x128_S128x40_S50000x40_1_0_0_1_n_n.rhsIdx i u 1).val = (i 1).val := by
  unfold DotDims.rhsIdx
  rw [dif_neg (show ¬(1 : Fin S128x40.rank) ∈ dot_S50000x128_S128x40_S50000x40_1_0_0_1_n_n.rhsBatch by decide),
    dif_pos (show (1 : Fin S128x40.rank) ∈ dot_S50000x128_S128x40_S50000x40_1_0_0_1_n_n.rhsNonContracting by decide)]
  rfl

/-- The product of a 50000×128 array by a 128×40 array at (r, q): the sum over k of x (r, k) · w (k, q). -/
theorem refdot40_apply (x : FVec Ideal S50000x128 .f32) (w : FVec Ideal S128x40 .f32) (r : Fin 50000) (q : Fin 40) :
    Host.dotGeneral (F := Ideal) dot_S50000x128_S128x40_S50000x40_1_0_0_1_n_n none x w (ix2 r q) = ∑ k : Fin 128, x (ix2 r k) * w (ix2 k q) := by
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 r q) ((contrEquiv1 dot_S50000x128_S128x40_S50000x40_1_0_0_1_n_n 128 rfl rfl).symm k) = ix2 r k :=
    funext fun a => Fin.ext (by
      match a with
      | ⟨0, _⟩ => exact lhs40_ax0 _ _
      | ⟨1, _⟩ => exact (lhs40_ax1 _ _).trans hk)
  have er : dot_S50000x128_S128x40_S50000x40_1_0_0_1_n_n.rhsIdx (ix2 r q) ((contrEquiv1 dot_S50000x128_S128x40_S50000x40_1_0_0_1_n_n 128 rfl rfl).symm k) = ix2 k q :=
    funext fun a => Fin.ext (by
      match a with
      | ⟨0, _⟩ => exact (rhs40_ax0 _ _).trans hk
      | ⟨1, _⟩ => exact rhs40_ax1 _ _)
  rw [el, er]

end Cert.ReferenceIdeal.Hand

end
-- ==== Proof.RefMm.lean ====
import proofs.«121903_j7567732376250_1_alg».proof.Proof.RefRun
import proofs.«121903_j7567732376250_1_alg».proof.Proof.RefDot

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- The product's result buffer at (r, q): the sum over k of the left operand's buffer at (r, k) times the right
    operand's buffer at (k, q), for any contents of the buffers before the operation. -/
theorem refMm0_apply (U : Valuation τ sig (Elt Ideal)) (r : Fin 50000) (q : Fin 128) :
    (after (stMm0 (F := Ideal)) U (Proc.devRef .tc main_v30) : S50000x128.Idx → EReal) (ix2 r q)
      = ∑ k : Fin 128, HMul.hMul (α := EReal) (β := EReal) (γ := EReal) (U (Proc.devRef .tc main_arg0) (ix2 r k)) (U (Proc.devRef .tc main_arg2) (ix2 k q)) := by
  refine Eq.trans ?_ (refdot128_apply _ _ r q)
  after_results

/-- The product's result buffer at (r, q): the sum over k of the left operand's buffer at (r, k) times the right
    operand's buffer at (k, q), for any contents of the buffers before the operation. -/
theorem refMm1_apply (U : Valuation τ sig (Elt Ideal)) (r : Fin 50000) (q : Fin 128) :
    (after (stMm1 (F := Ideal)) U (Proc.devRef .tc main_v67) : S50000x128.Idx → EReal) (ix2 r q)
      = ∑ k : Fin 128, HMul.hMul (α := EReal) (β := EReal) (γ := EReal) (U (Proc.devRef .tc main_v66) (ix2 r k)) (U (Proc.devRef .tc main_arg6) (ix2 k q)) := by
  refine Eq.trans ?_ (refdot128_apply _ _ r q)
  after_results

/-- The product's result buffer at (r, q): the sum over k of the left operand's buffer at (r, k) times the right
    operand's buffer at (k, q), for any contents of the buffers before the operation. -/
theorem refMm2_apply (U : Valuation τ sig (Elt Ideal)) (r : Fin 50000) (q : Fin 40) :
    (after (stMm2 (F := Ideal)) U (Proc.devRef .tc main_v107) : S50000x40.Idx → EReal) (ix2 r q)
      = ∑ k : Fin 128, HMul.hMul (α := EReal) (β := EReal) (γ := EReal) (U (Proc.devRef .tc main_v106) (ix2 r k)) (U (Proc.devRef .tc main_arg10) (ix2 k q)) := by
  refine Eq.trans ?_ (refdot40_apply _ _ r q)
  after_results

end Cert.ReferenceIdeal.Hand

end
-- ==== Proof.BnSpec.lean ====
/-
  The entrywise arithmetic of the two normalisation layers, on the extended reals.
  One entry of a batch-normalised, rectified activation is
    max (γ · (x − μ) · (σ² + ε)^(−1/2) + β, 0),
  and the second layer adds the skip connection's entry, scaled by one, before rectifying.
  Both programs compute exactly these expressions, in this order of operations; ε, one and zero are the
  same binary32 words on both sides, so they are kept as words and never evaluated.
-/
import Idealize.ShloMosaic.PureOps.Ideal

noncomputable section

namespace Cert.Hand

open Idealize.ShloMosaic

/-- One entry of BatchNorm followed by ReLU: `max (g·(x − mu)·rsqrt(var + ε) + be, 0)`. -/
def bnReluAt (pre mu var g be : EReal) : EReal :=
  max (g * (pre - mu) * Ideal.rsqrt (var + Ideal.ofBits .f32 0x3727C5AC#32) + be) (Ideal.ofBits .f32 0x00000000#32)

/-- One entry of BatchNorm, plus one times the skip entry, followed by ReLU. -/
def bnSkipReluAt (pre mu var g be skip : EReal) : EReal :=
  max (g * (pre - mu) * Ideal.rsqrt (var + Ideal.ofBits .f32 0x3727C5AC#32) + be + Ideal.ofBits .f32 0x3F800000#32 * skip)
    (Ideal.ofBits .f32 0x00000000#32)

end Cert.Hand

end
-- ==== Proof.BnValue1.lean ====
/-
  The first batch-normalisation layer read as values.  The grid's point t normalises rows 5000·t … 5000·t + 4999 of the
  50000 × 128 activation: entry (p, q) of its block is
    max (γ_q · (x_pq − μ_q) · (σ²_q + ε)^(−1/2) + β_q, 0),
  the four row vectors being read whole at every point.  The ten blocks tile the rows, so the output array holds that
  expression at every entry (r, q).
-/
import proofs.«121903_j7567732376250_1_alg».proof.Proof.Gen.KernelIdeal.Frame
import proofs.«121903_j7567732376250_1_alg».proof.Proof.BnSpec
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx Cert.Hand
open Idealize.ShloMosaic.Pipeline (Dat)

/-- One entry of the first normalisation's block: the row vectors are read at the entry's column. -/
theorem bn1_pay_apply (x : Vec Ideal S5000x128 .f32) (v g mu be : Vec Ideal S1x128 .f32) (p : Fin 5000) (q : Fin 128) :
    k1_pay1 (F := Ideal) x v g mu be (ix2 p q)
      = bnReluAt (x (ix2 p q)) (mu (ix2 0 q)) (v (ix2 0 q)) (g (ix2 0 q)) (be (ix2 0 q)) := by
  unfold k1_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

theorem bn1_zero_offsets : (![0, 0] : Fin 2 → Nat) = fun _ => 0 := funext fun a => by fin_cases a <;> rfl

/-- The block index maps over the grid: the activation's block moves with the output's, point `t` holds row block `t`,
    and the four row vectors stay at their one block. -/
theorem bn1_idx_facts : ∀ t : Fin cfg1.N, win1_0.index t (0 : Fin 2) = win1_5.index t (0 : Fin 2)
    ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The activation's block at point `t` sits where the output's does. -/
theorem bn1_emb_pre (t : Fin cfg1.N) (p : Fin 5000) (q : Fin 128) :
    ((cfg1.win 0).blk t).view.emb (ix2 p q) = ((cfg1.win 5).blk t).view.emb (ix2 p q) := by
  obtain ⟨e0, e1, m0, m1, v0, v1, g0, g1, b0, b1, o0, o1⟩ := bn1_idx_facts t
  funext a; apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 128 + 1 * q.val = win1_5.index t (1 : Fin 2) * 128 + 1 * q.val; omega

/-! Each row vector's one block, at column `q`, is the vector's entry at the output entry's column. -/

theorem bn1_emb_row1 (t : Fin cfg1.N) (p : Fin 5000) (q : Fin 128) :
    ((cfg1.win 1).blk t).view.emb (ix2 0 q) = ix2 0 ((((cfg1.win 5).blk t).view.emb (ix2 p q)) 1) := by
  obtain ⟨e0, e1, m0, m1, v0, v1, g0, g1, b0, b1, o0, o1⟩ := bn1_idx_facts t
  funext a; apply Fin.ext
  match a with
  | ⟨0, _⟩ => show win1_1.index t (0 : Fin 2) * 1 + 1 * 0 = 0; omega
  | ⟨1, _⟩ => show win1_1.index t (1 : Fin 2) * 128 + 1 * q.val = win1_5.index t (1 : Fin 2) * 128 + 1 * q.val; omega

theorem bn1_emb_row2 (t : Fin cfg1.N) (p : Fin 5000) (q : Fin 128) :
    ((cfg1.win 2).blk t).view.emb (ix2 0 q) = ix2 0 ((((cfg1.win 5).blk t).view.emb (ix2 p q)) 1) := by
  obtain ⟨e0, e1, m0, m1, v0, v1, g0, g1, b0, b1, o0, o1⟩ := bn1_idx_facts t
  funext a; apply Fin.ext
  match a with
  | ⟨0, _⟩ => show win1_2.index t (0 : Fin 2) * 1 + 1 * 0 = 0; omega
  | ⟨1, _⟩ => show win1_2.index t (1 : Fin 2) * 128 + 1 * q.val = win1_5.index t (1 : Fin 2) * 128 + 1 * q.val; omega

theorem bn1_emb_row3 (t : Fin cfg1.N) (p : Fin 5000) (q : Fin 128) :
    ((cfg1.win 3).blk t).view.emb (ix2 0 q) = ix2 0 ((((cfg1.win 5).blk t).view.emb (ix2 p q)) 1) := by
  obtain ⟨e0, e1, m0, m1, v0, v1, g0, g1, b0, b1, o0, o1⟩ := bn1_idx_facts t
  funext a; apply Fin.ext
  match a with
  | ⟨0, _⟩ => show win1_3.index t (0 : Fin 2) * 1 + 1 * 0 = 0; omega
  | ⟨1, _⟩ => show win1_3.index t (1 : Fin 2) * 128 + 1 * q.val = win1_5.index t (1 : Fin 2) * 128 + 1 * q.val; omega

theorem bn1_emb_row4 (t : Fin cfg1.N) (p : Fin 5000) (q : Fin 128) :
    ((cfg1.win 4).blk t).view.emb (ix2 0 q) = ix2 0 ((((cfg1.win 5).blk t).view.emb (ix2 p q)) 1) := by
  obtain ⟨e0, e1, m0, m1, v0, v1, g0, g1, b0, b1, o0, o1⟩ := bn1_idx_facts t
  funext a; apply Fin.ext
  match a with
  | ⟨0, _⟩ => show win1_4.index t (0 : Fin 2) * 1 + 1 * 0 = 0; omega
  | ⟨1, _⟩ => show win1_4.index t (1 : Fin 2) * 128 + 1 * q.val = win1_5.index t (1 : Fin 2) * 128 + 1 * q.val; omega

variable (V : (c : Dev nD) → (b : Ref sig .tc) → Buf (Elt Ideal) ((c : Thread nD τ).loc b))

/-- The first normalisation's output array, entry by entry. -/
abbrev bn1Fun (c : Dev nD) : S50000x128.Idx → EReal := fun i =>
  bnReluAt ((V c main_v46 : S50000x128.Idx → EReal) i) ((V c main_v50 : S1x128.Idx → EReal) (ix2 0 (i 1)))
    ((V c main_v51 : S1x128.Idx → EReal) (ix2 0 (i 1))) ((V c main_v52 : S1x128.Idx → EReal) (ix2 0 (i 1)))
    ((V c main_v53 : S1x128.Idx → EReal) (ix2 0 (i 1)))

/-- What point `t` writes back is block `t` of that array. -/
theorem bn1_flushed_eq (c : Dev nD) (t : Fin cfg1.N) :
    (dat1 (F := Ideal) V c).flushed 5 t = ((cfg1.win 5).blk t).view.read (Elt Ideal) (bn1Fun V c) := by
  show (cfg1.win 5).cut (grid1.coords t) ((dat1 V c).after 5 t) = _
  rw [after1_5]
  unfold out1_5
  rw [View.canon_unit_zero bn1_zero_offsets]
  simp only [View.ld_unit_zero (S := S5000x128) bn1_zero_offsets, View.ld_unit_zero (S := S1x128) bn1_zero_offsets]
  funext j
  obtain ⟨p, q, rfl⟩ : ∃ (p : Fin 5000) (q : Fin 128), j = ix2 p q := ⟨j 0, j 1, eq_ix2 j⟩
  refine (bn1_pay_apply _ _ _ _ _ p q).trans ?_
  show bnReluAt (V c main_v46 (((cfg1.win 0).blk t).view.emb (ix2 p q))) (V c main_v50 (((cfg1.win 1).blk t).view.emb (ix2 0 q)))
      (V c main_v51 (((cfg1.win 2).blk t).view.emb (ix2 0 q))) (V c main_v52 (((cfg1.win 3).blk t).view.emb (ix2 0 q)))
      (V c main_v53 (((cfg1.win 4).blk t).view.emb (ix2 0 q)))
    = bnReluAt (V c main_v46 (((cfg1.win 5).blk t).view.emb (ix2 p q)))
      (V c main_v50 (ix2 0 ((((cfg1.win 5).blk t).view.emb (ix2 p q)) 1)))
      (V c main_v51 (ix2 0 ((((cfg1.win 5).blk t).view.emb (ix2 p q)) 1)))
      (V c main_v52 (ix2 0 ((((cfg1.win 5).blk t).view.emb (ix2 p q)) 1)))
      (V c main_v53 (ix2 0 ((((cfg1.win 5).blk t).view.emb (ix2 p q)) 1)))
  rw [bn1_emb_pre t p q, bn1_emb_row1 t p q, bn1_emb_row2 t p q, bn1_emb_row3 t p q, bn1_emb_row4 t p q]
  rfl

/-- An entry of the array is in point `t`'s block iff each coordinate is in the block's range on its axis. -/
theorem bn1_mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v54).slice (win1_5.rect t)).set ↔ _
  rw [View.set_slice_whole, Rect.mem_set_unit]
  exact Iff.rfl

/-- Every entry is in the block of the point its row block names. -/
theorem bn1_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, o0, o1⟩ := bn1_idx_facts t
  have o0' : win1_5.index t (0 : Fin 2) = (i 0).val / 5000 := o0
  refine ⟨t, flush1_5 t, ?_⟩
  rw [bn1_mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region is that function. -/
theorem bn1_final (c : Dev nD) : (dat1 (F := Ideal) V c).arrAt 5 cfg1.N = bn1Fun V c :=
  (dat1 (F := Ideal) V c).arrAt_eq_of_cover 5 (bn1Fun V c) (fun t _ => bn1_flushed_eq V c t) bn1_cover

/-- The first normalisation's output array at row `r`, column `q`. -/
theorem bn1_apply (c : Dev nD) (r : Fin 50000) (q : Fin 128) :
    (dat1 (F := Ideal) V c).arrAt 5 cfg1.N (ix2 r q)
      = bnReluAt ((V c main_v46 : S50000x128.Idx → EReal) (ix2 r q)) ((V c main_v50 : S1x128.Idx → EReal) (ix2 0 q)) ((V c main_v51 : S1x128.Idx → EReal) (ix2 0 q))
          ((V c main_v52 : S1x128.Idx → EReal) (ix2 0 q)) ((V c main_v53 : S1x128.Idx → EReal) (ix2 0 q)) := by
  rw [bn1_final]

end Cert.KernelIdeal.Hand

end
-- ==== Proof.BnValue3.lean ====
/-
  The second batch-normalisation layer, with its skip connection, read as values.  The grid's point t treats rows
  5000·t … 5000·t + 4999 of the 50000 × 128 activation and of the skip array: entry (p, q) of its block is
    max (γ_q · (x_pq − μ_q) · (σ²_q + ε)^(−1/2) + β_q + 1 · s_pq, 0),
  the four row vectors being read whole at every point.  The ten blocks tile the rows, so the output array holds that
  expression at every entry (r, q).
-/
import proofs.«121903_j7567732376250_1_alg».proof.Proof.Gen.KernelIdeal.Frame
import proofs.«121903_j7567732376250_1_alg».proof.Proof.BnSpec
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx Cert.Hand
open Idealize.ShloMosaic.Pipeline (Dat)

/-- One entry of the second normalisation's block: the row vectors are read at the entry's column, the skip block at the entry. -/
theorem bn3_pay_apply (x : Vec Ideal S5000x128 .f32) (v g mu be : Vec Ideal S1x128 .f32) (s : Vec Ideal S5000x128 .f32) (p : Fin 5000) (q : Fin 128) :
    k3_pay1 (F := Ideal) x v g mu be s (ix2 p q)
      = bnSkipReluAt (x (ix2 p q)) (mu (ix2 0 q)) (v (ix2 0 q)) (g (ix2 0 q)) (be (ix2 0 q)) (s (ix2 p q)) := by
  unfold k3_pay1
  simp only [shapeCast_self]
  rw [maximumf_apply, addf_apply, addf_apply, mulf_apply, mulf_apply, mulf_apply, subf_apply,
    broadcastTo_1b_ab_apply, broadcastTo_1b_ab_apply, broadcastTo_1b_ab_apply, broadcastTo_1b_ab_apply]
  rfl

theorem bn3_zero_offsets : (![0, 0] : Fin 2 → Nat) = fun _ => 0 := funext fun a => by fin_cases a <;> rfl

/-- The block index maps over the grid: the activation's and the skip array's blocks move with the output's, point `t`
    holds row block `t`, and the four row vectors stay at their one block. -/
theorem bn3_idx_facts : ∀ t : Fin cfg3.N, win3_0.index t (0 : Fin 2) = win3_6.index t (0 : Fin 2)
    ∧ win3_0.index t (1 : Fin 2) = win3_6.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = win3_6.index t (0 : Fin 2) ∧ win3_5.index t (1 : Fin 2) = win3_6.index t (1 : Fin 2)
    ∧ win3_6.index t (0 : Fin 2) = t.val ∧ win3_6.index t (1 : Fin 2) = 0 :=
  (by decide +kernel : ∀ t : Fin grid3.N, _)

/-- The activation's block at point `t` sits where the output's does. -/
theorem bn3_emb_pre (t : Fin cfg3.N) (p : Fin 5000) (q : Fin 128) :
    ((cfg3.win 0).blk t).view.emb (ix2 p q) = ((cfg3.win 6).blk t).view.emb (ix2 p q) := by
  obtain ⟨e0, e1, m0, m1, v0, v1, g0, g1, b0, b1, s0, s1, o0, o1⟩ := bn3_idx_facts t
  funext a; apply Fin.ext
  match a with
  | ⟨0, _⟩ => show win3_0.index t (0 : Fin 2) * 5000 + 1 * p.val = win3_6.index t (0 : Fin 2) * 5000 + 1 * p.val; omega
  | ⟨1, _⟩ => show win3_0.index t (1 : Fin 2) * 128 + 1 * q.val = win3_6.index t (1 : Fin 2) * 128 + 1 * q.val; omega

/-- So does the skip array's. -/
theorem bn3_emb_skip (t : Fin cfg3.N) (p : Fin 5000) (q : Fin 128) :
    ((cfg3.win 5).blk t).view.emb (ix2 p q) = ((cfg3.win 6).blk t).view.emb (ix2 p q) := by
  obtain ⟨e0, e1, m0, m1, v0, v1, g0, g1, b0, b1, s0, s1, o0, o1⟩ := bn3_idx_facts t
  funext a; apply Fin.ext
  match a with
  | ⟨0, _⟩ => show win3_5.index t (0 : Fin 2) * 5000 + 1 * p.val = win3_6.index t (0 : Fin 2) * 5000 + 1 * p.val; omega
  | ⟨1, _⟩ => show win3_5.index t (1 : Fin 2) * 128 + 1 * q.val = win3_6.index t (1 : Fin 2) * 128 + 1 * q.val; omega

/-! Each row vector's one block, at column `q`, is the vector's entry at the output entry's column. -/

theorem bn3_emb_row1 (t : Fin cfg3.N) (p : Fin 5000) (q : Fin 128) :
    ((cfg3.win 1).blk t).view.emb (ix2 0 q) = ix2 0 ((((cfg3.win 6).blk t).view.emb (ix2 p q)) 1) := by
  obtain ⟨e0, e1, m0, m1, v0, v1, g0, g1, b0, b1, s0, s1, o0, o1⟩ := bn3_idx_facts t
  funext a; apply Fin.ext
  match a with
  | ⟨0, _⟩ => show win3_1.index t (0 : Fin 2) * 1 + 1 * 0 = 0; omega
  | ⟨1, _⟩ => show win3_1.index t (1 : Fin 2) * 128 + 1 * q.val = win3_6.index t (1 : Fin 2) * 128 + 1 * q.val; omega

theorem bn3_emb_row2 (t : Fin cfg3.N) (p : Fin 5000) (q : Fin 128) :
    ((cfg3.win 2).blk t).view.emb (ix2 0 q) = ix2 0 ((((cfg3.win 6).blk t).view.emb (ix2 p q)) 1) := by
  obtain ⟨e0, e1, m0, m1, v0, v1, g0, g1, b0, b1, s0, s1, o0, o1⟩ := bn3_idx_facts t
  funext a; apply Fin.ext
  match a with
  | ⟨0, _⟩ => show win3_2.index t (0 : Fin 2) * 1 + 1 * 0 = 0; omega
  | ⟨1, _⟩ => show win3_2.index t (1 : Fin 2) * 128 + 1 * q.val = win3_6.index t (1 : Fin 2) * 128 + 1 * q.val; omega

theorem bn3_emb_row3 (t : Fin cfg3.N) (p : Fin 5000) (q : Fin 128) :
    ((cfg3.win 3).blk t).view.emb (ix2 0 q) = ix2 0 ((((cfg3.win 6).blk t).view.emb (ix2 p q)) 1) := by
  obtain ⟨e0, e1, m0, m1, v0, v1, g0, g1, b0, b1, s0, s1, o0, o1⟩ := bn3_idx_facts t
  funext a; apply Fin.ext
  match a with
  | ⟨0, _⟩ => show win3_3.index t (0 : Fin 2) * 1 + 1 * 0 = 0; omega
  | ⟨1, _⟩ => show win3_3.index t (1 : Fin 2) * 128 + 1 * q.val = win3_6.index t (1 : Fin 2) * 128 + 1 * q.val; omega

theorem bn3_emb_row4 (t : Fin cfg3.N) (p : Fin 5000) (q : Fin 128) :
    ((cfg3.win 4).blk t).view.emb (ix2 0 q) = ix2 0 ((((cfg3.win 6).blk t).view.emb (ix2 p q)) 1) := by
  obtain ⟨e0, e1, m0, m1, v0, v1, g0, g1, b0, b1, s0, s1, o0, o1⟩ := bn3_idx_facts t
  funext a; apply Fin.ext
  match a with
  | ⟨0, _⟩ => show win3_4.index t (0 : Fin 2) * 1 + 1 * 0 = 0; omega
  | ⟨1, _⟩ => show win3_4.index t (1 : Fin 2) * 128 + 1 * q.val = win3_6.index t (1 : Fin 2) * 128 + 1 * q.val; omega

variable (V : (c : Dev nD) → (b : Ref sig .tc) → Buf (Elt Ideal) ((c : Thread nD τ).loc b))

/-- The second normalisation's output array, entry by entry. -/
abbrev bn3Fun (c : Dev nD) : S50000x128.Idx → EReal := fun i =>
  bnSkipReluAt ((V c main_v71 : S50000x128.Idx → EReal) i) ((V c main_v75 : S1x128.Idx → EReal) (ix2 0 (i 1)))
    ((V c main_v76 : S1x128.Idx → EReal) (ix2 0 (i 1))) ((V c main_v77 : S1x128.Idx → EReal) (ix2 0 (i 1)))
    ((V c main_v78 : S1x128.Idx → EReal) (ix2 0 (i 1))) ((V c main_v54 : S50000x128.Idx → EReal) i)

/-- What point `t` writes back is block `t` of that array. -/
theorem bn3_flushed_eq (c : Dev nD) (t : Fin cfg3.N) :
    (dat3 (F := Ideal) V c).flushed 6 t = ((cfg3.win 6).blk t).view.read (Elt Ideal) (bn3Fun V c) := by
  show (cfg3.win 6).cut (grid3.coords t) ((dat3 V c).after 6 t) = _
  rw [after3_6]
  unfold out3_6
  rw [View.canon_unit_zero bn3_zero_offsets]
  simp only [View.ld_unit_zero (S := S5000x128) bn3_zero_offsets, View.ld_unit_zero (S := S1x128) bn3_zero_offsets]
  funext j
  obtain ⟨p, q, rfl⟩ : ∃ (p : Fin 5000) (q : Fin 128), j = ix2 p q := ⟨j 0, j 1, eq_ix2 j⟩
  refine (bn3_pay_apply _ _ _ _ _ _ p q).trans ?_
  show bnSkipReluAt (V c main_v71 (((cfg3.win 0).blk t).view.emb (ix2 p q))) (V c main_v75 (((cfg3.win 1).blk t).view.emb (ix2 0 q)))
      (V c main_v76 (((cfg3.win 2).blk t).view.emb (ix2 0 q))) (V c main_v77 (((cfg3.win 3).blk t).view.emb (ix2 0 q)))
      (V c main_v78 (((cfg3.win 4).blk t).view.emb (ix2 0 q))) (V c main_v54 (((cfg3.win 5).blk t).view.emb (ix2 p q)))
    = bnSkipReluAt (V c main_v71 (((cfg3.win 6).blk t).view.emb (ix2 p q)))
      (V c main_v75 (ix2 0 ((((cfg3.win 6).blk t).view.emb (ix2 p q)) 1)))
      (V c main_v76 (ix2 0 ((((cfg3.win 6).blk t).view.emb (ix2 p q)) 1)))
      (V c main_v77 (ix2 0 ((((cfg3.win 6).blk t).view.emb (ix2 p q)) 1)))
      (V c main_v78 (ix2 0 ((((cfg3.win 6).blk t).view.emb (ix2 p q)) 1)))
      (V c main_v54 (((cfg3.win 6).blk t).view.emb (ix2 p q)))
  rw [bn3_emb_pre t p q, bn3_emb_skip t p q, bn3_emb_row1 t p q, bn3_emb_row2 t p q, bn3_emb_row3 t p q, bn3_emb_row4 t p q]
  rfl

/-- An entry of the array is in point `t`'s block iff each coordinate is in the block's range on its axis. -/
theorem bn3_mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v79).slice (win3_6.rect t)).set ↔ _
  rw [View.set_slice_whole, Rect.mem_set_unit]
  exact Iff.rfl

/-- Every entry is in the block of the point its row block names. -/
theorem bn3_cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, -, -, o0, o1⟩ := bn3_idx_facts t
  have o0' : win3_6.index t (0 : Fin 2) = (i 0).val / 5000 := o0
  refine ⟨t, flush3_6 t, ?_⟩
  rw [bn3_mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The output array after the region is that function. -/
theorem bn3_final (c : Dev nD) : (dat3 (F := Ideal) V c).arrAt 6 cfg3.N = bn3Fun V c :=
  (dat3 (F := Ideal) V c).arrAt_eq_of_cover 6 (bn3Fun V c) (fun t _ => bn3_flushed_eq V c t) bn3_cover

/-- The second normalisation's output array at row `r`, column `q`. -/
theorem bn3_apply (c : Dev nD) (r : Fin 50000) (q : Fin 128) :
    (dat3 (F := Ideal) V c).arrAt 6 cfg3.N (ix2 r q)
      = bnSkipReluAt ((V c main_v71 : S50000x128.Idx → EReal) (ix2 r q)) ((V c main_v75 : S1x128.Idx → EReal) (ix2 0 q)) ((V c main_v76 : S1x128.Idx → EReal) (ix2 0 q))
          ((V c main_v77 : S1x128.Idx → EReal) (ix2 0 q)) ((V c main_v78 : S1x128.Idx → EReal) (ix2 0 q)) ((V c main_v54 : S50000x128.Idx → EReal) (ix2 r q)) := by
  rw [bn3_final]

end Cert.KernelIdeal.Hand

end
-- ==== Proof.RefBn.lean ====
/-
  The reference's two normalisation layers read at an entry.  Each is a line of host operations: the four vectors
  of 128 entries are broadcast to one row and then to all 50000 rows, the activation is centred, scaled by γ, multiplied
  by the reciprocal square root of the variance plus ε, shifted by β (the second layer then adds one times the first
  layer's output), and the result is rectified against zero.  Every operation is entrywise once the broadcasts are read,
  so entry (r, q) of the result is
    max (γ_q · (x_rq − μ_q) · (σ²_q + ε)^(−1/2) + β_q [+ 1 · s_rq], 0).
-/
import proofs.«121903_j7567732376250_1_alg».proof.Proof.RefRun
import proofs.«121903_j7567732376250_1_alg».proof.Proof.BnSpec
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Hand

/-- A vector of 128 entries broadcast to one row and then to 50000 rows reads, at (r, q), its entry q. -/
theorem rowBcast_apply (v : FVec Ideal S128 .f32) (r : Fin 50000) (q : Fin 128) :
    broadcastInDim S50000x128 ![0, 1] bcast_S1x128_S50000x128_0_1 (broadcastInDim S1x128 ![1] bcast_S128_S1x128_1 v) (ix2 r q) = v (ix1 q) := by
  refine (broadcastInDim_apply _ _ _ (ix2 r q) (ix2 0 q) ?_).trans ?_
  · intro a
    match a with
    | ⟨0, _⟩ => rfl
    | ⟨1, _⟩ => rfl
  · refine broadcastInDim_apply _ _ _ (ix2 0 q) (ix1 q) ?_
    intro a
    match a with
    | ⟨0, _⟩ => rfl

/-- The first normalisation's host operations composed: one function of the activation and the four vectors. -/
def bn0Term (x : FVec Ideal S50000x128 .f32) (mu var g be : FVec Ideal S128 .f32) : FVec Ideal S50000x128 .f32 :=
  maximumf
    (addf
      (mulf
        (mulf (broadcastInDim S50000x128 ![0, 1] bcast_S1x128_S50000x128_0_1 (broadcastInDim S1x128 ![1] bcast_S128_S1x128_1 g))
          (subf x (broadcastInDim S50000x128 ![0, 1] bcast_S1x128_S50000x128_0_1 (broadcastInDim S1x128 ![1] bcast_S128_S1x128_1 mu))))
        (broadcastInDim S50000x128 ![0, 1] bcast_S1x128_S50000x128_0_1 (broadcastInDim S1x128 ![1] bcast_S128_S1x128_1
          (Host.rsqrt (addf var (broadcastInDim S128 ![] bcast_S_S128 (constant (F := Ideal) S_ .f32 0x3727C5AC#32)))))))
      (broadcastInDim S50000x128 ![0, 1] bcast_S1x128_S50000x128_0_1 (broadcastInDim S1x128 ![1] bcast_S128_S1x128_1 be)))
    (broadcastInDim S50000x128 ![] bcast_S_S50000x128 (constant (F := Ideal) S_ .f32 0x00000000#32))

/-- That function at (r, q) is the normalised, rectified entry. -/
theorem bn0Term_apply (x : FVec Ideal S50000x128 .f32) (mu var g be : FVec Ideal S128 .f32) (r : Fin 50000) (q : Fin 128) :
    bn0Term x mu var g be (ix2 r q) = bnReluAt (x (ix2 r q)) (mu (ix1 q)) (var (ix1 q)) (g (ix1 q)) (be (ix1 q)) := by
  unfold bn0Term
  rw [maximumf_apply, addf_apply, mulf_apply, mulf_apply, subf_apply, rowBcast_apply, rowBcast_apply, rowBcast_apply, rowBcast_apply]
  rfl

set_option maxHeartbeats 400000 in
/-- The first layer's operations, run from any contents, leave that function of the five buffers they read. -/
theorem refBn0_term (UB : Valuation τ sig (Elt Ideal)) :
    after (stBn0Relu (F := Ideal)) (after (stBn0B (F := Ideal)) UB) (Proc.devRef .tc main_v66)
      = bn0Term (UB (Proc.devRef .tc main_v46)) (UB (Proc.devRef .tc main_v49)) (UB (Proc.devRef .tc main_v50))
          (UB (Proc.devRef .tc main_arg4)) (UB (Proc.devRef .tc main_arg5)) := by
  after_results_simp
  rfl

/-- The first layer's result at row `r`, column `q`. -/
theorem refBn0_apply (UB : Valuation τ sig (Elt Ideal)) (r : Fin 50000) (q : Fin 128) :
    (after (stBn0Relu (F := Ideal)) (after (stBn0B (F := Ideal)) UB) (Proc.devRef .tc main_v66) : S50000x128.Idx → EReal) (ix2 r q)
      = bnReluAt ((UB (Proc.devRef .tc main_v46) : S50000x128.Idx → EReal) (ix2 r q)) ((UB (Proc.devRef .tc main_v49) : S128.Idx → EReal) (ix1 q)) ((UB (Proc.devRef .tc main_v50) : S128.Idx → EReal) (ix1 q))
          ((UB (Proc.devRef .tc main_arg4) : S128.Idx → EReal) (ix1 q)) ((UB (Proc.devRef .tc main_arg5) : S128.Idx → EReal) (ix1 q)) :=
  (congrFun (refBn0_term UB) (ix2 r q)).trans (bn0Term_apply _ _ _ _ _ r q)

/-- The second normalisation's host operations composed: one function of the activation, the four vectors and the first layer's output. -/
def bn1Term (x : FVec Ideal S50000x128 .f32) (mu var g be : FVec Ideal S128 .f32) (s : FVec Ideal S50000x128 .f32) : FVec Ideal S50000x128 .f32 :=
  maximumf
    (addf
      (addf
        (mulf
          (mulf (broadcastInDim S50000x128 ![0, 1] bcast_S1x128_S50000x128_0_1 (broadcastInDim S1x128 ![1] bcast_S128_S1x128_1 g))
            (subf x (broadcastInDim S50000x128 ![0, 1] bcast_S1x128_S50000x128_0_1 (broadcastInDim S1x128 ![1] bcast_S128_S1x128_1 mu))))
          (broadcastInDim S50000x128 ![0, 1] bcast_S1x128_S50000x128_0_1 (broadcastInDim S1x128 ![1] bcast_S128_S1x128_1
            (Host.rsqrt (addf var (broadcastInDim S128 ![] bcast_S_S128 (constant (F := Ideal) S_ .f32 0x3727C5AC#32)))))))
        (broadcastInDim S50000x128 ![0, 1] bcast_S1x128_S50000x128_0_1 (broadcastInDim S1x128 ![1] bcast_S128_S1x128_1 be)))
      (mulf (broadcastInDim S50000x128 ![] bcast_S_S50000x128 (constant (F := Ideal) S_ .f32 0x3F800000#32)) s))
    (broadcastInDim S50000x128 ![] bcast_S_S50000x128 (constant (F := Ideal) S_ .f32 0x00000000#32))

/-- That function at (r, q) is the normalised entry plus the skip entry, rectified. -/
theorem bn1Term_apply (x : FVec Ideal S50000x128 .f32) (mu var g be : FVec Ideal S128 .f32) (s : FVec Ideal S50000x128 .f32) (r : Fin 50000) (q : Fin 128) :
    bn1Term x mu var g be s (ix2 r q) = bnSkipReluAt (x (ix2 r q)) (mu (ix1 q)) (var (ix1 q)) (g (ix1 q)) (be (ix1 q)) (s (ix2 r q)) := by
  unfold bn1Term
  rw [maximumf_apply, addf_apply, addf_apply, mulf_apply, mulf_apply, mulf_apply, subf_apply,
    rowBcast_apply, rowBcast_apply, rowBcast_apply, rowBcast_apply]
  rfl

set_option maxHeartbeats 400000 in
/-- The second layer's operations, run from any contents, leave that function of the six buffers they read. -/
theorem refBn1_term (UB : Valuation τ sig (Elt Ideal)) :
    after (stBn1Relu (F := Ideal)) (after (stBn1B (F := Ideal)) UB) (Proc.devRef .tc main_v106)
      = bn1Term (UB (Proc.devRef .tc main_v83)) (UB (Proc.devRef .tc main_v86)) (UB (Proc.devRef .tc main_v87))
          (UB (Proc.devRef .tc main_arg8)) (UB (Proc.devRef .tc main_arg9)) (UB (Proc.devRef .tc main_v66)) := by
  simp only [stBn1B, after_append]
  after_results_simp
  rfl

/-- The second layer's result at row `r`, column `q`. -/
theorem refBn1_apply (UB : Valuation τ sig (Elt Ideal)) (r : Fin 50000) (q : Fin 128) :
    (after (stBn1Relu (F := Ideal)) (after (stBn1B (F := Ideal)) UB) (Proc.devRef .tc main_v106) : S50000x128.Idx → EReal) (ix2 r q)
      = bnSkipReluAt ((UB (Proc.devRef .tc main_v83) : S50000x128.Idx → EReal) (ix2 r q)) ((UB (Proc.devRef .tc main_v86) : S128.Idx → EReal) (ix1 q)) ((UB (Proc.devRef .tc main_v87) : S128.Idx → EReal) (ix1 q))
          ((UB (Proc.devRef .tc main_arg8) : S128.Idx → EReal) (ix1 q)) ((UB (Proc.devRef .tc main_arg9) : S128.Idx → EReal) (ix1 q)) ((UB (Proc.devRef .tc main_v66) : S50000x128.Idx → EReal) (ix2 r q)) :=
  (congrFun (refBn1_term UB) (ix2 r q)).trans (bn1Term_apply _ _ _ _ _ _ r q)

end Cert.ReferenceIdeal.Hand

end
-- ==== Proof.KReshape.lean ====
/-
  The kernel program reshapes each learned vector of 128 entries to one row of 128 before the normalisation regions:
  entry (0, q) of the row is entry q of the vector.
-/
import proofs.«121903_j7567732376250_1_alg».proof.Proof.Gen.KernelIdeal.Launch
import Idealize.ShloMosaic.Lib.StableHlo.Run
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx

/-- The first layer's scale as a row. -/
theorem reshape52_term (W : Valuation τ sig (Elt Ideal)) :
    after (hostOps1_2 (F := Ideal)) W (Proc.devRef .tc main_v52)
      = shapeCast S1x128 (W (Proc.devRef .tc main_arg4) : S128.Idx → EReal) shapeCasts_S128_S1x128 := by
  after_results
  rfl

/-- The first layer's shift as a row. -/
theorem reshape53_term (W : Valuation τ sig (Elt Ideal)) :
    after (hostOps1_2 (F := Ideal)) W (Proc.devRef .tc main_v53)
      = shapeCast S1x128 (W (Proc.devRef .tc main_arg5) : S128.Idx → EReal) shapeCasts_S128_S1x128 := by
  after_results
  rfl

/-- The second layer's scale as a row. -/
theorem reshape77_term (W : Valuation τ sig (Elt Ideal)) :
    after (hostOps3_2 (F := Ideal)) W (Proc.devRef .tc main_v77)
      = shapeCast S1x128 (W (Proc.devRef .tc main_arg8) : S128.Idx → EReal) shapeCasts_S128_S1x128 := by
  after_results
  rfl

/-- The second layer's shift as a row. -/
theorem reshape78_term (W : Valuation τ sig (Elt Ideal)) :
    after (hostOps3_2 (F := Ideal)) W (Proc.devRef .tc main_v78)
      = shapeCast S1x128 (W (Proc.devRef .tc main_arg9) : S128.Idx → EReal) shapeCasts_S128_S1x128 := by
  after_results
  rfl

theorem reshape52_apply (W : Valuation τ sig (Elt Ideal)) (q : Fin 128) :
    (after (hostOps1_2 (F := Ideal)) W (Proc.devRef .tc main_v52) : S1x128.Idx → EReal) (ix2 0 q)
      = (W (Proc.devRef .tc main_arg4) : S128.Idx → EReal) (ix1 q) :=
  (congrFun (reshape52_term W) (ix2 0 q)).trans (shapeCast_a_1a_apply _ _ 0 q)

theorem reshape53_apply (W : Valuation τ sig (Elt Ideal)) (q : Fin 128) :
    (after (hostOps1_2 (F := Ideal)) W (Proc.devRef .tc main_v53) : S1x128.Idx → EReal) (ix2 0 q)
      = (W (Proc.devRef .tc main_arg5) : S128.Idx → EReal) (ix1 q) :=
  (congrFun (reshape53_term W) (ix2 0 q)).trans (shapeCast_a_1a_apply _ _ 0 q)

theorem reshape77_apply (W : Valuation τ sig (Elt Ideal)) (q : Fin 128) :
    (after (hostOps3_2 (F := Ideal)) W (Proc.devRef .tc main_v77) : S1x128.Idx → EReal) (ix2 0 q)
      = (W (Proc.devRef .tc main_arg8) : S128.Idx → EReal) (ix1 q) :=
  (congrFun (reshape77_term W) (ix2 0 q)).trans (shapeCast_a_1a_apply _ _ 0 q)

theorem reshape78_apply (W : Valuation τ sig (Elt Ideal)) (q : Fin 128) :
    (after (hostOps3_2 (F := Ideal)) W (Proc.devRef .tc main_v78) : S1x128.Idx → EReal) (ix2 0 q)
      = (W (Proc.devRef .tc main_arg9) : S128.Idx → EReal) (ix1 q) :=
  (congrFun (reshape78_term W) (ix2 0 q)).trans (shapeCast_a_1a_apply _ _ 0 q)

end Cert.KernelIdeal.Hand

end
-- ==== Proof.Assemble.lean ====
/-
  The two programs' results are the same array. Both programs are the same three-layer graph convolution: a
  preparation of the edge lists (self loops appended) and of the symmetric edge normalisation from the
  in-degrees; then per layer a dense product h·W, the aggregation (gather the source rows, scale by the edge
  normalisation, scatter-add into the destination rows, add the bias), and — for the first two layers — a batch
  normalisation over the 50000 rows followed by a rectification, the second with the first layer's activation
  added before rectifying. The reference does every step by host operations. The kernel program does the
  preparation and the three aggregations by the SAME host operations and hands the three dense products and the
  two normalise-and-rectify steps to pipelined kernels working on blocks of 5000 rows.
  The comparison walks both programs stage by stage. After each stage the buffers the later stages read hold
  the same values in both programs:
    · after the preparation: the source list, the destination list, the edge normalisation (same operations);
    · after a dense product: entry (r, q) is Σ_k h(r, k) · W(k, q) on both sides (the kernel's blocks are
      restrictions of that one function; the format changes are the identity on the extended reals);
    · after an aggregation: same operations applied to equal operands;
    · after a normalisation: entry (r, q) is max (γ_q (x_rq − μ_q)(σ²_q + ε)^(−1/2) + β_q [+ 1·skip_rq], 0) on both
      sides, where the column mean μ and variance σ² are the same sums; the kernel program keeps them as 1 × 128
      rows where the reference has vectors of length 128.
  A value computed at one stage and read several stages later (the edge lists, an argument, the first activation
  for the skip connection) is unchanged in between because no operation and no kernel region in between writes
  its buffer.
-/
import proofs.«121903_j7567732376250_1_alg».proof.Proof.SimConv
import proofs.«121903_j7567732376250_1_alg».proof.Proof.SimStats
import proofs.«121903_j7567732376250_1_alg».proof.Proof.KWrites
import proofs.«121903_j7567732376250_1_alg».proof.Proof.MmValue0
import proofs.«121903_j7567732376250_1_alg».proof.Proof.MmValue2
import proofs.«121903_j7567732376250_1_alg».proof.Proof.MmValue4
import proofs.«121903_j7567732376250_1_alg».proof.Proof.RefMm
import proofs.«121903_j7567732376250_1_alg».proof.Proof.BnValue1
import proofs.«121903_j7567732376250_1_alg».proof.Proof.BnValue3
import proofs.«121903_j7567732376250_1_alg».proof.Proof.RefBn
import proofs.«121903_j7567732376250_1_alg».proof.Proof.KReshape

set_option maxRecDepth 4096

noncomputable section

namespace Cert.Sim

open Idealize.ShloMosaic Idealize.ShloMosaic.TcCoe Idealize.SL.Sem Idealize.ShloMosaic.StableHlo Idealize.ShloMosaic.ValueIdx Cert.Hand

/-! ## Small general facts -/

/-- Two buffers written back with their own contents. -/
theorem preload2 {τ : Topo} {sig : RefSig} (y1 y2 : Ref sig .tc)
    (hy1 : y1.space ≠ .host ∧ (y1 : DevRef τ sig).isScoped = false) (hy2 : y2.space ≠ .host ∧ (y2 : DevRef τ sig).isScoped = false)
    (L : List (HloOp τ sig (Elt Ideal))) (W : Valuation τ sig (Elt Ideal))
    (x1 : y1.ty.Contents (Elt Ideal)) (x2 : y2.ty.Contents (Elt Ideal))
    (h1 : W (Proc.devRef .tc y1) = x1) (h2 : W (Proc.devRef .tc y2) = x2) :
    after (StableHlo.nullary y1 x1 hy1 :: StableHlo.nullary y2 x2 hy2 :: L) W = after L W :=
  (preload y1 hy1 _ W x1 h1).trans (preload y2 hy2 L W x2 h2)

/-- Five buffers written back with their own contents. -/
theorem preload5 {τ : Topo} {sig : RefSig} (y1 y2 y3 y4 y5 : Ref sig .tc)
    (hy1 : y1.space ≠ .host ∧ (y1 : DevRef τ sig).isScoped = false) (hy2 : y2.space ≠ .host ∧ (y2 : DevRef τ sig).isScoped = false)
    (hy3 : y3.space ≠ .host ∧ (y3 : DevRef τ sig).isScoped = false) (hy4 : y4.space ≠ .host ∧ (y4 : DevRef τ sig).isScoped = false)
    (hy5 : y5.space ≠ .host ∧ (y5 : DevRef τ sig).isScoped = false)
    (L : List (HloOp τ sig (Elt Ideal))) (W : Valuation τ sig (Elt Ideal))
    (x1 : y1.ty.Contents (Elt Ideal)) (x2 : y2.ty.Contents (Elt Ideal)) (x3 : y3.ty.Contents (Elt Ideal))
    (x4 : y4.ty.Contents (Elt Ideal)) (x5 : y5.ty.Contents (Elt Ideal))
    (h1 : W (Proc.devRef .tc y1) = x1) (h2 : W (Proc.devRef .tc y2) = x2) (h3 : W (Proc.devRef .tc y3) = x3)
    (h4 : W (Proc.devRef .tc y4) = x4) (h5 : W (Proc.devRef .tc y5) = x5) :
    after (StableHlo.nullary y1 x1 hy1 :: StableHlo.nullary y2 x2 hy2 :: StableHlo.nullary y3 x3 hy3 :: StableHlo.nullary y4 x4 hy4
        :: StableHlo.nullary y5 x5 hy5 :: L) W = after L W :=
  (preload y1 hy1 _ W x1 h1).trans ((preload y2 hy2 _ W x2 h2).trans ((preload y3 hy3 _ W x3 h3).trans
    ((preload y4 hy4 _ W x4 h4).trans (preload y5 hy5 L W x5 h5))))

/-- Sums of products of equal factors are equal. -/
theorem sum_mul_congr {n : Nat} (a a' b b' : Fin n → EReal) (ha : ∀ k, a k = a' k) (hb : ∀ k, b k = b' k) :
    ∑ k, a k * b k = ∑ k, a' k * b' k := by
  simp only [ha, hb]

theorem bnReluAt_congr {p p' u u' v v' g g' b b' : EReal} (hp : p = p') (hu : u = u') (hv : v = v') (hg : g = g') (hb : b = b') :
    bnReluAt p u v g b = bnReluAt p' u' v' g' b' := by subst hp hu hv hg hb; rfl

theorem bnSkipReluAt_congr {p p' u u' v v' g g' b b' s s' : EReal} (hp : p = p') (hu : u = u') (hv : v = v') (hg : g = g') (hb : b = b')
    (hs : s = s') : bnSkipReluAt p u v g b s = bnSkipReluAt p' u' v' g' b' s' := by subst hp hu hv hg hb hs; rfl

/-! ## The two programs' buffer contents at the stage boundaries -/

section
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The reference's buffer contents after each of its twenty-one stretches, from the launch memory. -/
abbrev Rv0 : RV := launchContents m' c
abbrev Rv1 : RV := after (Cert.ReferenceIdeal.Hand.stPrepA (F := Ideal)) (Rv0 m' c)
abbrev Rv2 : RV := after (Cert.ReferenceIdeal.Hand.stPrepCall (F := Ideal)) (Rv1 m' c)
abbrev Rv3 : RV := after (Cert.ReferenceIdeal.Hand.stPrepB (F := Ideal)) (Rv2 m' c)
abbrev Rv4 : RV := after (Cert.ReferenceIdeal.Hand.stMm0 (F := Ideal)) (Rv3 m' c)
abbrev Rv5 : RV := after (Cert.ReferenceIdeal.Hand.stConv0 (F := Ideal)) (Rv4 m' c)
abbrev Rv6 : RV := after (Cert.ReferenceIdeal.Hand.stBn0A1 (F := Ideal)) (Rv5 m' c)
abbrev Rv7 : RV := after (Cert.ReferenceIdeal.Hand.stBn0A2 (F := Ideal)) (Rv6 m' c)
abbrev Rv8 : RV := after (Cert.ReferenceIdeal.Hand.stBn0Var (F := Ideal)) (Rv7 m' c)
abbrev Rv9 : RV := after (Cert.ReferenceIdeal.Hand.stBn0Where (F := Ideal)) (Rv8 m' c)
abbrev Rv10 : RV := after (Cert.ReferenceIdeal.Hand.stBn0B (F := Ideal)) (Rv9 m' c)
abbrev Rv11 : RV := after (Cert.ReferenceIdeal.Hand.stBn0Relu (F := Ideal)) (Rv10 m' c)
abbrev Rv12 : RV := after (Cert.ReferenceIdeal.Hand.stMm1 (F := Ideal)) (Rv11 m' c)
abbrev Rv13 : RV := after (Cert.ReferenceIdeal.Hand.stConv1 (F := Ideal)) (Rv12 m' c)
abbrev Rv14 : RV := after (Cert.ReferenceIdeal.Hand.stBn1A (F := Ideal)) (Rv13 m' c)
abbrev Rv15 : RV := after (Cert.ReferenceIdeal.Hand.stBn1Var (F := Ideal)) (Rv14 m' c)
abbrev Rv16 : RV := after (Cert.ReferenceIdeal.Hand.stBn1Where (F := Ideal)) (Rv15 m' c)
abbrev Rv17 : RV := after (Cert.ReferenceIdeal.Hand.stBn1B1 (F := Ideal)) (Rv16 m' c)
abbrev Rv18 : RV := after (Cert.ReferenceIdeal.Hand.stBn1B2 (F := Ideal)) (Rv17 m' c)
abbrev Rv19 : RV := after (Cert.ReferenceIdeal.Hand.stBn1Relu (F := Ideal)) (Rv18 m' c)
abbrev Rv20 : RV := after (Cert.ReferenceIdeal.Hand.stMm2 (F := Ideal)) (Rv19 m' c)
abbrev Rv21 : RV := after (Cert.ReferenceIdeal.Hand.stConv2 (F := Ideal)) (Rv20 m' c)

/-- The two launch memories agree on the twelve arguments. -/
structure ArgsAgree : Prop where
  a0 : (Cert.KernelIdeal.Gen.W0 (F := Ideal) m ρ c) (Proc.devRef .tc Cert.KernelIdeal.main_arg0) = (Rv0 m' c) (Proc.devRef .tc Cert.ReferenceIdeal.main_arg0)
  a1 : (Cert.KernelIdeal.Gen.W0 (F := Ideal) m ρ c) (Proc.devRef .tc Cert.KernelIdeal.main_arg1) = (Rv0 m' c) (Proc.devRef .tc Cert.ReferenceIdeal.main_arg1)
  a2 : (Cert.KernelIdeal.Gen.W0 (F := Ideal) m ρ c) (Proc.devRef .tc Cert.KernelIdeal.main_arg2) = (Rv0 m' c) (Proc.devRef .tc Cert.ReferenceIdeal.main_arg2)
  a3 : (Cert.KernelIdeal.Gen.W0 (F := Ideal) m ρ c) (Proc.devRef .tc Cert.KernelIdeal.main_arg3) = (Rv0 m' c) (Proc.devRef .tc Cert.ReferenceIdeal.main_arg3)
  a4 : (Cert.KernelIdeal.Gen.W0 (F := Ideal) m ρ c) (Proc.devRef .tc Cert.KernelIdeal.main_arg4) = (Rv0 m' c) (Proc.devRef .tc Cert.ReferenceIdeal.main_arg4)
  a5 : (Cert.KernelIdeal.Gen.W0 (F := Ideal) m ρ c) (Proc.devRef .tc Cert.KernelIdeal.main_arg5) = (Rv0 m' c) (Proc.devRef .tc Cert.ReferenceIdeal.main_arg5)
  a6 : (Cert.KernelIdeal.Gen.W0 (F := Ideal) m ρ c) (Proc.devRef .tc Cert.KernelIdeal.main_arg6) = (Rv0 m' c) (Proc.devRef .tc Cert.ReferenceIdeal.main_arg6)
  a7 : (Cert.KernelIdeal.Gen.W0 (F := Ideal) m ρ c) (Proc.devRef .tc Cert.KernelIdeal.main_arg7) = (Rv0 m' c) (Proc.devRef .tc Cert.ReferenceIdeal.main_arg7)
  a8 : (Cert.KernelIdeal.Gen.W0 (F := Ideal) m ρ c) (Proc.devRef .tc Cert.KernelIdeal.main_arg8) = (Rv0 m' c) (Proc.devRef .tc Cert.ReferenceIdeal.main_arg8)
  a9 : (Cert.KernelIdeal.Gen.W0 (F := Ideal) m ρ c) (Proc.devRef .tc Cert.KernelIdeal.main_arg9) = (Rv0 m' c) (Proc.devRef .tc Cert.ReferenceIdeal.main_arg9)
  a10 : (Cert.KernelIdeal.Gen.W0 (F := Ideal) m ρ c) (Proc.devRef .tc Cert.KernelIdeal.main_arg10) = (Rv0 m' c) (Proc.devRef .tc Cert.ReferenceIdeal.main_arg10)
  a11 : (Cert.KernelIdeal.Gen.W0 (F := Ideal) m ρ c) (Proc.devRef .tc Cert.KernelIdeal.main_arg11) = (Rv0 m' c) (Proc.devRef .tc Cert.ReferenceIdeal.main_arg11)

variable {m ρ m' c}

/-! ## The preparation -/

theorem st_v3 (hag : ArgsAgree m ρ m' c) : (Cert.KernelIdeal.Gen.W3 (F := Ideal) m ρ c) (Proc.devRef .tc Cert.KernelIdeal.main_v3) = (Rv3 m' c) (Proc.devRef .tc Cert.ReferenceIdeal.main_v3) :=
  ((congrArg (fun V : KV => after (Cert.KernelIdeal.Gen.hostOps0_2 (F := Ideal)) (after (Cert.KernelIdeal.Gen.hostOps0_1 (F := Ideal)) V) (Proc.devRef .tc Cert.KernelIdeal.main_v3))
      (preload Cert.KernelIdeal.main_arg1 ⟨by decide, rfl⟩ (Cert.KernelIdeal.Gen.hostOps0 (F := Ideal)) (Cert.KernelIdeal.Gen.W0 (F := Ideal) m ρ c) ((Rv0 m' c) (Proc.devRef .tc Cert.ReferenceIdeal.main_arg1)) hag.a1)).symm.trans
    ((prep_v3 (Cert.KernelIdeal.Gen.W0 (F := Ideal) m ρ c) (Rv0 m' c) ((Rv0 m' c) (Proc.devRef .tc Cert.ReferenceIdeal.main_arg1))).trans
      (congrArg (fun V : RV => after (Cert.ReferenceIdeal.Hand.stPrepB (F := Ideal)) (after (Cert.ReferenceIdeal.Hand.stPrepCall (F := Ideal)) V) (Proc.devRef .tc Cert.ReferenceIdeal.main_v3))
        (preload Cert.ReferenceIdeal.main_arg1 ⟨by decide, rfl⟩ (Cert.ReferenceIdeal.Hand.stPrepA (F := Ideal)) (Rv0 m' c) ((Rv0 m' c) (Proc.devRef .tc Cert.ReferenceIdeal.main_arg1)) rfl))))

theorem st_v6 (hag : ArgsAgree m ρ m' c) : (Cert.KernelIdeal.Gen.W3 (F := Ideal) m ρ c) (Proc.devRef .tc Cert.KernelIdeal.main_v6) = (Rv3 m' c) (Proc.devRef .tc Cert.ReferenceIdeal.main_v6) :=
  ((congrArg (fun V : KV => after (Cert.KernelIdeal.Gen.hostOps0_2 (F := Ideal)) (after (Cert.KernelIdeal.Gen.hostOps0_1 (F := Ideal)) V) (Proc.devRef .tc Cert.KernelIdeal.main_v6))
      (preload Cert.KernelIdeal.main_arg1 ⟨by decide, rfl⟩ (Cert.KernelIdeal.Gen.hostOps0 (F := Ideal)) (Cert.KernelIdeal.Gen.W0 (F := Ideal) m ρ c) ((Rv0 m' c) (Proc.devRef .tc Cert.ReferenceIdeal.main_arg1)) hag.a1)).symm.trans
    ((prep_v6 (Cert.KernelIdeal.Gen.W0 (F := Ideal) m ρ c) (Rv0 m' c) ((Rv0 m' c) (Proc.devRef .tc Cert.ReferenceIdeal.main_arg1))).trans
      (congrArg (fun V : RV => after (Cert.ReferenceIdeal.Hand.stPrepB (F := Ideal)) (after (Cert.ReferenceIdeal.Hand.stPrepCall (F := Ideal)) V) (Proc.devRef .tc Cert.ReferenceIdeal.main_v6))
        (preload Cert.ReferenceIdeal.main_arg1 ⟨by decide, rfl⟩ (Cert.ReferenceIdeal.Hand.stPrepA (F := Ideal)) (Rv0 m' c) ((Rv0 m' c) (Proc.devRef .tc Cert.ReferenceIdeal.main_arg1)) rfl))))

theorem st_v29 (hag : ArgsAgree m ρ m' c) : (Cert.KernelIdeal.Gen.W3 (F := Ideal) m ρ c) (Proc.devRef .tc Cert.KernelIdeal.main_v29) = (Rv3 m' c) (Proc.devRef .tc Cert.ReferenceIdeal.main_v29) :=
  ((congrArg (fun V : KV => after (Cert.KernelIdeal.Gen.hostOps0_2 (F := Ideal)) (after (Cert.KernelIdeal.Gen.hostOps0_1 (F := Ideal)) V) (Proc.devRef .tc Cert.KernelIdeal.main_v29))
      (preload Cert.KernelIdeal.main_arg1 ⟨by decide, rfl⟩ (Cert.KernelIdeal.Gen.hostOps0 (F := Ideal)) (Cert.KernelIdeal.Gen.W0 (F := Ideal) m ρ c) ((Rv0 m' c) (Proc.devRef .tc Cert.ReferenceIdeal.main_arg1)) hag.a1)).symm.trans
    ((prep_v29 (Cert.KernelIdeal.Gen.W0 (F := Ideal) m ρ c) (Rv0 m' c) ((Rv0 m' c) (Proc.devRef .tc Cert.ReferenceIdeal.main_arg1))).trans
      (congrArg (fun V : RV => after (Cert.ReferenceIdeal.Hand.stPrepB (F := Ideal)) (after (Cert.ReferenceIdeal.Hand.stPrepCall (F := Ideal)) V) (Proc.devRef .tc Cert.ReferenceIdeal.main_v29))
        (preload Cert.ReferenceIdeal.main_arg1 ⟨by decide, rfl⟩ (Cert.ReferenceIdeal.Hand.stPrepA (F := Ideal)) (Rv0 m' c) ((Rv0 m' c) (Proc.devRef .tc Cert.ReferenceIdeal.main_arg1)) rfl))))

/-! ## The first dense product -/

theorem st_v30 (hag : ArgsAgree m ρ m' c) : (Cert.KernelIdeal.Gen.W4 (F := Ideal) m ρ c) (Proc.devRef .tc Cert.KernelIdeal.main_v30) = (Rv4 m' c) (Proc.devRef .tc Cert.ReferenceIdeal.main_v30) := by
  have hx : (Cert.KernelIdeal.Gen.W3 (F := Ideal) m ρ c) (Proc.devRef .tc Cert.KernelIdeal.main_arg0) = (Rv3 m' c) (Proc.devRef .tc Cert.ReferenceIdeal.main_arg0) := ((((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg0) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg0) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg0) (by decide))))).trans (hag.a0.trans (((StableHlo.after_of_writes_sub (Cert.ReferenceIdeal.Hand.stPrepB (F := Ideal)) (Rv2 m' c) Cert.ReferenceIdeal.Hand.stPrepB_wsub (r := Cert.ReferenceIdeal.main_arg0) (by decide)).trans ((StableHlo.after_of_writes_sub (Cert.ReferenceIdeal.Hand.stPrepCall (F := Ideal)) (Rv1 m' c) Cert.ReferenceIdeal.Hand.stPrepCall_wsub (r := Cert.ReferenceIdeal.main_arg0) (by decide)).trans (StableHlo.after_of_writes_sub (Cert.ReferenceIdeal.Hand.stPrepA (F := Ideal)) (Rv0 m' c) Cert.ReferenceIdeal.Hand.stPrepA_wsub (r := Cert.ReferenceIdeal.main_arg0) (by decide))))).symm))
  have hw : (Cert.KernelIdeal.Gen.W3 (F := Ideal) m ρ c) (Proc.devRef .tc Cert.KernelIdeal.main_arg2) = (Rv3 m' c) (Proc.devRef .tc Cert.ReferenceIdeal.main_arg2) := ((((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg2) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg2) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg2) (by decide))))).trans (hag.a2.trans (((StableHlo.after_of_writes_sub (Cert.ReferenceIdeal.Hand.stPrepB (F := Ideal)) (Rv2 m' c) Cert.ReferenceIdeal.Hand.stPrepB_wsub (r := Cert.ReferenceIdeal.main_arg2) (by decide)).trans ((StableHlo.after_of_writes_sub (Cert.ReferenceIdeal.Hand.stPrepCall (F := Ideal)) (Rv1 m' c) Cert.ReferenceIdeal.Hand.stPrepCall_wsub (r := Cert.ReferenceIdeal.main_arg2) (by decide)).trans (StableHlo.after_of_writes_sub (Cert.ReferenceIdeal.Hand.stPrepA (F := Ideal)) (Rv0 m' c) Cert.ReferenceIdeal.Hand.stPrepA_wsub (r := Cert.ReferenceIdeal.main_arg2) (by decide))))).symm))
  refine (Cert.KernelIdeal.Gen.W4_arr m ρ c 2).trans (funext fun i => ?_)
  obtain ⟨r, q, rfl⟩ : ∃ (r : Fin 50000) (q : Fin 128), i = ix2 r q := ⟨i 0, i 1, eq_ix2 i⟩
  exact (Cert.KernelIdeal.Hand.mm0_apply (Cert.KernelIdeal.Gen.V3 (F := Ideal) m ρ) c r q).trans
    ((sum_mul_congr _ _ _ _ (fun k => congrFun hx (ix2 r k)) (fun k => congrFun hw (ix2 k q))).trans
      (Cert.ReferenceIdeal.Hand.refMm0_apply (Rv3 m' c) r q).symm)

/-! ## The first aggregation -/

theorem st_v46c (hag : ArgsAgree m ρ m' c) :
    after ((Cert.KernelIdeal.Gen.hostOps1 (F := Ideal)).take 19) (Cert.KernelIdeal.Gen.W4 (F := Ideal) m ρ c) (Proc.devRef .tc Cert.KernelIdeal.main_v46) = (Rv5 m' c) (Proc.devRef .tc Cert.ReferenceIdeal.main_v46) :=
  ((congrFun (preload5 Cert.KernelIdeal.main_v30 Cert.KernelIdeal.main_arg3 Cert.KernelIdeal.main_v3 Cert.KernelIdeal.main_v6 Cert.KernelIdeal.main_v29 ⟨by decide, rfl⟩ ⟨by decide, rfl⟩ ⟨by decide, rfl⟩ ⟨by decide, rfl⟩ ⟨by decide, rfl⟩
      ((Cert.KernelIdeal.Gen.hostOps1 (F := Ideal)).take 19) (Cert.KernelIdeal.Gen.W4 (F := Ideal) m ρ c) ((Rv4 m' c) (Proc.devRef .tc Cert.ReferenceIdeal.main_v30)) ((Rv4 m' c) (Proc.devRef .tc Cert.ReferenceIdeal.main_arg3)) ((Rv4 m' c) (Proc.devRef .tc Cert.ReferenceIdeal.main_v3)) ((Rv4 m' c) (Proc.devRef .tc Cert.ReferenceIdeal.main_v6)) ((Rv4 m' c) (Proc.devRef .tc Cert.ReferenceIdeal.main_v29))
      (st_v30 hag) ((((Cert.KernelIdeal.Gen.W4_of_ne m ρ c Cert.KernelIdeal.main_arg3 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg3) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg3) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg3) (by decide)))))).trans (hag.a3.trans (((StableHlo.after_of_writes_sub (Cert.ReferenceIdeal.Hand.stMm0 (F := Ideal)) (Rv3 m' c) Cert.ReferenceIdeal.Hand.stMm0_wsub (r := Cert.ReferenceIdeal.main_arg3) (by decide)).trans ((StableHlo.after_of_writes_sub (Cert.ReferenceIdeal.Hand.stPrepB (F := Ideal)) (Rv2 m' c) Cert.ReferenceIdeal.Hand.stPrepB_wsub (r := Cert.ReferenceIdeal.main_arg3) (by decide)).trans ((StableHlo.after_of_writes_sub (Cert.ReferenceIdeal.Hand.stPrepCall (F := Ideal)) (Rv1 m' c) Cert.ReferenceIdeal.Hand.stPrepCall_wsub (r := Cert.ReferenceIdeal.main_arg3) (by decide)).trans (StableHlo.after_of_writes_sub (Cert.ReferenceIdeal.Hand.stPrepA (F := Ideal)) (Rv0 m' c) Cert.ReferenceIdeal.Hand.stPrepA_wsub (r := Cert.ReferenceIdeal.main_arg3) (by decide)))))).symm))
      (((Cert.KernelIdeal.Gen.W4_of_ne m ρ c Cert.KernelIdeal.main_v3 (by decide))).trans ((st_v3 hag).trans ((StableHlo.after_of_writes_sub (Cert.ReferenceIdeal.Hand.stMm0 (F := Ideal)) (Rv3 m' c) Cert.ReferenceIdeal.Hand.stMm0_wsub (r := Cert.ReferenceIdeal.main_v3) (by decide))).symm))
      (((Cert.KernelIdeal.Gen.W4_of_ne m ρ c Cert.KernelIdeal.main_v6 (by decide))).trans ((st_v6 hag).trans ((StableHlo.after_of_writes_sub (Cert.ReferenceIdeal.Hand.stMm0 (F := Ideal)) (Rv3 m' c) Cert.ReferenceIdeal.Hand.stMm0_wsub (r := Cert.ReferenceIdeal.main_v6) (by decide))).symm))
      (((Cert.KernelIdeal.Gen.W4_of_ne m ρ c Cert.KernelIdeal.main_v29 (by decide))).trans ((st_v29 hag).trans ((StableHlo.after_of_writes_sub (Cert.ReferenceIdeal.Hand.stMm0 (F := Ideal)) (Rv3 m' c) Cert.ReferenceIdeal.Hand.stMm0_wsub (r := Cert.ReferenceIdeal.main_v29) (by decide))).symm))) (Proc.devRef .tc Cert.KernelIdeal.main_v46)).symm.trans
    ((conv0 (Cert.KernelIdeal.Gen.W4 (F := Ideal) m ρ c) (Rv4 m' c) ((Rv4 m' c) (Proc.devRef .tc Cert.ReferenceIdeal.main_v30)) ((Rv4 m' c) (Proc.devRef .tc Cert.ReferenceIdeal.main_arg3)) ((Rv4 m' c) (Proc.devRef .tc Cert.ReferenceIdeal.main_v3)) ((Rv4 m' c) (Proc.devRef .tc Cert.ReferenceIdeal.main_v6)) ((Rv4 m' c) (Proc.devRef .tc Cert.ReferenceIdeal.main_v29))).trans
      (congrFun (preload5 Cert.ReferenceIdeal.main_v30 Cert.ReferenceIdeal.main_arg3 Cert.ReferenceIdeal.main_v3 Cert.ReferenceIdeal.main_v6 Cert.ReferenceIdeal.main_v29 ⟨by decide, rfl⟩ ⟨by decide, rfl⟩ ⟨by decide, rfl⟩ ⟨by decide, rfl⟩ ⟨by decide, rfl⟩
        (Cert.ReferenceIdeal.Hand.stConv0 (F := Ideal)) (Rv4 m' c) _ _ _ _ _ rfl rfl rfl rfl rfl) (Proc.devRef .tc Cert.ReferenceIdeal.main_v46))))

/-- The stretch cut after the aggregation. -/
theorem w5_split : (Cert.KernelIdeal.Gen.W5 (F := Ideal) m ρ c) = after ((Cert.KernelIdeal.Gen.hostOps1 (F := Ideal)).drop 19) (after ((Cert.KernelIdeal.Gen.hostOps1 (F := Ideal)).take 19) (Cert.KernelIdeal.Gen.W4 (F := Ideal) m ρ c)) :=
  (congrArg (fun L => after L (Cert.KernelIdeal.Gen.W4 (F := Ideal) m ρ c)) (List.take_append_drop 19 (Cert.KernelIdeal.Gen.hostOps1 (F := Ideal))).symm).trans
    (Cert.KernelIdeal.Hand.after_append _ _ _)

theorem st_v46 (hag : ArgsAgree m ρ m' c) : (Cert.KernelIdeal.Gen.W5 (F := Ideal) m ρ c) (Proc.devRef .tc Cert.KernelIdeal.main_v46) = (Rv5 m' c) (Proc.devRef .tc Cert.ReferenceIdeal.main_v46) :=
  (congrFun w5_split (Proc.devRef .tc Cert.KernelIdeal.main_v46)).trans
    ((StableHlo.after_of_writes_sub ((Cert.KernelIdeal.Gen.hostOps1 (F := Ideal)).drop 19) _ Cert.KernelIdeal.Hand.hostOps1_drop_wsub (r := Cert.KernelIdeal.main_v46) (by decide)).trans (st_v46c hag))

/-! ## The column statistics of layer 0 -/

theorem kc_0 (W : KV) : after (Cert.KernelIdeal.Gen.hostOps1 (F := Ideal)) W (Proc.devRef .tc Cert.KernelIdeal.main_c_11) = constantI Cert.KernelIdeal.S_ 32 0#32 := by
  after_results_simp

theorem rc_0 (V : RV) : after (Cert.ReferenceIdeal.Hand.stBn0A2 (F := Ideal)) V (Proc.devRef .tc Cert.ReferenceIdeal.main_c_11) = constantI Cert.ReferenceIdeal.S_ 32 0#32 := by
  after_results_simp

theorem st_mean0 (hag : ArgsAgree m ρ m' c) (q : Fin 128) :
    ((Cert.KernelIdeal.Gen.W7 (F := Ideal) m ρ c) (Proc.devRef .tc Cert.KernelIdeal.main_v50) : Cert.KernelIdeal.S1x128.Idx → EReal) (ix2 0 q) = ((Rv7 m' c) (Proc.devRef .tc Cert.ReferenceIdeal.main_v49) : Cert.ReferenceIdeal.S128.Idx → EReal) (ix1 q) :=
  (congrFun ((((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v50) (by decide)).trans (StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_v50) (by decide)))).trans ((congrFun w5_split (Proc.devRef .tc Cert.KernelIdeal.main_v50)).trans
      (congrFun (preload Cert.KernelIdeal.main_v46 ⟨by decide, rfl⟩ ((Cert.KernelIdeal.Gen.hostOps1 (F := Ideal)).drop 19) (after ((Cert.KernelIdeal.Gen.hostOps1 (F := Ideal)).take 19) (Cert.KernelIdeal.Gen.W4 (F := Ideal) m ρ c)) ((Rv5 m' c) (Proc.devRef .tc Cert.ReferenceIdeal.main_v46)) (st_v46c hag)) (Proc.devRef .tc Cert.KernelIdeal.main_v50)).symm)) (ix2 0 q)).trans
    ((mean0 (after ((Cert.KernelIdeal.Gen.hostOps1 (F := Ideal)).take 19) (Cert.KernelIdeal.Gen.W4 (F := Ideal) m ρ c)) (Rv5 m' c) ((Rv5 m' c) (Proc.devRef .tc Cert.ReferenceIdeal.main_v46)) q).trans
      (congrFun (congrFun ((preload Cert.ReferenceIdeal.main_v46 ⟨by decide, rfl⟩ (Cert.ReferenceIdeal.Hand.stBn0A (F := Ideal)) (Rv5 m' c) _ rfl).trans (Cert.ReferenceIdeal.Hand.after_append _ _ _)) (Proc.devRef .tc Cert.ReferenceIdeal.main_v49)) (ix1 q)))

theorem st_var0 (hag : ArgsAgree m ρ m' c) (q : Fin 128) :
    ((Cert.KernelIdeal.Gen.W7 (F := Ideal) m ρ c) (Proc.devRef .tc Cert.KernelIdeal.main_v51) : Cert.KernelIdeal.S1x128.Idx → EReal) (ix2 0 q) = ((Rv9 m' c) (Proc.devRef .tc Cert.ReferenceIdeal.main_v50) : Cert.ReferenceIdeal.S128.Idx → EReal) (ix1 q) :=
  (congrFun (((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v51) (by decide))).trans
      (congrFun (preload2 Cert.KernelIdeal.main_v46 Cert.KernelIdeal.main_c_11 ⟨by decide, rfl⟩ ⟨by decide, rfl⟩ (Cert.KernelIdeal.Gen.hostOps1_1 (F := Ideal)) (Cert.KernelIdeal.Gen.W5 (F := Ideal) m ρ c) ((Rv7 m' c) (Proc.devRef .tc Cert.ReferenceIdeal.main_v46)) ((Rv7 m' c) (Proc.devRef .tc Cert.ReferenceIdeal.main_c_11))
        ((st_v46 hag).trans (((StableHlo.after_of_writes_sub (Cert.ReferenceIdeal.Hand.stBn0A2 (F := Ideal)) (Rv6 m' c) Cert.ReferenceIdeal.Hand.stBn0A2_wsub (r := Cert.ReferenceIdeal.main_v46) (by decide)).trans (StableHlo.after_of_writes_sub (Cert.ReferenceIdeal.Hand.stBn0A1 (F := Ideal)) (Rv5 m' c) Cert.ReferenceIdeal.Hand.stBn0A1_wsub (r := Cert.ReferenceIdeal.main_v46) (by decide)))).symm) ((kc_0 (Cert.KernelIdeal.Gen.W4 (F := Ideal) m ρ c)).trans (rc_0 (Rv6 m' c)).symm)) (Proc.devRef .tc Cert.KernelIdeal.main_v51)).symm) (ix2 0 q)).trans
    ((var0 (Cert.KernelIdeal.Gen.W5 (F := Ideal) m ρ c) (Rv7 m' c) ((Rv7 m' c) (Proc.devRef .tc Cert.ReferenceIdeal.main_v46)) ((Rv7 m' c) (Proc.devRef .tc Cert.ReferenceIdeal.main_c_11)) q).trans
      (congrFun (congrFun ((preload2 Cert.ReferenceIdeal.main_v46 Cert.ReferenceIdeal.main_c_11 ⟨by decide, rfl⟩ ⟨by decide, rfl⟩ ((Cert.ReferenceIdeal.Hand.stBn0Var (F := Ideal)) ++ (Cert.ReferenceIdeal.Hand.stBn0Where (F := Ideal))) (Rv7 m' c) _ _ rfl rfl).trans
        (Cert.ReferenceIdeal.Hand.after_append _ _ _)) (Proc.devRef .tc Cert.ReferenceIdeal.main_v50)) (ix1 q)))

theorem st_g0 (hag : ArgsAgree m ρ m' c) (q : Fin 128) :
    ((Cert.KernelIdeal.Gen.W7 (F := Ideal) m ρ c) (Proc.devRef .tc Cert.KernelIdeal.main_v52) : Cert.KernelIdeal.S1x128.Idx → EReal) (ix2 0 q) = ((Rv9 m' c) (Proc.devRef .tc Cert.ReferenceIdeal.main_arg4) : Cert.ReferenceIdeal.S128.Idx → EReal) (ix1 q) :=
  (Cert.KernelIdeal.Hand.reshape52_apply (Cert.KernelIdeal.Gen.W6 (F := Ideal) m ρ c) q).trans (congrFun ((((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_arg4) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_arg4) (by decide)).trans ((Cert.KernelIdeal.Gen.W4_of_ne m ρ c Cert.KernelIdeal.main_arg4 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg4) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg4) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg4) (by decide)))))))).trans (hag.a4.trans (((StableHlo.after_of_writes_sub (Cert.ReferenceIdeal.Hand.stBn0Where (F := Ideal)) (Rv8 m' c) Cert.ReferenceIdeal.Hand.stBn0Where_wsub (r := Cert.ReferenceIdeal.main_arg4) (by decide)).trans ((StableHlo.after_of_writes_sub (Cert.ReferenceIdeal.Hand.stBn0Var (F := Ideal)) (Rv7 m' c) Cert.ReferenceIdeal.Hand.stBn0Var_wsub (r := Cert.ReferenceIdeal.main_arg4) (by decide)).trans ((StableHlo.after_of_writes_sub (Cert.ReferenceIdeal.Hand.stBn0A2 (F := Ideal)) (Rv6 m' c) Cert.ReferenceIdeal.Hand.stBn0A2_wsub (r := Cert.ReferenceIdeal.main_arg4) (by decide)).trans ((StableHlo.after_of_writes_sub (Cert.ReferenceIdeal.Hand.stBn0A1 (F := Ideal)) (Rv5 m' c) Cert.ReferenceIdeal.Hand.stBn0A1_wsub (r := Cert.ReferenceIdeal.main_arg4) (by decide)).trans ((StableHlo.after_of_writes_sub (Cert.ReferenceIdeal.Hand.stConv0 (F := Ideal)) (Rv4 m' c) Cert.ReferenceIdeal.Hand.stConv0_wsub (r := Cert.ReferenceIdeal.main_arg4) (by decide)).trans ((StableHlo.after_of_writes_sub (Cert.ReferenceIdeal.Hand.stMm0 (F := Ideal)) (Rv3 m' c) Cert.ReferenceIdeal.Hand.stMm0_wsub (r := Cert.ReferenceIdeal.main_arg4) (by decide)).trans ((StableHlo.after_of_writes_sub (Cert.ReferenceIdeal.Hand.stPrepB (F := Ideal)) (Rv2 m' c) Cert.ReferenceIdeal.Hand.stPrepB_wsub (r := Cert.ReferenceIdeal.main_arg4) (by decide)).trans ((StableHlo.after_of_writes_sub (Cert.ReferenceIdeal.Hand.stPrepCall (F := Ideal)) (Rv1 m' c) Cert.ReferenceIdeal.Hand.stPrepCall_wsub (r := Cert.ReferenceIdeal.main_arg4) (by decide)).trans (StableHlo.after_of_writes_sub (Cert.ReferenceIdeal.Hand.stPrepA (F := Ideal)) (Rv0 m' c) Cert.ReferenceIdeal.Hand.stPrepA_wsub (r := Cert.ReferenceIdeal.main_arg4) (by decide))))))))))).symm)) (ix1 q))

theorem st_be0 (hag : ArgsAgree m ρ m' c) (q : Fin 128) :
    ((Cert.KernelIdeal.Gen.W7 (F := Ideal) m ρ c) (Proc.devRef .tc Cert.KernelIdeal.main_v53) : Cert.KernelIdeal.S1x128.Idx → EReal) (ix2 0 q) = ((Rv9 m' c) (Proc.devRef .tc Cert.ReferenceIdeal.main_arg5) : Cert.ReferenceIdeal.S128.Idx → EReal) (ix1 q) :=
  (Cert.KernelIdeal.Hand.reshape53_apply (Cert.KernelIdeal.Gen.W6 (F := Ideal) m ρ c) q).trans (congrFun ((((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_arg5) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_arg5) (by decide)).trans ((Cert.KernelIdeal.Gen.W4_of_ne m ρ c Cert.KernelIdeal.main_arg5 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg5) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg5) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg5) (by decide)))))))).trans (hag.a5.trans (((StableHlo.after_of_writes_sub (Cert.ReferenceIdeal.Hand.stBn0Where (F := Ideal)) (Rv8 m' c) Cert.ReferenceIdeal.Hand.stBn0Where_wsub (r := Cert.ReferenceIdeal.main_arg5) (by decide)).trans ((StableHlo.after_of_writes_sub (Cert.ReferenceIdeal.Hand.stBn0Var (F := Ideal)) (Rv7 m' c) Cert.ReferenceIdeal.Hand.stBn0Var_wsub (r := Cert.ReferenceIdeal.main_arg5) (by decide)).trans ((StableHlo.after_of_writes_sub (Cert.ReferenceIdeal.Hand.stBn0A2 (F := Ideal)) (Rv6 m' c) Cert.ReferenceIdeal.Hand.stBn0A2_wsub (r := Cert.ReferenceIdeal.main_arg5) (by decide)).trans ((StableHlo.after_of_writes_sub (Cert.ReferenceIdeal.Hand.stBn0A1 (F := Ideal)) (Rv5 m' c) Cert.ReferenceIdeal.Hand.stBn0A1_wsub (r := Cert.ReferenceIdeal.main_arg5) (by decide)).trans ((StableHlo.after_of_writes_sub (Cert.ReferenceIdeal.Hand.stConv0 (F := Ideal)) (Rv4 m' c) Cert.ReferenceIdeal.Hand.stConv0_wsub (r := Cert.ReferenceIdeal.main_arg5) (by decide)).trans ((StableHlo.after_of_writes_sub (Cert.ReferenceIdeal.Hand.stMm0 (F := Ideal)) (Rv3 m' c) Cert.ReferenceIdeal.Hand.stMm0_wsub (r := Cert.ReferenceIdeal.main_arg5) (by decide)).trans ((StableHlo.after_of_writes_sub (Cert.ReferenceIdeal.Hand.stPrepB (F := Ideal)) (Rv2 m' c) Cert.ReferenceIdeal.Hand.stPrepB_wsub (r := Cert.ReferenceIdeal.main_arg5) (by decide)).trans ((StableHlo.after_of_writes_sub (Cert.ReferenceIdeal.Hand.stPrepCall (F := Ideal)) (Rv1 m' c) Cert.ReferenceIdeal.Hand.stPrepCall_wsub (r := Cert.ReferenceIdeal.main_arg5) (by decide)).trans (StableHlo.after_of_writes_sub (Cert.ReferenceIdeal.Hand.stPrepA (F := Ideal)) (Rv0 m' c) Cert.ReferenceIdeal.Hand.stPrepA_wsub (r := Cert.ReferenceIdeal.main_arg5) (by decide))))))))))).symm)) (ix1 q))

/-! ## The first normalisation and rectification -/

theorem st_v54 (hag : ArgsAgree m ρ m' c) : (Cert.KernelIdeal.Gen.W8 (F := Ideal) m ρ c) (Proc.devRef .tc Cert.KernelIdeal.main_v54) = (Rv11 m' c) (Proc.devRef .tc Cert.ReferenceIdeal.main_v66) := by
  refine (Cert.KernelIdeal.Gen.W8_arr m ρ c 5).trans (funext fun i => ?_)
  obtain ⟨r, q, rfl⟩ : ∃ (r : Fin 50000) (q : Fin 128), i = ix2 r q := ⟨i 0, i 1, eq_ix2 i⟩
  exact (Cert.KernelIdeal.Hand.bn1_apply (Cert.KernelIdeal.Gen.V7 (F := Ideal) m ρ) c r q).trans
    ((bnReluAt_congr
        (congrFun ((((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v46) (by decide)).trans (StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_v46) (by decide)))).trans ((st_v46 hag).trans (((StableHlo.after_of_writes_sub (Cert.ReferenceIdeal.Hand.stBn0Where (F := Ideal)) (Rv8 m' c) Cert.ReferenceIdeal.Hand.stBn0Where_wsub (r := Cert.ReferenceIdeal.main_v46) (by decide)).trans ((StableHlo.after_of_writes_sub (Cert.ReferenceIdeal.Hand.stBn0Var (F := Ideal)) (Rv7 m' c) Cert.ReferenceIdeal.Hand.stBn0Var_wsub (r := Cert.ReferenceIdeal.main_v46) (by decide)).trans ((StableHlo.after_of_writes_sub (Cert.ReferenceIdeal.Hand.stBn0A2 (F := Ideal)) (Rv6 m' c) Cert.ReferenceIdeal.Hand.stBn0A2_wsub (r := Cert.ReferenceIdeal.main_v46) (by decide)).trans (StableHlo.after_of_writes_sub (Cert.ReferenceIdeal.Hand.stBn0A1 (F := Ideal)) (Rv5 m' c) Cert.ReferenceIdeal.Hand.stBn0A1_wsub (r := Cert.ReferenceIdeal.main_v46) (by decide)))))).symm)) (ix2 r q))
        ((st_mean0 hag q).trans (congrFun (((StableHlo.after_of_writes_sub (Cert.ReferenceIdeal.Hand.stBn0Where (F := Ideal)) (Rv8 m' c) Cert.ReferenceIdeal.Hand.stBn0Where_wsub (r := Cert.ReferenceIdeal.main_v49) (by decide)).trans (StableHlo.after_of_writes_sub (Cert.ReferenceIdeal.Hand.stBn0Var (F := Ideal)) (Rv7 m' c) Cert.ReferenceIdeal.Hand.stBn0Var_wsub (r := Cert.ReferenceIdeal.main_v49) (by decide)))).symm (ix1 q)))
        (st_var0 hag q) (st_g0 hag q) (st_be0 hag q)).trans
      (Cert.ReferenceIdeal.Hand.refBn0_apply (Rv9 m' c) r q).symm)

/-! ## The second dense product -/

theorem st_v55 (hag : ArgsAgree m ρ m' c) : (Cert.KernelIdeal.Gen.W9 (F := Ideal) m ρ c) (Proc.devRef .tc Cert.KernelIdeal.main_v55) = (Rv12 m' c) (Proc.devRef .tc Cert.ReferenceIdeal.main_v67) := by
  have hx : (Cert.KernelIdeal.Gen.W8 (F := Ideal) m ρ c) (Proc.devRef .tc Cert.KernelIdeal.main_v54) = (Rv11 m' c) (Proc.devRef .tc Cert.ReferenceIdeal.main_v66) := st_v54 hag
  have hw : (Cert.KernelIdeal.Gen.W8 (F := Ideal) m ρ c) (Proc.devRef .tc Cert.KernelIdeal.main_arg6) = (Rv11 m' c) (Proc.devRef .tc Cert.ReferenceIdeal.main_arg6) := ((((Cert.KernelIdeal.Gen.W8_of_ne m ρ c Cert.KernelIdeal.main_arg6 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_arg6) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_arg6) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_arg6) (by decide)).trans ((Cert.KernelIdeal.Gen.W4_of_ne m ρ c Cert.KernelIdeal.main_arg6 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg6) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg6) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg6) (by decide)))))))))).trans (hag.a6.trans (((StableHlo.after_of_writes_sub (Cert.ReferenceIdeal.Hand.stBn0Relu (F := Ideal)) (Rv10 m' c) Cert.ReferenceIdeal.Hand.stBn0Relu_wsub (r := Cert.ReferenceIdeal.main_arg6) (by decide)).trans ((StableHlo.after_of_writes_sub (Cert.ReferenceIdeal.Hand.stBn0B (F := Ideal)) (Rv9 m' c) Cert.ReferenceIdeal.Hand.stBn0B_wsub (r := Cert.ReferenceIdeal.main_arg6) (by decide)).trans ((StableHlo.after_of_writes_sub (Cert.ReferenceIdeal.Hand.stBn0Where (F := Ideal)) (Rv8 m' c) Cert.ReferenceIdeal.Hand.stBn0Where_wsub (r := Cert.ReferenceIdeal.main_arg6) (by decide)).trans ((StableHlo.after_of_writes_sub (Cert.ReferenceIdeal.Hand.stBn0Var (F := Ideal)) (Rv7 m' c) Cert.ReferenceIdeal.Hand.stBn0Var_wsub (r := Cert.ReferenceIdeal.main_arg6) (by decide)).trans ((StableHlo.after_of_writes_sub (Cert.ReferenceIdeal.Hand.stBn0A2 (F := Ideal)) (Rv6 m' c) Cert.ReferenceIdeal.Hand.stBn0A2_wsub (r := Cert.ReferenceIdeal.main_arg6) (by decide)).trans ((StableHlo.after_of_writes_sub (Cert.ReferenceIdeal.Hand.stBn0A1 (F := Ideal)) (Rv5 m' c) Cert.ReferenceIdeal.Hand.stBn0A1_wsub (r := Cert.ReferenceIdeal.main_arg6) (by decide)).trans ((StableHlo.after_of_writes_sub (Cert.ReferenceIdeal.Hand.stConv0 (F := Ideal)) (Rv4 m' c) Cert.ReferenceIdeal.Hand.stConv0_wsub (r := Cert.ReferenceIdeal.main_arg6) (by decide)).trans ((StableHlo.after_of_writes_sub (Cert.ReferenceIdeal.Hand.stMm0 (F := Ideal)) (Rv3 m' c) Cert.ReferenceIdeal.Hand.stMm0_wsub (r := Cert.ReferenceIdeal.main_arg6) (by decide)).trans ((StableHlo.after_of_writes_sub (Cert.ReferenceIdeal.Hand.stPrepB (F := Ideal)) (Rv2 m' c) Cert.ReferenceIdeal.Hand.stPrepB_wsub (r := Cert.ReferenceIdeal.main_arg6) (by decide)).trans ((StableHlo.after_of_writes_sub (Cert.ReferenceIdeal.Hand.stPrepCall (F := Ideal)) (Rv1 m' c) Cert.ReferenceIdeal.Hand.stPrepCall_wsub (r := Cert.ReferenceIdeal.main_arg6) (by decide)).trans (StableHlo.after_of_writes_sub (Cert.ReferenceIdeal.Hand.stPrepA (F := Ideal)) (Rv0 m' c) Cert.ReferenceIdeal.Hand.stPrepA_wsub (r := Cert.ReferenceIdeal.main_arg6) (by decide))))))))))))).symm))
  refine (Cert.KernelIdeal.Gen.W9_arr m ρ c 2).trans (funext fun i => ?_)
  obtain ⟨r, q, rfl⟩ : ∃ (r : Fin 50000) (q : Fin 128), i = ix2 r q := ⟨i 0, i 1, eq_ix2 i⟩
  exact (Cert.KernelIdeal.Hand.mm2_apply (Cert.KernelIdeal.Gen.V8 (F := Ideal) m ρ) c r q).trans
    ((sum_mul_congr _ _ _ _ (fun k => congrFun hx (ix2 r k)) (fun k => congrFun hw (ix2 k q))).trans
      (Cert.ReferenceIdeal.Hand.refMm1_apply (Rv11 m' c) r q).symm)

/-! ## The second aggregation -/

theorem st_v71c (hag : ArgsAgree m ρ m' c) :
    after ((Cert.KernelIdeal.Gen.hostOps3 (F := Ideal)).take 19) (Cert.KernelIdeal.Gen.W9 (F := Ideal) m ρ c) (Proc.devRef .tc Cert.KernelIdeal.main_v71) = (Rv13 m' c) (Proc.devRef .tc Cert.ReferenceIdeal.main_v83) :=
  ((congrFun (preload5 Cert.KernelIdeal.main_v55 Cert.KernelIdeal.main_arg7 Cert.KernelIdeal.main_v3 Cert.KernelIdeal.main_v6 Cert.KernelIdeal.main_v29 ⟨by decide, rfl⟩ ⟨by decide, rfl⟩ ⟨by decide, rfl⟩ ⟨by decide, rfl⟩ ⟨by decide, rfl⟩
      ((Cert.KernelIdeal.Gen.hostOps3 (F := Ideal)).take 19) (Cert.KernelIdeal.Gen.W9 (F := Ideal) m ρ c) ((Rv12 m' c) (Proc.devRef .tc Cert.ReferenceIdeal.main_v67)) ((Rv12 m' c) (Proc.devRef .tc Cert.ReferenceIdeal.main_arg7)) ((Rv12 m' c) (Proc.devRef .tc Cert.ReferenceIdeal.main_v3)) ((Rv12 m' c) (Proc.devRef .tc Cert.ReferenceIdeal.main_v6)) ((Rv12 m' c) (Proc.devRef .tc Cert.ReferenceIdeal.main_v29))
      (st_v55 hag) ((((Cert.KernelIdeal.Gen.W9_of_ne m ρ c Cert.KernelIdeal.main_arg7 (by decide)).trans ((Cert.KernelIdeal.Gen.W8_of_ne m ρ c Cert.KernelIdeal.main_arg7 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_arg7) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_arg7) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_arg7) (by decide)).trans ((Cert.KernelIdeal.Gen.W4_of_ne m ρ c Cert.KernelIdeal.main_arg7 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg7) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg7) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg7) (by decide))))))))))).trans (hag.a7.trans (((StableHlo.after_of_writes_sub (Cert.ReferenceIdeal.Hand.stMm1 (F := Ideal)) (Rv11 m' c) Cert.ReferenceIdeal.Hand.stMm1_wsub (r := Cert.ReferenceIdeal.main_arg7) (by decide)).trans ((StableHlo.after_of_writes_sub (Cert.ReferenceIdeal.Hand.stBn0Relu (F := Ideal)) (Rv10 m' c) Cert.ReferenceIdeal.Hand.stBn0Relu_wsub (r := Cert.ReferenceIdeal.main_arg7) (by decide)).trans ((StableHlo.after_of_writes_sub (Cert.ReferenceIdeal.Hand.stBn0B (F := Ideal)) (Rv9 m' c) Cert.ReferenceIdeal.Hand.stBn0B_wsub (r := Cert.ReferenceIdeal.main_arg7) (by decide)).trans ((StableHlo.after_of_writes_sub (Cert.ReferenceIdeal.Hand.stBn0Where (F := Ideal)) (Rv8 m' c) Cert.ReferenceIdeal.Hand.stBn0Where_wsub (r := Cert.ReferenceIdeal.main_arg7) (by decide)).trans ((StableHlo.after_of_writes_sub (Cert.ReferenceIdeal.Hand.stBn0Var (F := Ideal)) (Rv7 m' c) Cert.ReferenceIdeal.Hand.stBn0Var_wsub (r := Cert.ReferenceIdeal.main_arg7) (by decide)).trans ((StableHlo.after_of_writes_sub (Cert.ReferenceIdeal.Hand.stBn0A2 (F := Ideal)) (Rv6 m' c) Cert.ReferenceIdeal.Hand.stBn0A2_wsub (r := Cert.ReferenceIdeal.main_arg7) (by decide)).trans ((StableHlo.after_of_writes_sub (Cert.ReferenceIdeal.Hand.stBn0A1 (F := Ideal)) (Rv5 m' c) Cert.ReferenceIdeal.Hand.stBn0A1_wsub (r := Cert.ReferenceIdeal.main_arg7) (by decide)).trans ((StableHlo.after_of_writes_sub (Cert.ReferenceIdeal.Hand.stConv0 (F := Ideal)) (Rv4 m' c) Cert.ReferenceIdeal.Hand.stConv0_wsub (r := Cert.ReferenceIdeal.main_arg7) (by decide)).trans ((StableHlo.after_of_writes_sub (Cert.ReferenceIdeal.Hand.stMm0 (F := Ideal)) (Rv3 m' c) Cert.ReferenceIdeal.Hand.stMm0_wsub (r := Cert.ReferenceIdeal.main_arg7) (by decide)).trans ((StableHlo.after_of_writes_sub (Cert.ReferenceIdeal.Hand.stPrepB (F := Ideal)) (Rv2 m' c) Cert.ReferenceIdeal.Hand.stPrepB_wsub (r := Cert.ReferenceIdeal.main_arg7) (by decide)).trans ((StableHlo.after_of_writes_sub (Cert.ReferenceIdeal.Hand.stPrepCall (F := Ideal)) (Rv1 m' c) Cert.ReferenceIdeal.Hand.stPrepCall_wsub (r := Cert.ReferenceIdeal.main_arg7) (by decide)).trans (StableHlo.after_of_writes_sub (Cert.ReferenceIdeal.Hand.stPrepA (F := Ideal)) (Rv0 m' c) Cert.ReferenceIdeal.Hand.stPrepA_wsub (r := Cert.ReferenceIdeal.main_arg7) (by decide)))))))))))))).symm))
      ((((Cert.KernelIdeal.Gen.W9_of_ne m ρ c Cert.KernelIdeal.main_v3 (by decide)).trans ((Cert.KernelIdeal.Gen.W8_of_ne m ρ c Cert.KernelIdeal.main_v3 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v3) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_v3) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_v3) (by decide)).trans (Cert.KernelIdeal.Gen.W4_of_ne m ρ c Cert.KernelIdeal.main_v3 (by decide)))))))).trans ((st_v3 hag).trans (((StableHlo.after_of_writes_sub (Cert.ReferenceIdeal.Hand.stMm1 (F := Ideal)) (Rv11 m' c) Cert.ReferenceIdeal.Hand.stMm1_wsub (r := Cert.ReferenceIdeal.main_v3) (by decide)).trans ((StableHlo.after_of_writes_sub (Cert.ReferenceIdeal.Hand.stBn0Relu (F := Ideal)) (Rv10 m' c) Cert.ReferenceIdeal.Hand.stBn0Relu_wsub (r := Cert.ReferenceIdeal.main_v3) (by decide)).trans ((StableHlo.after_of_writes_sub (Cert.ReferenceIdeal.Hand.stBn0B (F := Ideal)) (Rv9 m' c) Cert.ReferenceIdeal.Hand.stBn0B_wsub (r := Cert.ReferenceIdeal.main_v3) (by decide)).trans ((StableHlo.after_of_writes_sub (Cert.ReferenceIdeal.Hand.stBn0Where (F := Ideal)) (Rv8 m' c) Cert.ReferenceIdeal.Hand.stBn0Where_wsub (r := Cert.ReferenceIdeal.main_v3) (by decide)).trans ((StableHlo.after_of_writes_sub (Cert.ReferenceIdeal.Hand.stBn0Var (F := Ideal)) (Rv7 m' c) Cert.ReferenceIdeal.Hand.stBn0Var_wsub (r := Cert.ReferenceIdeal.main_v3) (by decide)).trans ((StableHlo.after_of_writes_sub (Cert.ReferenceIdeal.Hand.stBn0A2 (F := Ideal)) (Rv6 m' c) Cert.ReferenceIdeal.Hand.stBn0A2_wsub (r := Cert.ReferenceIdeal.main_v3) (by decide)).trans ((StableHlo.after_of_writes_sub (Cert.ReferenceIdeal.Hand.stBn0A1 (F := Ideal)) (Rv5 m' c) Cert.ReferenceIdeal.Hand.stBn0A1_wsub (r := Cert.ReferenceIdeal.main_v3) (by decide)).trans ((StableHlo.after_of_writes_sub (Cert.ReferenceIdeal.Hand.stConv0 (F := Ideal)) (Rv4 m' c) Cert.ReferenceIdeal.Hand.stConv0_wsub (r := Cert.ReferenceIdeal.main_v3) (by decide)).trans (StableHlo.after_of_writes_sub (Cert.ReferenceIdeal.Hand.stMm0 (F := Ideal)) (Rv3 m' c) Cert.ReferenceIdeal.Hand.stMm0_wsub (r := Cert.ReferenceIdeal.main_v3) (by decide))))))))))).symm))
      ((((Cert.KernelIdeal.Gen.W9_of_ne m ρ c Cert.KernelIdeal.main_v6 (by decide)).trans ((Cert.KernelIdeal.Gen.W8_of_ne m ρ c Cert.KernelIdeal.main_v6 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v6) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_v6) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_v6) (by decide)).trans (Cert.KernelIdeal.Gen.W4_of_ne m ρ c Cert.KernelIdeal.main_v6 (by decide)))))))).trans ((st_v6 hag).trans (((StableHlo.after_of_writes_sub (Cert.ReferenceIdeal.Hand.stMm1 (F := Ideal)) (Rv11 m' c) Cert.ReferenceIdeal.Hand.stMm1_wsub (r := Cert.ReferenceIdeal.main_v6) (by decide)).trans ((StableHlo.after_of_writes_sub (Cert.ReferenceIdeal.Hand.stBn0Relu (F := Ideal)) (Rv10 m' c) Cert.ReferenceIdeal.Hand.stBn0Relu_wsub (r := Cert.ReferenceIdeal.main_v6) (by decide)).trans ((StableHlo.after_of_writes_sub (Cert.ReferenceIdeal.Hand.stBn0B (F := Ideal)) (Rv9 m' c) Cert.ReferenceIdeal.Hand.stBn0B_wsub (r := Cert.ReferenceIdeal.main_v6) (by decide)).trans ((StableHlo.after_of_writes_sub (Cert.ReferenceIdeal.Hand.stBn0Where (F := Ideal)) (Rv8 m' c) Cert.ReferenceIdeal.Hand.stBn0Where_wsub (r := Cert.ReferenceIdeal.main_v6) (by decide)).trans ((StableHlo.after_of_writes_sub (Cert.ReferenceIdeal.Hand.stBn0Var (F := Ideal)) (Rv7 m' c) Cert.ReferenceIdeal.Hand.stBn0Var_wsub (r := Cert.ReferenceIdeal.main_v6) (by decide)).trans ((StableHlo.after_of_writes_sub (Cert.ReferenceIdeal.Hand.stBn0A2 (F := Ideal)) (Rv6 m' c) Cert.ReferenceIdeal.Hand.stBn0A2_wsub (r := Cert.ReferenceIdeal.main_v6) (by decide)).trans ((StableHlo.after_of_writes_sub (Cert.ReferenceIdeal.Hand.stBn0A1 (F := Ideal)) (Rv5 m' c) Cert.ReferenceIdeal.Hand.stBn0A1_wsub (r := Cert.ReferenceIdeal.main_v6) (by decide)).trans ((StableHlo.after_of_writes_sub (Cert.ReferenceIdeal.Hand.stConv0 (F := Ideal)) (Rv4 m' c) Cert.ReferenceIdeal.Hand.stConv0_wsub (r := Cert.ReferenceIdeal.main_v6) (by decide)).trans (StableHlo.after_of_writes_sub (Cert.ReferenceIdeal.Hand.stMm0 (F := Ideal)) (Rv3 m' c) Cert.ReferenceIdeal.Hand.stMm0_wsub (r := Cert.ReferenceIdeal.main_v6) (by decide))))))))))).symm))
      ((((Cert.KernelIdeal.Gen.W9_of_ne m ρ c Cert.KernelIdeal.main_v29 (by decide)).trans ((Cert.KernelIdeal.Gen.W8_of_ne m ρ c Cert.KernelIdeal.main_v29 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v29) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_v29) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_v29) (by decide)).trans (Cert.KernelIdeal.Gen.W4_of_ne m ρ c Cert.KernelIdeal.main_v29 (by decide)))))))).trans ((st_v29 hag).trans (((StableHlo.after_of_writes_sub (Cert.ReferenceIdeal.Hand.stMm1 (F := Ideal)) (Rv11 m' c) Cert.ReferenceIdeal.Hand.stMm1_wsub (r := Cert.ReferenceIdeal.main_v29) (by decide)).trans ((StableHlo.after_of_writes_sub (Cert.ReferenceIdeal.Hand.stBn0Relu (F := Ideal)) (Rv10 m' c) Cert.ReferenceIdeal.Hand.stBn0Relu_wsub (r := Cert.ReferenceIdeal.main_v29) (by decide)).trans ((StableHlo.after_of_writes_sub (Cert.ReferenceIdeal.Hand.stBn0B (F := Ideal)) (Rv9 m' c) Cert.ReferenceIdeal.Hand.stBn0B_wsub (r := Cert.ReferenceIdeal.main_v29) (by decide)).trans ((StableHlo.after_of_writes_sub (Cert.ReferenceIdeal.Hand.stBn0Where (F := Ideal)) (Rv8 m' c) Cert.ReferenceIdeal.Hand.stBn0Where_wsub (r := Cert.ReferenceIdeal.main_v29) (by decide)).trans ((StableHlo.after_of_writes_sub (Cert.ReferenceIdeal.Hand.stBn0Var (F := Ideal)) (Rv7 m' c) Cert.ReferenceIdeal.Hand.stBn0Var_wsub (r := Cert.ReferenceIdeal.main_v29) (by decide)).trans ((StableHlo.after_of_writes_sub (Cert.ReferenceIdeal.Hand.stBn0A2 (F := Ideal)) (Rv6 m' c) Cert.ReferenceIdeal.Hand.stBn0A2_wsub (r := Cert.ReferenceIdeal.main_v29) (by decide)).trans ((StableHlo.after_of_writes_sub (Cert.ReferenceIdeal.Hand.stBn0A1 (F := Ideal)) (Rv5 m' c) Cert.ReferenceIdeal.Hand.stBn0A1_wsub (r := Cert.ReferenceIdeal.main_v29) (by decide)).trans ((StableHlo.after_of_writes_sub (Cert.ReferenceIdeal.Hand.stConv0 (F := Ideal)) (Rv4 m' c) Cert.ReferenceIdeal.Hand.stConv0_wsub (r := Cert.ReferenceIdeal.main_v29) (by decide)).trans (StableHlo.after_of_writes_sub (Cert.ReferenceIdeal.Hand.stMm0 (F := Ideal)) (Rv3 m' c) Cert.ReferenceIdeal.Hand.stMm0_wsub (r := Cert.ReferenceIdeal.main_v29) (by decide))))))))))).symm))) (Proc.devRef .tc Cert.KernelIdeal.main_v71)).symm.trans
    ((conv1 (Cert.KernelIdeal.Gen.W9 (F := Ideal) m ρ c) (Rv12 m' c) ((Rv12 m' c) (Proc.devRef .tc Cert.ReferenceIdeal.main_v67)) ((Rv12 m' c) (Proc.devRef .tc Cert.ReferenceIdeal.main_arg7)) ((Rv12 m' c) (Proc.devRef .tc Cert.ReferenceIdeal.main_v3)) ((Rv12 m' c) (Proc.devRef .tc Cert.ReferenceIdeal.main_v6)) ((Rv12 m' c) (Proc.devRef .tc Cert.ReferenceIdeal.main_v29))).trans
      (congrFun (preload5 Cert.ReferenceIdeal.main_v67 Cert.ReferenceIdeal.main_arg7 Cert.ReferenceIdeal.main_v3 Cert.ReferenceIdeal.main_v6 Cert.ReferenceIdeal.main_v29 ⟨by decide, rfl⟩ ⟨by decide, rfl⟩ ⟨by decide, rfl⟩ ⟨by decide, rfl⟩ ⟨by decide, rfl⟩
        (Cert.ReferenceIdeal.Hand.stConv1 (F := Ideal)) (Rv12 m' c) _ _ _ _ _ rfl rfl rfl rfl rfl) (Proc.devRef .tc Cert.ReferenceIdeal.main_v83))))

/-- The stretch cut after the aggregation. -/
theorem w10_split : (Cert.KernelIdeal.Gen.W10 (F := Ideal) m ρ c) = after ((Cert.KernelIdeal.Gen.hostOps3 (F := Ideal)).drop 19) (after ((Cert.KernelIdeal.Gen.hostOps3 (F := Ideal)).take 19) (Cert.KernelIdeal.Gen.W9 (F := Ideal) m ρ c)) :=
  (congrArg (fun L => after L (Cert.KernelIdeal.Gen.W9 (F := Ideal) m ρ c)) (List.take_append_drop 19 (Cert.KernelIdeal.Gen.hostOps3 (F := Ideal))).symm).trans
    (Cert.KernelIdeal.Hand.after_append _ _ _)

theorem st_v71 (hag : ArgsAgree m ρ m' c) : (Cert.KernelIdeal.Gen.W10 (F := Ideal) m ρ c) (Proc.devRef .tc Cert.KernelIdeal.main_v71) = (Rv13 m' c) (Proc.devRef .tc Cert.ReferenceIdeal.main_v83) :=
  (congrFun w10_split (Proc.devRef .tc Cert.KernelIdeal.main_v71)).trans
    ((StableHlo.after_of_writes_sub ((Cert.KernelIdeal.Gen.hostOps3 (F := Ideal)).drop 19) _ Cert.KernelIdeal.Hand.hostOps3_drop_wsub (r := Cert.KernelIdeal.main_v71) (by decide)).trans (st_v71c hag))

/-! ## The column statistics of layer 1 -/

theorem kc_1 (W : KV) : after (Cert.KernelIdeal.Gen.hostOps3 (F := Ideal)) W (Proc.devRef .tc Cert.KernelIdeal.main_c_17) = constantI Cert.KernelIdeal.S_ 32 0#32 := by
  after_results_simp

theorem rc_1 (V : RV) : after (Cert.ReferenceIdeal.Hand.stBn1A (F := Ideal)) V (Proc.devRef .tc Cert.ReferenceIdeal.main_c_18) = constantI Cert.ReferenceIdeal.S_ 32 0#32 := by
  after_results_simp

theorem st_mean1 (hag : ArgsAgree m ρ m' c) (q : Fin 128) :
    ((Cert.KernelIdeal.Gen.W12 (F := Ideal) m ρ c) (Proc.devRef .tc Cert.KernelIdeal.main_v75) : Cert.KernelIdeal.S1x128.Idx → EReal) (ix2 0 q) = ((Rv14 m' c) (Proc.devRef .tc Cert.ReferenceIdeal.main_v86) : Cert.ReferenceIdeal.S128.Idx → EReal) (ix1 q) :=
  (congrFun ((((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_v75) (by decide)).trans (StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_v75) (by decide)))).trans ((congrFun w10_split (Proc.devRef .tc Cert.KernelIdeal.main_v75)).trans
      (congrFun (preload Cert.KernelIdeal.main_v71 ⟨by decide, rfl⟩ ((Cert.KernelIdeal.Gen.hostOps3 (F := Ideal)).drop 19) (after ((Cert.KernelIdeal.Gen.hostOps3 (F := Ideal)).take 19) (Cert.KernelIdeal.Gen.W9 (F := Ideal) m ρ c)) ((Rv13 m' c) (Proc.devRef .tc Cert.ReferenceIdeal.main_v83)) (st_v71c hag)) (Proc.devRef .tc Cert.KernelIdeal.main_v75)).symm)) (ix2 0 q)).trans
    ((mean1 (after ((Cert.KernelIdeal.Gen.hostOps3 (F := Ideal)).take 19) (Cert.KernelIdeal.Gen.W9 (F := Ideal) m ρ c)) (Rv13 m' c) ((Rv13 m' c) (Proc.devRef .tc Cert.ReferenceIdeal.main_v83)) q).trans
      (congrFun (congrFun (preload Cert.ReferenceIdeal.main_v83 ⟨by decide, rfl⟩ (Cert.ReferenceIdeal.Hand.stBn1A (F := Ideal)) (Rv13 m' c) _ rfl) (Proc.devRef .tc Cert.ReferenceIdeal.main_v86)) (ix1 q)))

theorem st_var1 (hag : ArgsAgree m ρ m' c) (q : Fin 128) :
    ((Cert.KernelIdeal.Gen.W12 (F := Ideal) m ρ c) (Proc.devRef .tc Cert.KernelIdeal.main_v76) : Cert.KernelIdeal.S1x128.Idx → EReal) (ix2 0 q) = ((Rv16 m' c) (Proc.devRef .tc Cert.ReferenceIdeal.main_v87) : Cert.ReferenceIdeal.S128.Idx → EReal) (ix1 q) :=
  (congrFun (((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_v76) (by decide))).trans
      (congrFun (preload2 Cert.KernelIdeal.main_v71 Cert.KernelIdeal.main_c_17 ⟨by decide, rfl⟩ ⟨by decide, rfl⟩ (Cert.KernelIdeal.Gen.hostOps3_1 (F := Ideal)) (Cert.KernelIdeal.Gen.W10 (F := Ideal) m ρ c) ((Rv14 m' c) (Proc.devRef .tc Cert.ReferenceIdeal.main_v83)) ((Rv14 m' c) (Proc.devRef .tc Cert.ReferenceIdeal.main_c_18))
        ((st_v71 hag).trans ((StableHlo.after_of_writes_sub (Cert.ReferenceIdeal.Hand.stBn1A (F := Ideal)) (Rv13 m' c) Cert.ReferenceIdeal.Hand.stBn1A_wsub (r := Cert.ReferenceIdeal.main_v83) (by decide))).symm) ((kc_1 (Cert.KernelIdeal.Gen.W9 (F := Ideal) m ρ c)).trans (rc_1 (Rv13 m' c)).symm)) (Proc.devRef .tc Cert.KernelIdeal.main_v76)).symm) (ix2 0 q)).trans
    ((var1 (Cert.KernelIdeal.Gen.W10 (F := Ideal) m ρ c) (Rv14 m' c) ((Rv14 m' c) (Proc.devRef .tc Cert.ReferenceIdeal.main_v83)) ((Rv14 m' c) (Proc.devRef .tc Cert.ReferenceIdeal.main_c_18)) q).trans
      (congrFun (congrFun ((preload2 Cert.ReferenceIdeal.main_v83 Cert.ReferenceIdeal.main_c_18 ⟨by decide, rfl⟩ ⟨by decide, rfl⟩ ((Cert.ReferenceIdeal.Hand.stBn1Var (F := Ideal)) ++ (Cert.ReferenceIdeal.Hand.stBn1Where (F := Ideal))) (Rv14 m' c) _ _ rfl rfl).trans
        (Cert.ReferenceIdeal.Hand.after_append _ _ _)) (Proc.devRef .tc Cert.ReferenceIdeal.main_v87)) (ix1 q)))

theorem st_g1 (hag : ArgsAgree m ρ m' c) (q : Fin 128) :
    ((Cert.KernelIdeal.Gen.W12 (F := Ideal) m ρ c) (Proc.devRef .tc Cert.KernelIdeal.main_v77) : Cert.KernelIdeal.S1x128.Idx → EReal) (ix2 0 q) = ((Rv16 m' c) (Proc.devRef .tc Cert.ReferenceIdeal.main_arg8) : Cert.ReferenceIdeal.S128.Idx → EReal) (ix1 q) :=
  (Cert.KernelIdeal.Hand.reshape77_apply (Cert.KernelIdeal.Gen.W11 (F := Ideal) m ρ c) q).trans (congrFun ((((StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_arg8) (by decide)).trans ((StableHlo.after_of_writes_sub (Cert.KernelIdeal.Gen.hostOps3 (F := Ideal)) (Cert.KernelIdeal.Gen.W9 (F := Ideal) m ρ c) Cert.KernelIdeal.Hand.hostOps3_wsub (r := Cert.KernelIdeal.main_arg8) (by decide)).trans ((Cert.KernelIdeal.Gen.W9_of_ne m ρ c Cert.KernelIdeal.main_arg8 (by decide)).trans ((Cert.KernelIdeal.Gen.W8_of_ne m ρ c Cert.KernelIdeal.main_arg8 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_arg8) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_arg8) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_arg8) (by decide)).trans ((Cert.KernelIdeal.Gen.W4_of_ne m ρ c Cert.KernelIdeal.main_arg8 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg8) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg8) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg8) (by decide))))))))))))).trans (hag.a8.trans (((StableHlo.after_of_writes_sub (Cert.ReferenceIdeal.Hand.stBn1Where (F := Ideal)) (Rv15 m' c) Cert.ReferenceIdeal.Hand.stBn1Where_wsub (r := Cert.ReferenceIdeal.main_arg8) (by decide)).trans ((StableHlo.after_of_writes_sub (Cert.ReferenceIdeal.Hand.stBn1Var (F := Ideal)) (Rv14 m' c) Cert.ReferenceIdeal.Hand.stBn1Var_wsub (r := Cert.ReferenceIdeal.main_arg8) (by decide)).trans ((StableHlo.after_of_writes_sub (Cert.ReferenceIdeal.Hand.stBn1A (F := Ideal)) (Rv13 m' c) Cert.ReferenceIdeal.Hand.stBn1A_wsub (r := Cert.ReferenceIdeal.main_arg8) (by decide)).trans ((StableHlo.after_of_writes_sub (Cert.ReferenceIdeal.Hand.stConv1 (F := Ideal)) (Rv12 m' c) Cert.ReferenceIdeal.Hand.stConv1_wsub (r := Cert.ReferenceIdeal.main_arg8) (by decide)).trans ((StableHlo.after_of_writes_sub (Cert.ReferenceIdeal.Hand.stMm1 (F := Ideal)) (Rv11 m' c) Cert.ReferenceIdeal.Hand.stMm1_wsub (r := Cert.ReferenceIdeal.main_arg8) (by decide)).trans ((StableHlo.after_of_writes_sub (Cert.ReferenceIdeal.Hand.stBn0Relu (F := Ideal)) (Rv10 m' c) Cert.ReferenceIdeal.Hand.stBn0Relu_wsub (r := Cert.ReferenceIdeal.main_arg8) (by decide)).trans ((StableHlo.after_of_writes_sub (Cert.ReferenceIdeal.Hand.stBn0B (F := Ideal)) (Rv9 m' c) Cert.ReferenceIdeal.Hand.stBn0B_wsub (r := Cert.ReferenceIdeal.main_arg8) (by decide)).trans ((StableHlo.after_of_writes_sub (Cert.ReferenceIdeal.Hand.stBn0Where (F := Ideal)) (Rv8 m' c) Cert.ReferenceIdeal.Hand.stBn0Where_wsub (r := Cert.ReferenceIdeal.main_arg8) (by decide)).trans ((StableHlo.after_of_writes_sub (Cert.ReferenceIdeal.Hand.stBn0Var (F := Ideal)) (Rv7 m' c) Cert.ReferenceIdeal.Hand.stBn0Var_wsub (r := Cert.ReferenceIdeal.main_arg8) (by decide)).trans ((StableHlo.after_of_writes_sub (Cert.ReferenceIdeal.Hand.stBn0A2 (F := Ideal)) (Rv6 m' c) Cert.ReferenceIdeal.Hand.stBn0A2_wsub (r := Cert.ReferenceIdeal.main_arg8) (by decide)).trans ((StableHlo.after_of_writes_sub (Cert.ReferenceIdeal.Hand.stBn0A1 (F := Ideal)) (Rv5 m' c) Cert.ReferenceIdeal.Hand.stBn0A1_wsub (r := Cert.ReferenceIdeal.main_arg8) (by decide)).trans ((StableHlo.after_of_writes_sub (Cert.ReferenceIdeal.Hand.stConv0 (F := Ideal)) (Rv4 m' c) Cert.ReferenceIdeal.Hand.stConv0_wsub (r := Cert.ReferenceIdeal.main_arg8) (by decide)).trans ((StableHlo.after_of_writes_sub (Cert.ReferenceIdeal.Hand.stMm0 (F := Ideal)) (Rv3 m' c) Cert.ReferenceIdeal.Hand.stMm0_wsub (r := Cert.ReferenceIdeal.main_arg8) (by decide)).trans ((StableHlo.after_of_writes_sub (Cert.ReferenceIdeal.Hand.stPrepB (F := Ideal)) (Rv2 m' c) Cert.ReferenceIdeal.Hand.stPrepB_wsub (r := Cert.ReferenceIdeal.main_arg8) (by decide)).trans ((StableHlo.after_of_writes_sub (Cert.ReferenceIdeal.Hand.stPrepCall (F := Ideal)) (Rv1 m' c) Cert.ReferenceIdeal.Hand.stPrepCall_wsub (r := Cert.ReferenceIdeal.main_arg8) (by decide)).trans (StableHlo.after_of_writes_sub (Cert.ReferenceIdeal.Hand.stPrepA (F := Ideal)) (Rv0 m' c) Cert.ReferenceIdeal.Hand.stPrepA_wsub (r := Cert.ReferenceIdeal.main_arg8) (by decide)))))))))))))))))).symm)) (ix1 q))

theorem st_be1 (hag : ArgsAgree m ρ m' c) (q : Fin 128) :
    ((Cert.KernelIdeal.Gen.W12 (F := Ideal) m ρ c) (Proc.devRef .tc Cert.KernelIdeal.main_v78) : Cert.KernelIdeal.S1x128.Idx → EReal) (ix2 0 q) = ((Rv16 m' c) (Proc.devRef .tc Cert.ReferenceIdeal.main_arg9) : Cert.ReferenceIdeal.S128.Idx → EReal) (ix1 q) :=
  (Cert.KernelIdeal.Hand.reshape78_apply (Cert.KernelIdeal.Gen.W11 (F := Ideal) m ρ c) q).trans (congrFun ((((StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_arg9) (by decide)).trans ((StableHlo.after_of_writes_sub (Cert.KernelIdeal.Gen.hostOps3 (F := Ideal)) (Cert.KernelIdeal.Gen.W9 (F := Ideal) m ρ c) Cert.KernelIdeal.Hand.hostOps3_wsub (r := Cert.KernelIdeal.main_arg9) (by decide)).trans ((Cert.KernelIdeal.Gen.W9_of_ne m ρ c Cert.KernelIdeal.main_arg9 (by decide)).trans ((Cert.KernelIdeal.Gen.W8_of_ne m ρ c Cert.KernelIdeal.main_arg9 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_arg9) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_arg9) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_arg9) (by decide)).trans ((Cert.KernelIdeal.Gen.W4_of_ne m ρ c Cert.KernelIdeal.main_arg9 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg9) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg9) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg9) (by decide))))))))))))).trans (hag.a9.trans (((StableHlo.after_of_writes_sub (Cert.ReferenceIdeal.Hand.stBn1Where (F := Ideal)) (Rv15 m' c) Cert.ReferenceIdeal.Hand.stBn1Where_wsub (r := Cert.ReferenceIdeal.main_arg9) (by decide)).trans ((StableHlo.after_of_writes_sub (Cert.ReferenceIdeal.Hand.stBn1Var (F := Ideal)) (Rv14 m' c) Cert.ReferenceIdeal.Hand.stBn1Var_wsub (r := Cert.ReferenceIdeal.main_arg9) (by decide)).trans ((StableHlo.after_of_writes_sub (Cert.ReferenceIdeal.Hand.stBn1A (F := Ideal)) (Rv13 m' c) Cert.ReferenceIdeal.Hand.stBn1A_wsub (r := Cert.ReferenceIdeal.main_arg9) (by decide)).trans ((StableHlo.after_of_writes_sub (Cert.ReferenceIdeal.Hand.stConv1 (F := Ideal)) (Rv12 m' c) Cert.ReferenceIdeal.Hand.stConv1_wsub (r := Cert.ReferenceIdeal.main_arg9) (by decide)).trans ((StableHlo.after_of_writes_sub (Cert.ReferenceIdeal.Hand.stMm1 (F := Ideal)) (Rv11 m' c) Cert.ReferenceIdeal.Hand.stMm1_wsub (r := Cert.ReferenceIdeal.main_arg9) (by decide)).trans ((StableHlo.after_of_writes_sub (Cert.ReferenceIdeal.Hand.stBn0Relu (F := Ideal)) (Rv10 m' c) Cert.ReferenceIdeal.Hand.stBn0Relu_wsub (r := Cert.ReferenceIdeal.main_arg9) (by decide)).trans ((StableHlo.after_of_writes_sub (Cert.ReferenceIdeal.Hand.stBn0B (F := Ideal)) (Rv9 m' c) Cert.ReferenceIdeal.Hand.stBn0B_wsub (r := Cert.ReferenceIdeal.main_arg9) (by decide)).trans ((StableHlo.after_of_writes_sub (Cert.ReferenceIdeal.Hand.stBn0Where (F := Ideal)) (Rv8 m' c) Cert.ReferenceIdeal.Hand.stBn0Where_wsub (r := Cert.ReferenceIdeal.main_arg9) (by decide)).trans ((StableHlo.after_of_writes_sub (Cert.ReferenceIdeal.Hand.stBn0Var (F := Ideal)) (Rv7 m' c) Cert.ReferenceIdeal.Hand.stBn0Var_wsub (r := Cert.ReferenceIdeal.main_arg9) (by decide)).trans ((StableHlo.after_of_writes_sub (Cert.ReferenceIdeal.Hand.stBn0A2 (F := Ideal)) (Rv6 m' c) Cert.ReferenceIdeal.Hand.stBn0A2_wsub (r := Cert.ReferenceIdeal.main_arg9) (by decide)).trans ((StableHlo.after_of_writes_sub (Cert.ReferenceIdeal.Hand.stBn0A1 (F := Ideal)) (Rv5 m' c) Cert.ReferenceIdeal.Hand.stBn0A1_wsub (r := Cert.ReferenceIdeal.main_arg9) (by decide)).trans ((StableHlo.after_of_writes_sub (Cert.ReferenceIdeal.Hand.stConv0 (F := Ideal)) (Rv4 m' c) Cert.ReferenceIdeal.Hand.stConv0_wsub (r := Cert.ReferenceIdeal.main_arg9) (by decide)).trans ((StableHlo.after_of_writes_sub (Cert.ReferenceIdeal.Hand.stMm0 (F := Ideal)) (Rv3 m' c) Cert.ReferenceIdeal.Hand.stMm0_wsub (r := Cert.ReferenceIdeal.main_arg9) (by decide)).trans ((StableHlo.after_of_writes_sub (Cert.ReferenceIdeal.Hand.stPrepB (F := Ideal)) (Rv2 m' c) Cert.ReferenceIdeal.Hand.stPrepB_wsub (r := Cert.ReferenceIdeal.main_arg9) (by decide)).trans ((StableHlo.after_of_writes_sub (Cert.ReferenceIdeal.Hand.stPrepCall (F := Ideal)) (Rv1 m' c) Cert.ReferenceIdeal.Hand.stPrepCall_wsub (r := Cert.ReferenceIdeal.main_arg9) (by decide)).trans (StableHlo.after_of_writes_sub (Cert.ReferenceIdeal.Hand.stPrepA (F := Ideal)) (Rv0 m' c) Cert.ReferenceIdeal.Hand.stPrepA_wsub (r := Cert.ReferenceIdeal.main_arg9) (by decide)))))))))))))))))).symm)) (ix1 q))

/-! ## The second normalisation, the skip connection and the rectification -/

/-- The first activation is still in its buffer when the second normalisation reads it: region 2 only reads it. -/
theorem st_skip (hag : ArgsAgree m ρ m' c) : (Cert.KernelIdeal.Gen.W12 (F := Ideal) m ρ c) (Proc.devRef .tc Cert.KernelIdeal.main_v54) = (Rv16 m' c) (Proc.devRef .tc Cert.ReferenceIdeal.main_v66) :=
  (((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_v54) (by decide)).trans ((StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_v54) (by decide)).trans (StableHlo.after_of_writes_sub (Cert.KernelIdeal.Gen.hostOps3 (F := Ideal)) (Cert.KernelIdeal.Gen.W9 (F := Ideal) m ρ c) Cert.KernelIdeal.Hand.hostOps3_wsub (r := Cert.KernelIdeal.main_v54) (by decide))))).trans (((Cert.KernelIdeal.Gen.W9_arr m ρ c 0).trans (((Cert.KernelIdeal.Gen.dat2 (Cert.KernelIdeal.Gen.V8 (F := Ideal) m ρ) c).arrAt_in 0 rfl _).trans (Cert.KernelIdeal.Gen.A_eq2 (Cert.KernelIdeal.Gen.V8 (F := Ideal) m ρ) c 0))).trans
    ((st_v54 hag).trans (((StableHlo.after_of_writes_sub (Cert.ReferenceIdeal.Hand.stBn1Where (F := Ideal)) (Rv15 m' c) Cert.ReferenceIdeal.Hand.stBn1Where_wsub (r := Cert.ReferenceIdeal.main_v66) (by decide)).trans ((StableHlo.after_of_writes_sub (Cert.ReferenceIdeal.Hand.stBn1Var (F := Ideal)) (Rv14 m' c) Cert.ReferenceIdeal.Hand.stBn1Var_wsub (r := Cert.ReferenceIdeal.main_v66) (by decide)).trans ((StableHlo.after_of_writes_sub (Cert.ReferenceIdeal.Hand.stBn1A (F := Ideal)) (Rv13 m' c) Cert.ReferenceIdeal.Hand.stBn1A_wsub (r := Cert.ReferenceIdeal.main_v66) (by decide)).trans ((StableHlo.after_of_writes_sub (Cert.ReferenceIdeal.Hand.stConv1 (F := Ideal)) (Rv12 m' c) Cert.ReferenceIdeal.Hand.stConv1_wsub (r := Cert.ReferenceIdeal.main_v66) (by decide)).trans (StableHlo.after_of_writes_sub (Cert.ReferenceIdeal.Hand.stMm1 (F := Ideal)) (Rv11 m' c) Cert.ReferenceIdeal.Hand.stMm1_wsub (r := Cert.ReferenceIdeal.main_v66) (by decide))))))).symm))

theorem st_v79 (hag : ArgsAgree m ρ m' c) : (Cert.KernelIdeal.Gen.W13 (F := Ideal) m ρ c) (Proc.devRef .tc Cert.KernelIdeal.main_v79) = (Rv19 m' c) (Proc.devRef .tc Cert.ReferenceIdeal.main_v106) := by
  refine (Cert.KernelIdeal.Gen.W13_arr m ρ c 6).trans (funext fun i => ?_)
  obtain ⟨r, q, rfl⟩ : ∃ (r : Fin 50000) (q : Fin 128), i = ix2 r q := ⟨i 0, i 1, eq_ix2 i⟩
  exact (Cert.KernelIdeal.Hand.bn3_apply (Cert.KernelIdeal.Gen.V12 (F := Ideal) m ρ) c r q).trans
    ((bnSkipReluAt_congr
        (congrFun ((((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_v71) (by decide)).trans (StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_v71) (by decide)))).trans ((st_v71 hag).trans (((StableHlo.after_of_writes_sub (Cert.ReferenceIdeal.Hand.stBn1Where (F := Ideal)) (Rv15 m' c) Cert.ReferenceIdeal.Hand.stBn1Where_wsub (r := Cert.ReferenceIdeal.main_v83) (by decide)).trans ((StableHlo.after_of_writes_sub (Cert.ReferenceIdeal.Hand.stBn1Var (F := Ideal)) (Rv14 m' c) Cert.ReferenceIdeal.Hand.stBn1Var_wsub (r := Cert.ReferenceIdeal.main_v83) (by decide)).trans (StableHlo.after_of_writes_sub (Cert.ReferenceIdeal.Hand.stBn1A (F := Ideal)) (Rv13 m' c) Cert.ReferenceIdeal.Hand.stBn1A_wsub (r := Cert.ReferenceIdeal.main_v83) (by decide))))).symm)) (ix2 r q))
        ((st_mean1 hag q).trans (congrFun (((StableHlo.after_of_writes_sub (Cert.ReferenceIdeal.Hand.stBn1Where (F := Ideal)) (Rv15 m' c) Cert.ReferenceIdeal.Hand.stBn1Where_wsub (r := Cert.ReferenceIdeal.main_v86) (by decide)).trans (StableHlo.after_of_writes_sub (Cert.ReferenceIdeal.Hand.stBn1Var (F := Ideal)) (Rv14 m' c) Cert.ReferenceIdeal.Hand.stBn1Var_wsub (r := Cert.ReferenceIdeal.main_v86) (by decide)))).symm (ix1 q)))
        (st_var1 hag q) (st_g1 hag q) (st_be1 hag q)
        (congrFun (st_skip hag) (ix2 r q))).trans
      ((Cert.ReferenceIdeal.Hand.refBn1_apply (Rv16 m' c) r q).symm.trans
        (congrFun (congrArg (fun V : RV => after (Cert.ReferenceIdeal.Hand.stBn1Relu (F := Ideal)) V (Proc.devRef .tc Cert.ReferenceIdeal.main_v106)) (Cert.ReferenceIdeal.Hand.after_append (Cert.ReferenceIdeal.Hand.stBn1B1 (F := Ideal)) (Cert.ReferenceIdeal.Hand.stBn1B2 (F := Ideal)) (Rv16 m' c))) (ix2 r q))))

/-! ## The third dense product -/

theorem st_v80 (hag : ArgsAgree m ρ m' c) : (Cert.KernelIdeal.Gen.W14 (F := Ideal) m ρ c) (Proc.devRef .tc Cert.KernelIdeal.main_v80) = (Rv20 m' c) (Proc.devRef .tc Cert.ReferenceIdeal.main_v107) := by
  have hx : (Cert.KernelIdeal.Gen.W13 (F := Ideal) m ρ c) (Proc.devRef .tc Cert.KernelIdeal.main_v79) = (Rv19 m' c) (Proc.devRef .tc Cert.ReferenceIdeal.main_v106) := st_v79 hag
  have hw : (Cert.KernelIdeal.Gen.W13 (F := Ideal) m ρ c) (Proc.devRef .tc Cert.KernelIdeal.main_arg10) = (Rv19 m' c) (Proc.devRef .tc Cert.ReferenceIdeal.main_arg10) := ((((Cert.KernelIdeal.Gen.W13_of_ne m ρ c Cert.KernelIdeal.main_arg10 (by decide)).trans ((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_arg10) (by decide)).trans ((StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_arg10) (by decide)).trans ((StableHlo.after_of_writes_sub (Cert.KernelIdeal.Gen.hostOps3 (F := Ideal)) (Cert.KernelIdeal.Gen.W9 (F := Ideal) m ρ c) Cert.KernelIdeal.Hand.hostOps3_wsub (r := Cert.KernelIdeal.main_arg10) (by decide)).trans ((Cert.KernelIdeal.Gen.W9_of_ne m ρ c Cert.KernelIdeal.main_arg10 (by decide)).trans ((Cert.KernelIdeal.Gen.W8_of_ne m ρ c Cert.KernelIdeal.main_arg10 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_arg10) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_arg10) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_arg10) (by decide)).trans ((Cert.KernelIdeal.Gen.W4_of_ne m ρ c Cert.KernelIdeal.main_arg10 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg10) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg10) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg10) (by decide))))))))))))))).trans (hag.a10.trans (((StableHlo.after_of_writes_sub (Cert.ReferenceIdeal.Hand.stBn1Relu (F := Ideal)) (Rv18 m' c) Cert.ReferenceIdeal.Hand.stBn1Relu_wsub (r := Cert.ReferenceIdeal.main_arg10) (by decide)).trans ((StableHlo.after_of_writes_sub (Cert.ReferenceIdeal.Hand.stBn1B2 (F := Ideal)) (Rv17 m' c) Cert.ReferenceIdeal.Hand.stBn1B2_wsub (r := Cert.ReferenceIdeal.main_arg10) (by decide)).trans ((StableHlo.after_of_writes_sub (Cert.ReferenceIdeal.Hand.stBn1B1 (F := Ideal)) (Rv16 m' c) Cert.ReferenceIdeal.Hand.stBn1B1_wsub (r := Cert.ReferenceIdeal.main_arg10) (by decide)).trans ((StableHlo.after_of_writes_sub (Cert.ReferenceIdeal.Hand.stBn1Where (F := Ideal)) (Rv15 m' c) Cert.ReferenceIdeal.Hand.stBn1Where_wsub (r := Cert.ReferenceIdeal.main_arg10) (by decide)).trans ((StableHlo.after_of_writes_sub (Cert.ReferenceIdeal.Hand.stBn1Var (F := Ideal)) (Rv14 m' c) Cert.ReferenceIdeal.Hand.stBn1Var_wsub (r := Cert.ReferenceIdeal.main_arg10) (by decide)).trans ((StableHlo.after_of_writes_sub (Cert.ReferenceIdeal.Hand.stBn1A (F := Ideal)) (Rv13 m' c) Cert.ReferenceIdeal.Hand.stBn1A_wsub (r := Cert.ReferenceIdeal.main_arg10) (by decide)).trans ((StableHlo.after_of_writes_sub (Cert.ReferenceIdeal.Hand.stConv1 (F := Ideal)) (Rv12 m' c) Cert.ReferenceIdeal.Hand.stConv1_wsub (r := Cert.ReferenceIdeal.main_arg10) (by decide)).trans ((StableHlo.after_of_writes_sub (Cert.ReferenceIdeal.Hand.stMm1 (F := Ideal)) (Rv11 m' c) Cert.ReferenceIdeal.Hand.stMm1_wsub (r := Cert.ReferenceIdeal.main_arg10) (by decide)).trans ((StableHlo.after_of_writes_sub (Cert.ReferenceIdeal.Hand.stBn0Relu (F := Ideal)) (Rv10 m' c) Cert.ReferenceIdeal.Hand.stBn0Relu_wsub (r := Cert.ReferenceIdeal.main_arg10) (by decide)).trans ((StableHlo.after_of_writes_sub (Cert.ReferenceIdeal.Hand.stBn0B (F := Ideal)) (Rv9 m' c) Cert.ReferenceIdeal.Hand.stBn0B_wsub (r := Cert.ReferenceIdeal.main_arg10) (by decide)).trans ((StableHlo.after_of_writes_sub (Cert.ReferenceIdeal.Hand.stBn0Where (F := Ideal)) (Rv8 m' c) Cert.ReferenceIdeal.Hand.stBn0Where_wsub (r := Cert.ReferenceIdeal.main_arg10) (by decide)).trans ((StableHlo.after_of_writes_sub (Cert.ReferenceIdeal.Hand.stBn0Var (F := Ideal)) (Rv7 m' c) Cert.ReferenceIdeal.Hand.stBn0Var_wsub (r := Cert.ReferenceIdeal.main_arg10) (by decide)).trans ((StableHlo.after_of_writes_sub (Cert.ReferenceIdeal.Hand.stBn0A2 (F := Ideal)) (Rv6 m' c) Cert.ReferenceIdeal.Hand.stBn0A2_wsub (r := Cert.ReferenceIdeal.main_arg10) (by decide)).trans ((StableHlo.after_of_writes_sub (Cert.ReferenceIdeal.Hand.stBn0A1 (F := Ideal)) (Rv5 m' c) Cert.ReferenceIdeal.Hand.stBn0A1_wsub (r := Cert.ReferenceIdeal.main_arg10) (by decide)).trans ((StableHlo.after_of_writes_sub (Cert.ReferenceIdeal.Hand.stConv0 (F := Ideal)) (Rv4 m' c) Cert.ReferenceIdeal.Hand.stConv0_wsub (r := Cert.ReferenceIdeal.main_arg10) (by decide)).trans ((StableHlo.after_of_writes_sub (Cert.ReferenceIdeal.Hand.stMm0 (F := Ideal)) (Rv3 m' c) Cert.ReferenceIdeal.Hand.stMm0_wsub (r := Cert.ReferenceIdeal.main_arg10) (by decide)).trans ((StableHlo.after_of_writes_sub (Cert.ReferenceIdeal.Hand.stPrepB (F := Ideal)) (Rv2 m' c) Cert.ReferenceIdeal.Hand.stPrepB_wsub (r := Cert.ReferenceIdeal.main_arg10) (by decide)).trans ((StableHlo.after_of_writes_sub (Cert.ReferenceIdeal.Hand.stPrepCall (F := Ideal)) (Rv1 m' c) Cert.ReferenceIdeal.Hand.stPrepCall_wsub (r := Cert.ReferenceIdeal.main_arg10) (by decide)).trans (StableHlo.after_of_writes_sub (Cert.ReferenceIdeal.Hand.stPrepA (F := Ideal)) (Rv0 m' c) Cert.ReferenceIdeal.Hand.stPrepA_wsub (r := Cert.ReferenceIdeal.main_arg10) (by decide))))))))))))))))))))).symm))
  refine (Cert.KernelIdeal.Gen.W14_arr m ρ c 2).trans (funext fun i => ?_)
  obtain ⟨r, q, rfl⟩ : ∃ (r : Fin 50000) (q : Fin 40), i = ix2 r q := ⟨i 0, i 1, eq_ix2 i⟩
  exact (Cert.KernelIdeal.Hand.mm4_apply (Cert.KernelIdeal.Gen.V13 (F := Ideal) m ρ) c r q).trans
    ((sum_mul_congr _ _ _ _ (fun k => congrFun hx (ix2 r k)) (fun k => congrFun hw (ix2 k q))).trans
      (Cert.ReferenceIdeal.Hand.refMm2_apply (Rv19 m' c) r q).symm)

/-! ## The third aggregation -/

theorem st_v96 (hag : ArgsAgree m ρ m' c) :
    after (Cert.KernelIdeal.Gen.hostOps5 (F := Ideal)) (Cert.KernelIdeal.Gen.W14 (F := Ideal) m ρ c) (Proc.devRef .tc Cert.KernelIdeal.main_v96) = (Rv21 m' c) (Proc.devRef .tc Cert.ReferenceIdeal.main_v123) :=
  ((congrFun (preload5 Cert.KernelIdeal.main_v80 Cert.KernelIdeal.main_arg11 Cert.KernelIdeal.main_v3 Cert.KernelIdeal.main_v6 Cert.KernelIdeal.main_v29 ⟨by decide, rfl⟩ ⟨by decide, rfl⟩ ⟨by decide, rfl⟩ ⟨by decide, rfl⟩ ⟨by decide, rfl⟩
      (Cert.KernelIdeal.Gen.hostOps5 (F := Ideal)) (Cert.KernelIdeal.Gen.W14 (F := Ideal) m ρ c) ((Rv20 m' c) (Proc.devRef .tc Cert.ReferenceIdeal.main_v107)) ((Rv20 m' c) (Proc.devRef .tc Cert.ReferenceIdeal.main_arg11)) ((Rv20 m' c) (Proc.devRef .tc Cert.ReferenceIdeal.main_v3)) ((Rv20 m' c) (Proc.devRef .tc Cert.ReferenceIdeal.main_v6)) ((Rv20 m' c) (Proc.devRef .tc Cert.ReferenceIdeal.main_v29))
      (st_v80 hag) ((((Cert.KernelIdeal.Gen.W14_of_ne m ρ c Cert.KernelIdeal.main_arg11 (by decide)).trans ((Cert.KernelIdeal.Gen.W13_of_ne m ρ c Cert.KernelIdeal.main_arg11 (by decide)).trans ((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_arg11) (by decide)).trans ((StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_arg11) (by decide)).trans ((StableHlo.after_of_writes_sub (Cert.KernelIdeal.Gen.hostOps3 (F := Ideal)) (Cert.KernelIdeal.Gen.W9 (F := Ideal) m ρ c) Cert.KernelIdeal.Hand.hostOps3_wsub (r := Cert.KernelIdeal.main_arg11) (by decide)).trans ((Cert.KernelIdeal.Gen.W9_of_ne m ρ c Cert.KernelIdeal.main_arg11 (by decide)).trans ((Cert.KernelIdeal.Gen.W8_of_ne m ρ c Cert.KernelIdeal.main_arg11 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_arg11) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_arg11) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_arg11) (by decide)).trans ((Cert.KernelIdeal.Gen.W4_of_ne m ρ c Cert.KernelIdeal.main_arg11 (by decide)).trans ((StableHlo.after_of_writes_sub (Cert.KernelIdeal.Gen.hostOps0_2 (F := Ideal)) (Cert.KernelIdeal.Gen.W2 (F := Ideal) m ρ c) Cert.KernelIdeal.Hand.hostOps0_2_wsub (r := Cert.KernelIdeal.main_arg11) (by decide)).trans ((StableHlo.after_of_writes_sub (Cert.KernelIdeal.Gen.hostOps0_1 (F := Ideal)) (Cert.KernelIdeal.Gen.W1 (F := Ideal) m ρ c) Cert.KernelIdeal.Hand.hostOps0_1_wsub (r := Cert.KernelIdeal.main_arg11) (by decide)).trans (StableHlo.after_of_writes_sub (Cert.KernelIdeal.Gen.hostOps0 (F := Ideal)) (Cert.KernelIdeal.Gen.W0 (F := Ideal) m ρ c) Cert.KernelIdeal.Hand.hostOps0_wsub (r := Cert.KernelIdeal.main_arg11) (by decide)))))))))))))))).trans (hag.a11.trans (((StableHlo.after_of_writes_sub (Cert.ReferenceIdeal.Hand.stMm2 (F := Ideal)) (Rv19 m' c) Cert.ReferenceIdeal.Hand.stMm2_wsub (r := Cert.ReferenceIdeal.main_arg11) (by decide)).trans ((StableHlo.after_of_writes_sub (Cert.ReferenceIdeal.Hand.stBn1Relu (F := Ideal)) (Rv18 m' c) Cert.ReferenceIdeal.Hand.stBn1Relu_wsub (r := Cert.ReferenceIdeal.main_arg11) (by decide)).trans ((StableHlo.after_of_writes_sub (Cert.ReferenceIdeal.Hand.stBn1B2 (F := Ideal)) (Rv17 m' c) Cert.ReferenceIdeal.Hand.stBn1B2_wsub (r := Cert.ReferenceIdeal.main_arg11) (by decide)).trans ((StableHlo.after_of_writes_sub (Cert.ReferenceIdeal.Hand.stBn1B1 (F := Ideal)) (Rv16 m' c) Cert.ReferenceIdeal.Hand.stBn1B1_wsub (r := Cert.ReferenceIdeal.main_arg11) (by decide)).trans ((StableHlo.after_of_writes_sub (Cert.ReferenceIdeal.Hand.stBn1Where (F := Ideal)) (Rv15 m' c) Cert.ReferenceIdeal.Hand.stBn1Where_wsub (r := Cert.ReferenceIdeal.main_arg11) (by decide)).trans ((StableHlo.after_of_writes_sub (Cert.ReferenceIdeal.Hand.stBn1Var (F := Ideal)) (Rv14 m' c) Cert.ReferenceIdeal.Hand.stBn1Var_wsub (r := Cert.ReferenceIdeal.main_arg11) (by decide)).trans ((StableHlo.after_of_writes_sub (Cert.ReferenceIdeal.Hand.stBn1A (F := Ideal)) (Rv13 m' c) Cert.ReferenceIdeal.Hand.stBn1A_wsub (r := Cert.ReferenceIdeal.main_arg11) (by decide)).trans ((StableHlo.after_of_writes_sub (Cert.ReferenceIdeal.Hand.stConv1 (F := Ideal)) (Rv12 m' c) Cert.ReferenceIdeal.Hand.stConv1_wsub (r := Cert.ReferenceIdeal.main_arg11) (by decide)).trans ((StableHlo.after_of_writes_sub (Cert.ReferenceIdeal.Hand.stMm1 (F := Ideal)) (Rv11 m' c) Cert.ReferenceIdeal.Hand.stMm1_wsub (r := Cert.ReferenceIdeal.main_arg11) (by decide)).trans ((StableHlo.after_of_writes_sub (Cert.ReferenceIdeal.Hand.stBn0Relu (F := Ideal)) (Rv10 m' c) Cert.ReferenceIdeal.Hand.stBn0Relu_wsub (r := Cert.ReferenceIdeal.main_arg11) (by decide)).trans ((StableHlo.after_of_writes_sub (Cert.ReferenceIdeal.Hand.stBn0B (F := Ideal)) (Rv9 m' c) Cert.ReferenceIdeal.Hand.stBn0B_wsub (r := Cert.ReferenceIdeal.main_arg11) (by decide)).trans ((StableHlo.after_of_writes_sub (Cert.ReferenceIdeal.Hand.stBn0Where (F := Ideal)) (Rv8 m' c) Cert.ReferenceIdeal.Hand.stBn0Where_wsub (r := Cert.ReferenceIdeal.main_arg11) (by decide)).trans ((StableHlo.after_of_writes_sub (Cert.ReferenceIdeal.Hand.stBn0Var (F := Ideal)) (Rv7 m' c) Cert.ReferenceIdeal.Hand.stBn0Var_wsub (r := Cert.ReferenceIdeal.main_arg11) (by decide)).trans ((StableHlo.after_of_writes_sub (Cert.ReferenceIdeal.Hand.stBn0A2 (F := Ideal)) (Rv6 m' c) Cert.ReferenceIdeal.Hand.stBn0A2_wsub (r := Cert.ReferenceIdeal.main_arg11) (by decide)).trans ((StableHlo.after_of_writes_sub (Cert.ReferenceIdeal.Hand.stBn0A1 (F := Ideal)) (Rv5 m' c) Cert.ReferenceIdeal.Hand.stBn0A1_wsub (r := Cert.ReferenceIdeal.main_arg11) (by decide)).trans ((StableHlo.after_of_writes_sub (Cert.ReferenceIdeal.Hand.stConv0 (F := Ideal)) (Rv4 m' c) Cert.ReferenceIdeal.Hand.stConv0_wsub (r := Cert.ReferenceIdeal.main_arg11) (by decide)).trans ((StableHlo.after_of_writes_sub (Cert.ReferenceIdeal.Hand.stMm0 (F := Ideal)) (Rv3 m' c) Cert.ReferenceIdeal.Hand.stMm0_wsub (r := Cert.ReferenceIdeal.main_arg11) (by decide)).trans ((StableHlo.after_of_writes_sub (Cert.ReferenceIdeal.Hand.stPrepB (F := Ideal)) (Rv2 m' c) Cert.ReferenceIdeal.Hand.stPrepB_wsub (r := Cert.ReferenceIdeal.main_arg11) (by decide)).trans ((StableHlo.after_of_writes_sub (Cert.ReferenceIdeal.Hand.stPrepCall (F := Ideal)) (Rv1 m' c) Cert.ReferenceIdeal.Hand.stPrepCall_wsub (r := Cert.ReferenceIdeal.main_arg11) (by decide)).trans (StableHlo.after_of_writes_sub (Cert.ReferenceIdeal.Hand.stPrepA (F := Ideal)) (Rv0 m' c) Cert.ReferenceIdeal.Hand.stPrepA_wsub (r := Cert.ReferenceIdeal.main_arg11) (by decide)))))))))))))))))))))).symm))
      ((((Cert.KernelIdeal.Gen.W14_of_ne m ρ c Cert.KernelIdeal.main_v3 (by decide)).trans ((Cert.KernelIdeal.Gen.W13_of_ne m ρ c Cert.KernelIdeal.main_v3 (by decide)).trans ((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_v3) (by decide)).trans ((StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_v3) (by decide)).trans ((StableHlo.after_of_writes_sub (Cert.KernelIdeal.Gen.hostOps3 (F := Ideal)) (Cert.KernelIdeal.Gen.W9 (F := Ideal) m ρ c) Cert.KernelIdeal.Hand.hostOps3_wsub (r := Cert.KernelIdeal.main_v3) (by decide)).trans ((Cert.KernelIdeal.Gen.W9_of_ne m ρ c Cert.KernelIdeal.main_v3 (by decide)).trans ((Cert.KernelIdeal.Gen.W8_of_ne m ρ c Cert.KernelIdeal.main_v3 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v3) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_v3) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_v3) (by decide)).trans (Cert.KernelIdeal.Gen.W4_of_ne m ρ c Cert.KernelIdeal.main_v3 (by decide))))))))))))).trans ((st_v3 hag).trans (((StableHlo.after_of_writes_sub (Cert.ReferenceIdeal.Hand.stMm2 (F := Ideal)) (Rv19 m' c) Cert.ReferenceIdeal.Hand.stMm2_wsub (r := Cert.ReferenceIdeal.main_v3) (by decide)).trans ((StableHlo.after_of_writes_sub (Cert.ReferenceIdeal.Hand.stBn1Relu (F := Ideal)) (Rv18 m' c) Cert.ReferenceIdeal.Hand.stBn1Relu_wsub (r := Cert.ReferenceIdeal.main_v3) (by decide)).trans ((StableHlo.after_of_writes_sub (Cert.ReferenceIdeal.Hand.stBn1B2 (F := Ideal)) (Rv17 m' c) Cert.ReferenceIdeal.Hand.stBn1B2_wsub (r := Cert.ReferenceIdeal.main_v3) (by decide)).trans ((StableHlo.after_of_writes_sub (Cert.ReferenceIdeal.Hand.stBn1B1 (F := Ideal)) (Rv16 m' c) Cert.ReferenceIdeal.Hand.stBn1B1_wsub (r := Cert.ReferenceIdeal.main_v3) (by decide)).trans ((StableHlo.after_of_writes_sub (Cert.ReferenceIdeal.Hand.stBn1Where (F := Ideal)) (Rv15 m' c) Cert.ReferenceIdeal.Hand.stBn1Where_wsub (r := Cert.ReferenceIdeal.main_v3) (by decide)).trans ((StableHlo.after_of_writes_sub (Cert.ReferenceIdeal.Hand.stBn1Var (F := Ideal)) (Rv14 m' c) Cert.ReferenceIdeal.Hand.stBn1Var_wsub (r := Cert.ReferenceIdeal.main_v3) (by decide)).trans ((StableHlo.after_of_writes_sub (Cert.ReferenceIdeal.Hand.stBn1A (F := Ideal)) (Rv13 m' c) Cert.ReferenceIdeal.Hand.stBn1A_wsub (r := Cert.ReferenceIdeal.main_v3) (by decide)).trans ((StableHlo.after_of_writes_sub (Cert.ReferenceIdeal.Hand.stConv1 (F := Ideal)) (Rv12 m' c) Cert.ReferenceIdeal.Hand.stConv1_wsub (r := Cert.ReferenceIdeal.main_v3) (by decide)).trans ((StableHlo.after_of_writes_sub (Cert.ReferenceIdeal.Hand.stMm1 (F := Ideal)) (Rv11 m' c) Cert.ReferenceIdeal.Hand.stMm1_wsub (r := Cert.ReferenceIdeal.main_v3) (by decide)).trans ((StableHlo.after_of_writes_sub (Cert.ReferenceIdeal.Hand.stBn0Relu (F := Ideal)) (Rv10 m' c) Cert.ReferenceIdeal.Hand.stBn0Relu_wsub (r := Cert.ReferenceIdeal.main_v3) (by decide)).trans ((StableHlo.after_of_writes_sub (Cert.ReferenceIdeal.Hand.stBn0B (F := Ideal)) (Rv9 m' c) Cert.ReferenceIdeal.Hand.stBn0B_wsub (r := Cert.ReferenceIdeal.main_v3) (by decide)).trans ((StableHlo.after_of_writes_sub (Cert.ReferenceIdeal.Hand.stBn0Where (F := Ideal)) (Rv8 m' c) Cert.ReferenceIdeal.Hand.stBn0Where_wsub (r := Cert.ReferenceIdeal.main_v3) (by decide)).trans ((StableHlo.after_of_writes_sub (Cert.ReferenceIdeal.Hand.stBn0Var (F := Ideal)) (Rv7 m' c) Cert.ReferenceIdeal.Hand.stBn0Var_wsub (r := Cert.ReferenceIdeal.main_v3) (by decide)).trans ((StableHlo.after_of_writes_sub (Cert.ReferenceIdeal.Hand.stBn0A2 (F := Ideal)) (Rv6 m' c) Cert.ReferenceIdeal.Hand.stBn0A2_wsub (r := Cert.ReferenceIdeal.main_v3) (by decide)).trans ((StableHlo.after_of_writes_sub (Cert.ReferenceIdeal.Hand.stBn0A1 (F := Ideal)) (Rv5 m' c) Cert.ReferenceIdeal.Hand.stBn0A1_wsub (r := Cert.ReferenceIdeal.main_v3) (by decide)).trans ((StableHlo.after_of_writes_sub (Cert.ReferenceIdeal.Hand.stConv0 (F := Ideal)) (Rv4 m' c) Cert.ReferenceIdeal.Hand.stConv0_wsub (r := Cert.ReferenceIdeal.main_v3) (by decide)).trans (StableHlo.after_of_writes_sub (Cert.ReferenceIdeal.Hand.stMm0 (F := Ideal)) (Rv3 m' c) Cert.ReferenceIdeal.Hand.stMm0_wsub (r := Cert.ReferenceIdeal.main_v3) (by decide))))))))))))))))))).symm))
      ((((Cert.KernelIdeal.Gen.W14_of_ne m ρ c Cert.KernelIdeal.main_v6 (by decide)).trans ((Cert.KernelIdeal.Gen.W13_of_ne m ρ c Cert.KernelIdeal.main_v6 (by decide)).trans ((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_v6) (by decide)).trans ((StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_v6) (by decide)).trans ((StableHlo.after_of_writes_sub (Cert.KernelIdeal.Gen.hostOps3 (F := Ideal)) (Cert.KernelIdeal.Gen.W9 (F := Ideal) m ρ c) Cert.KernelIdeal.Hand.hostOps3_wsub (r := Cert.KernelIdeal.main_v6) (by decide)).trans ((Cert.KernelIdeal.Gen.W9_of_ne m ρ c Cert.KernelIdeal.main_v6 (by decide)).trans ((Cert.KernelIdeal.Gen.W8_of_ne m ρ c Cert.KernelIdeal.main_v6 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v6) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_v6) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_v6) (by decide)).trans (Cert.KernelIdeal.Gen.W4_of_ne m ρ c Cert.KernelIdeal.main_v6 (by decide))))))))))))).trans ((st_v6 hag).trans (((StableHlo.after_of_writes_sub (Cert.ReferenceIdeal.Hand.stMm2 (F := Ideal)) (Rv19 m' c) Cert.ReferenceIdeal.Hand.stMm2_wsub (r := Cert.ReferenceIdeal.main_v6) (by decide)).trans ((StableHlo.after_of_writes_sub (Cert.ReferenceIdeal.Hand.stBn1Relu (F := Ideal)) (Rv18 m' c) Cert.ReferenceIdeal.Hand.stBn1Relu_wsub (r := Cert.ReferenceIdeal.main_v6) (by decide)).trans ((StableHlo.after_of_writes_sub (Cert.ReferenceIdeal.Hand.stBn1B2 (F := Ideal)) (Rv17 m' c) Cert.ReferenceIdeal.Hand.stBn1B2_wsub (r := Cert.ReferenceIdeal.main_v6) (by decide)).trans ((StableHlo.after_of_writes_sub (Cert.ReferenceIdeal.Hand.stBn1B1 (F := Ideal)) (Rv16 m' c) Cert.ReferenceIdeal.Hand.stBn1B1_wsub (r := Cert.ReferenceIdeal.main_v6) (by decide)).trans ((StableHlo.after_of_writes_sub (Cert.ReferenceIdeal.Hand.stBn1Where (F := Ideal)) (Rv15 m' c) Cert.ReferenceIdeal.Hand.stBn1Where_wsub (r := Cert.ReferenceIdeal.main_v6) (by decide)).trans ((StableHlo.after_of_writes_sub (Cert.ReferenceIdeal.Hand.stBn1Var (F := Ideal)) (Rv14 m' c) Cert.ReferenceIdeal.Hand.stBn1Var_wsub (r := Cert.ReferenceIdeal.main_v6) (by decide)).trans ((StableHlo.after_of_writes_sub (Cert.ReferenceIdeal.Hand.stBn1A (F := Ideal)) (Rv13 m' c) Cert.ReferenceIdeal.Hand.stBn1A_wsub (r := Cert.ReferenceIdeal.main_v6) (by decide)).trans ((StableHlo.after_of_writes_sub (Cert.ReferenceIdeal.Hand.stConv1 (F := Ideal)) (Rv12 m' c) Cert.ReferenceIdeal.Hand.stConv1_wsub (r := Cert.ReferenceIdeal.main_v6) (by decide)).trans ((StableHlo.after_of_writes_sub (Cert.ReferenceIdeal.Hand.stMm1 (F := Ideal)) (Rv11 m' c) Cert.ReferenceIdeal.Hand.stMm1_wsub (r := Cert.ReferenceIdeal.main_v6) (by decide)).trans ((StableHlo.after_of_writes_sub (Cert.ReferenceIdeal.Hand.stBn0Relu (F := Ideal)) (Rv10 m' c) Cert.ReferenceIdeal.Hand.stBn0Relu_wsub (r := Cert.ReferenceIdeal.main_v6) (by decide)).trans ((StableHlo.after_of_writes_sub (Cert.ReferenceIdeal.Hand.stBn0B (F := Ideal)) (Rv9 m' c) Cert.ReferenceIdeal.Hand.stBn0B_wsub (r := Cert.ReferenceIdeal.main_v6) (by decide)).trans ((StableHlo.after_of_writes_sub (Cert.ReferenceIdeal.Hand.stBn0Where (F := Ideal)) (Rv8 m' c) Cert.ReferenceIdeal.Hand.stBn0Where_wsub (r := Cert.ReferenceIdeal.main_v6) (by decide)).trans ((StableHlo.after_of_writes_sub (Cert.ReferenceIdeal.Hand.stBn0Var (F := Ideal)) (Rv7 m' c) Cert.ReferenceIdeal.Hand.stBn0Var_wsub (r := Cert.ReferenceIdeal.main_v6) (by decide)).trans ((StableHlo.after_of_writes_sub (Cert.ReferenceIdeal.Hand.stBn0A2 (F := Ideal)) (Rv6 m' c) Cert.ReferenceIdeal.Hand.stBn0A2_wsub (r := Cert.ReferenceIdeal.main_v6) (by decide)).trans ((StableHlo.after_of_writes_sub (Cert.ReferenceIdeal.Hand.stBn0A1 (F := Ideal)) (Rv5 m' c) Cert.ReferenceIdeal.Hand.stBn0A1_wsub (r := Cert.ReferenceIdeal.main_v6) (by decide)).trans ((StableHlo.after_of_writes_sub (Cert.ReferenceIdeal.Hand.stConv0 (F := Ideal)) (Rv4 m' c) Cert.ReferenceIdeal.Hand.stConv0_wsub (r := Cert.ReferenceIdeal.main_v6) (by decide)).trans (StableHlo.after_of_writes_sub (Cert.ReferenceIdeal.Hand.stMm0 (F := Ideal)) (Rv3 m' c) Cert.ReferenceIdeal.Hand.stMm0_wsub (r := Cert.ReferenceIdeal.main_v6) (by decide))))))))))))))))))).symm))
      ((((Cert.KernelIdeal.Gen.W14_of_ne m ρ c Cert.KernelIdeal.main_v29 (by decide)).trans ((Cert.KernelIdeal.Gen.W13_of_ne m ρ c Cert.KernelIdeal.main_v29 (by decide)).trans ((StableHlo.after_of_writes_sub (Cert.KernelIdeal.Gen.hostOps3_2 (F := Ideal)) (Cert.KernelIdeal.Gen.W11 (F := Ideal) m ρ c) Cert.KernelIdeal.Hand.hostOps3_2_wsub (r := Cert.KernelIdeal.main_v29) (by decide)).trans ((StableHlo.after_of_writes_sub (Cert.KernelIdeal.Gen.hostOps3_1 (F := Ideal)) (Cert.KernelIdeal.Gen.W10 (F := Ideal) m ρ c) Cert.KernelIdeal.Hand.hostOps3_1_wsub (r := Cert.KernelIdeal.main_v29) (by decide)).trans ((StableHlo.after_of_writes_sub (Cert.KernelIdeal.Gen.hostOps3 (F := Ideal)) (Cert.KernelIdeal.Gen.W9 (F := Ideal) m ρ c) Cert.KernelIdeal.Hand.hostOps3_wsub (r := Cert.KernelIdeal.main_v29) (by decide)).trans ((Cert.KernelIdeal.Gen.W9_of_ne m ρ c Cert.KernelIdeal.main_v29 (by decide)).trans ((Cert.KernelIdeal.Gen.W8_of_ne m ρ c Cert.KernelIdeal.main_v29 (by decide)).trans ((StableHlo.after_of_writes_sub (Cert.KernelIdeal.Gen.hostOps1_2 (F := Ideal)) (Cert.KernelIdeal.Gen.W6 (F := Ideal) m ρ c) Cert.KernelIdeal.Hand.hostOps1_2_wsub (r := Cert.KernelIdeal.main_v29) (by decide)).trans ((StableHlo.after_of_writes_sub (Cert.KernelIdeal.Gen.hostOps1_1 (F := Ideal)) (Cert.KernelIdeal.Gen.W5 (F := Ideal) m ρ c) Cert.KernelIdeal.Hand.hostOps1_1_wsub (r := Cert.KernelIdeal.main_v29) (by decide)).trans ((StableHlo.after_of_writes_sub (Cert.KernelIdeal.Gen.hostOps1 (F := Ideal)) (Cert.KernelIdeal.Gen.W4 (F := Ideal) m ρ c) Cert.KernelIdeal.Hand.hostOps1_wsub (r := Cert.KernelIdeal.main_v29) (by decide)).trans (Cert.KernelIdeal.Gen.W4_of_ne m ρ c Cert.KernelIdeal.main_v29 (by decide))))))))))))).trans ((st_v29 hag).trans (((StableHlo.after_of_writes_sub (Cert.ReferenceIdeal.Hand.stMm2 (F := Ideal)) (Rv19 m' c) Cert.ReferenceIdeal.Hand.stMm2_wsub (r := Cert.ReferenceIdeal.main_v29) (by decide)).trans ((StableHlo.after_of_writes_sub (Cert.ReferenceIdeal.Hand.stBn1Relu (F := Ideal)) (Rv18 m' c) Cert.ReferenceIdeal.Hand.stBn1Relu_wsub (r := Cert.ReferenceIdeal.main_v29) (by decide)).trans ((StableHlo.after_of_writes_sub (Cert.ReferenceIdeal.Hand.stBn1B2 (F := Ideal)) (Rv17 m' c) Cert.ReferenceIdeal.Hand.stBn1B2_wsub (r := Cert.ReferenceIdeal.main_v29) (by decide)).trans ((StableHlo.after_of_writes_sub (Cert.ReferenceIdeal.Hand.stBn1B1 (F := Ideal)) (Rv16 m' c) Cert.ReferenceIdeal.Hand.stBn1B1_wsub (r := Cert.ReferenceIdeal.main_v29) (by decide)).trans ((StableHlo.after_of_writes_sub (Cert.ReferenceIdeal.Hand.stBn1Where (F := Ideal)) (Rv15 m' c) Cert.ReferenceIdeal.Hand.stBn1Where_wsub (r := Cert.ReferenceIdeal.main_v29) (by decide)).trans ((StableHlo.after_of_writes_sub (Cert.ReferenceIdeal.Hand.stBn1Var (F := Ideal)) (Rv14 m' c) Cert.ReferenceIdeal.Hand.stBn1Var_wsub (r := Cert.ReferenceIdeal.main_v29) (by decide)).trans ((StableHlo.after_of_writes_sub (Cert.ReferenceIdeal.Hand.stBn1A (F := Ideal)) (Rv13 m' c) Cert.ReferenceIdeal.Hand.stBn1A_wsub (r := Cert.ReferenceIdeal.main_v29) (by decide)).trans ((StableHlo.after_of_writes_sub (Cert.ReferenceIdeal.Hand.stConv1 (F := Ideal)) (Rv12 m' c) Cert.ReferenceIdeal.Hand.stConv1_wsub (r := Cert.ReferenceIdeal.main_v29) (by decide)).trans ((StableHlo.after_of_writes_sub (Cert.ReferenceIdeal.Hand.stMm1 (F := Ideal)) (Rv11 m' c) Cert.ReferenceIdeal.Hand.stMm1_wsub (r := Cert.ReferenceIdeal.main_v29) (by decide)).trans ((StableHlo.after_of_writes_sub (Cert.ReferenceIdeal.Hand.stBn0Relu (F := Ideal)) (Rv10 m' c) Cert.ReferenceIdeal.Hand.stBn0Relu_wsub (r := Cert.ReferenceIdeal.main_v29) (by decide)).trans ((StableHlo.after_of_writes_sub (Cert.ReferenceIdeal.Hand.stBn0B (F := Ideal)) (Rv9 m' c) Cert.ReferenceIdeal.Hand.stBn0B_wsub (r := Cert.ReferenceIdeal.main_v29) (by decide)).trans ((StableHlo.after_of_writes_sub (Cert.ReferenceIdeal.Hand.stBn0Where (F := Ideal)) (Rv8 m' c) Cert.ReferenceIdeal.Hand.stBn0Where_wsub (r := Cert.ReferenceIdeal.main_v29) (by decide)).trans ((StableHlo.after_of_writes_sub (Cert.ReferenceIdeal.Hand.stBn0Var (F := Ideal)) (Rv7 m' c) Cert.ReferenceIdeal.Hand.stBn0Var_wsub (r := Cert.ReferenceIdeal.main_v29) (by decide)).trans ((StableHlo.after_of_writes_sub (Cert.ReferenceIdeal.Hand.stBn0A2 (F := Ideal)) (Rv6 m' c) Cert.ReferenceIdeal.Hand.stBn0A2_wsub (r := Cert.ReferenceIdeal.main_v29) (by decide)).trans ((StableHlo.after_of_writes_sub (Cert.ReferenceIdeal.Hand.stBn0A1 (F := Ideal)) (Rv5 m' c) Cert.ReferenceIdeal.Hand.stBn0A1_wsub (r := Cert.ReferenceIdeal.main_v29) (by decide)).trans ((StableHlo.after_of_writes_sub (Cert.ReferenceIdeal.Hand.stConv0 (F := Ideal)) (Rv4 m' c) Cert.ReferenceIdeal.Hand.stConv0_wsub (r := Cert.ReferenceIdeal.main_v29) (by decide)).trans (StableHlo.after_of_writes_sub (Cert.ReferenceIdeal.Hand.stMm0 (F := Ideal)) (Rv3 m' c) Cert.ReferenceIdeal.Hand.stMm0_wsub (r := Cert.ReferenceIdeal.main_v29) (by decide))))))))))))))))))).symm))) (Proc.devRef .tc Cert.KernelIdeal.main_v96)).symm.trans
    ((conv2 (Cert.KernelIdeal.Gen.W14 (F := Ideal) m ρ c) (Rv20 m' c) ((Rv20 m' c) (Proc.devRef .tc Cert.ReferenceIdeal.main_v107)) ((Rv20 m' c) (Proc.devRef .tc Cert.ReferenceIdeal.main_arg11)) ((Rv20 m' c) (Proc.devRef .tc Cert.ReferenceIdeal.main_v3)) ((Rv20 m' c) (Proc.devRef .tc Cert.ReferenceIdeal.main_v6)) ((Rv20 m' c) (Proc.devRef .tc Cert.ReferenceIdeal.main_v29))).trans
      (congrFun (preload5 Cert.ReferenceIdeal.main_v107 Cert.ReferenceIdeal.main_arg11 Cert.ReferenceIdeal.main_v3 Cert.ReferenceIdeal.main_v6 Cert.ReferenceIdeal.main_v29 ⟨by decide, rfl⟩ ⟨by decide, rfl⟩ ⟨by decide, rfl⟩ ⟨by decide, rfl⟩ ⟨by decide, rfl⟩
        (Cert.ReferenceIdeal.Hand.stConv2 (F := Ideal)) (Rv20 m' c) _ _ _ _ _ rfl rfl rfl rfl rfl) (Proc.devRef .tc Cert.ReferenceIdeal.main_v123))))

/-! ## The results -/

/-- The reference's fold over its whole operation list is the last boundary's contents. -/
theorem ops_eq_rv : after (Cert.ReferenceIdeal.Hand.ops (F := Ideal)) (Rv0 m' c) = (Rv21 m' c) :=
  (Cert.ReferenceIdeal.Hand.after_ops _).trans (by simp only [Cert.ReferenceIdeal.Hand.stBn0A, Cert.ReferenceIdeal.Hand.stBn1B, Cert.ReferenceIdeal.Hand.after_append])

/-- The kernel program's result buffer and the reference's hold the same 50000 × 40 array. -/
theorem result_eq (hag : ArgsAgree m ρ m' c) :
    (Cert.KernelIdeal.Gen.W15 (F := Ideal) m ρ c) (Proc.devRef .tc Cert.KernelIdeal.main_v96) = after (Cert.ReferenceIdeal.Hand.ops (F := Ideal)) (launchContents m' c) (Proc.devRef .tc Cert.ReferenceIdeal.main_v123) :=
  (st_v96 hag).trans (congrFun ops_eq_rv (Proc.devRef .tc Cert.ReferenceIdeal.main_v123)).symm

end

end Cert.Sim

end
-- ==== Proof.lean ====
/-
  A three-layer graph convolution with batch normalisation: the Pallas program against its jnp reference, on the
  extended reals. Both compute, from node features x (50000 × 128), an edge table (2 × 600000) and the layer
  parameters,
      out = Â (relu(BN₁(Â (relu(BN₀(Â (x W₀) + b₀)) W₁) + b₁) + h₀) W₂) + b₂,
  where Â is the symmetrically normalised adjacency with self loops (gather, scale by the edge normalisation,
  scatter-add), BN is batch normalisation over the rows with the biased variance, and h₀ is the first activation.
  The reference does everything by host operations. The kernel program keeps the graph operations on the host,
  by the same operations, and computes the three dense products and the two normalise-and-rectify steps in
  pipelined kernels over blocks of 5000 rows; its matrix unit reads bfloat16 roundings of the operands, which are
  the identity on the extended reals, and its products and the host's dot_general are the same sums there.
  Frames: every program terminates without a fault and ends with its twelve argument arrays as launched, because
  no host operation and no kernel region writes an argument; for the reference this is read off its run.
  The preservation claim of this statement is the proposition True.
  The value claim: the kernel program's run names its result as the fold of its fifteen segments at the result
  buffer; the reference's run names its result as the fold of its operations; the two folds agree stage by stage.
  No law of arithmetic beyond the definitions is used, and the finiteness of the inputs is not needed.
-/
import proofs.«121903_j7567732376250_1_alg».proof.Defs
import proofs.«121903_j7567732376250_1_alg».proof.Proof.Gen.Kernel
import proofs.«121903_j7567732376250_1_alg».proof.Proof.Gen.Kernel.Skeleton
import proofs.«121903_j7567732376250_1_alg».proof.Proof.Gen.Kernel.Launch
import proofs.«121903_j7567732376250_1_alg».proof.Proof.Gen.Kernel.Points
import proofs.«121903_j7567732376250_1_alg».proof.Proof.Gen.Kernel.Frame
import proofs.«121903_j7567732376250_1_alg».proof.Proof.Gen.KernelIdeal
import proofs.«121903_j7567732376250_1_alg».proof.Proof.Gen.KernelIdeal.Skeleton
import proofs.«121903_j7567732376250_1_alg».proof.Proof.Gen.KernelIdeal.Launch
import proofs.«121903_j7567732376250_1_alg».proof.Proof.Gen.KernelIdeal.Points
import proofs.«121903_j7567732376250_1_alg».proof.Proof.Gen.KernelIdeal.Frame
import proofs.«121903_j7567732376250_1_alg».proof.Proof.Gen.ReferenceIdeal
import proofs.«121903_j7567732376250_1_alg».proof.Proof.Gen.Pre_finite_inputs
import proofs.«121903_j7567732376250_1_alg».proof.Proof.KRun
import proofs.«121903_j7567732376250_1_alg».proof.Proof.RefRun
import proofs.«121903_j7567732376250_1_alg».proof.Proof.Assemble
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run, the result dropped; no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _)⟩)
    (Cert.ReferenceIdeal.Hand.run_main (F := Ideal) m ρ)

/-- Run from memories that agree on the arguments, the two idealized programs end with the same result array. -/
theorem algebraic : Cert.algebraic_KernelIdeal_ReferenceIdeal := by
  intro m ρ m' ρ' _ hagree
  refine ⟨fun c => Cert.KernelIdeal.Gen.W15 (F := Ideal) m ρ c (Proc.devRef .tc Cert.KernelIdeal.main_v96), Cert.KernelIdeal.Hand.run_value m ρ, ?_⟩
  refine (θ_run Cert.ReferenceIdeal.defs _ _).mono (fun r h c => ?_) (Cert.ReferenceIdeal.Hand.run_main (F := Ideal) m' ρ')
  have hag : Cert.Sim.ArgsAgree m ρ m' c :=
    ⟨(hagree c).1.symm, (hagree c).2.1.symm, (hagree c).2.2.1.symm, (hagree c).2.2.2.1.symm, (hagree c).2.2.2.2.1.symm, (hagree c).2.2.2.2.2.1.symm, (hagree c).2.2.2.2.2.2.1.symm, (hagree c).2.2.2.2.2.2.2.1.symm, (hagree c).2.2.2.2.2.2.2.2.1.symm, (hagree c).2.2.2.2.2.2.2.2.2.1.symm, (hagree c).2.2.2.2.2.2.2.2.2.2.1.symm, (hagree c).2.2.2.2.2.2.2.2.2.2.2.symm⟩
  exact ⟨(h c Cert.ReferenceIdeal.main_v123).trans (Cert.Sim.result_eq hag).symm,
      (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
